-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S320000x16 : Shape := ⟨2, ![320000, 16]⟩
abbrev S2x320000 : Shape := ⟨2, ![2, 320000]⟩
abbrev S144x128 : Shape := ⟨2, ![144, 128]⟩
abbrev S128 : Shape := ⟨1, ![128]⟩
abbrev S272x128 : Shape := ⟨2, ![272, 128]⟩
abbrev S400x128 : Shape := ⟨2, ![400, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S320000x16 : S_.BroadcastsInDim S320000x16 (![] : Fin 0 → Fin S320000x16.rank)
  reducesTo_S320000x16_S_d0_1 : S320000x16.ReducesTo [0, 1] S_
  bcast_S_S144x128 : S_.BroadcastsInDim S144x128 (![] : Fin 0 → Fin S144x128.rank)
  reducesTo_S144x128_S_d0_1 : S144x128.ReducesTo [0, 1] S_
  bcast_S_S128 : S_.BroadcastsInDim S128 (![] : Fin 0 → Fin S128.rank)
  reducesTo_S128_S_d0 : S128.ReducesTo [0] S_
  bcast_S_S272x128 : S_.BroadcastsInDim S272x128 (![] : Fin 0 → Fin S272x128.rank)
  reducesTo_S272x128_S_d0_1 : S272x128.ReducesTo [0, 1] S_
  bcast_S_S400x128 : S_.BroadcastsInDim S400x128 (![] : Fin 0 → Fin S400x128.rank)
  reducesTo_S400x128_S_d0_1 : S400x128.ReducesTo [0, 1] S_

variable [Facts]

def fn_part2 {F : FTy → Type} [FloatOps F] (main_arg8 : FVec F S128 .f32) (main_arg9 : FVec F S400x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S400x128 .f32 := Host.absf main_arg9
  let main_cst_14 : FVec F S_ .f32 := constant S_ .f32 0x7F800000#32
  let main_v40 : FVec F S400x128 .f32 := broadcastInDim S400x128 ![] bcast_S_S400x128 main_cst_14
  let main_v41 : IVec S400x128 1 := cmpf .olt main_v39 main_v40
  let main_c_15 : IVec S_ 1 := constantI S_ 1 1#1
  let main_v42 : IVec S_ 1 := (fun x v => Host.reduce IntOp.andi x v reducesTo_S400x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S144x128 .f32) (main_arg6 : FVec F S128 .f32) (main_arg7 : FVec F S272x128 .f32) (main_arg8 : FVec F S128 .f32) (main_arg9 : FVec F S400x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S144x128 .f32 := Host.absf main_arg5
  let main_cst_6 : FVec F S_ .f32 := constant S_ .f32 0x7F800000#32
  let main_v20 : FVec F S144x128 .f32 := broadcastInDim S144x128 ![] bcast_S_S144x128 main_cst_6
  let main_v21 : IVec S144x128 1 := cmpf .olt main_v19 main_v20
  let main_c_7 : IVec S_ 1 := constantI S_ 1 1#1
  let main_v22 : IVec S_ 1 := (fun x v => Host.reduce IntOp.andi x v reducesTo_S144x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S272x128 .f32 := Host.absf main_arg7
  let main_cst_10 : FVec F S_ .f32 := constant S_ .f32 0x7F800000#32
  let main_v30 : FVec F S272x128 .f32 := broadcastInDim S272x128 ![] bcast_S_S272x128 main_cst_10
  let main_v31 : IVec S272x128 1 := cmpf .olt main_v29 main_v30
  let main_c_11 : IVec S_ 1 := constantI S_ 1 1#1
  let main_v32 : IVec S_ 1 := (fun x v => Host.reduce IntOp.andi x v reducesTo_S272x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S10000x128 .f32) (main_arg1 : FVec F S320000x16 .f32) (main_arg2 : IVec S2x320000 32) (main_arg3 : FVec F S144x128 .f32) (main_arg4 : FVec F S128 .f32) (main_arg5 : FVec F S144x128 .f32) (main_arg6 : FVec F S128 .f32) (main_arg7 : FVec F S272x128 .f32) (main_arg8 : FVec F S128 .f32) (main_arg9 : FVec F S400x128 .f32) (main_arg10 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S320000x16 .f32 := Host.absf main_arg1
  let main_cst_0 : FVec F S_ .f32 := constant S_ .f32 0x7F800000#32
  let main_v5 : FVec F S320000x16 .f32 := broadcastInDim S320000x16 ![] bcast_S_S320000x16 main_cst_0
  let main_v6 : IVec S320000x16 1 := cmpf .olt main_v4 main_v5
  let main_c_1 : IVec S_ 1 := constantI S_ 1 1#1
  let main_v7 : IVec S_ 1 := (fun x v => Host.reduce IntOp.andi x v reducesTo_S320000x16_S_d0_1 h_S_) main_v6 main_c_1
  let main_v8 : IVec S_ 1 := andi main_v3 main_v7
  let main_v9 : FVec F S144x128 .f32 := Host.absf main_arg3
  let main_cst_2 : FVec F S_ .f32 := constant S_ .f32 0x7F800000#32
  let main_v10 : FVec F S144x128 .f32 := broadcastInDim S144x128 ![] bcast_S_S144x128 main_cst_2
  let main_v11 : IVec S144x128 1 := cmpf .olt main_v9 main_v10
  let main_c_3 : IVec S_ 1 := constantI S_ 1 1#1
  let main_v12 : IVec S_ 1 := (fun x v => Host.reduce IntOp.andi x v reducesTo_S144x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S10000x128 : Shape := ⟨2, ![10000, 128]⟩
abbrev S320000x16 : Shape := ⟨2, ![320000, 16]⟩
abbrev S2x320000 : Shape := ⟨2, ![2, 320000]⟩
abbrev S144x128 : Shape := ⟨2, ![144, 128]⟩
abbrev S128 : Shape := ⟨1, ![128]⟩
abbrev S272x128 : Shape := ⟨2, ![272, 128]⟩
abbrev S400x128 : Shape := ⟨2, ![400, 128]⟩
abbrev S1x320000 : Shape := ⟨2, ![1, 320000]⟩
abbrev S320000 : Shape := ⟨1, ![320000]⟩
abbrev S_ : Shape := ⟨0, ![]⟩
abbrev S10000 : Shape := ⟨1, ![10000]⟩
abbrev S320000x1 : Shape := ⟨2, ![320000, 1]⟩
abbrev S16x128 : Shape := ⟨2, ![16, 128]⟩
abbrev S16x512 : Shape := ⟨2, ![16, 512]⟩
abbrev S320000x512 : Shape := ⟨2, ![320000, 512]⟩
abbrev S8000x16 : Shape := ⟨2, ![8000, 16]⟩
abbrev S8000x512 : Shape := ⟨2, ![8000, 512]⟩
abbrev S320000x128 : Shape := ⟨2, ![320000, 128]⟩
abbrev S128x128 : Shape := ⟨2, ![128, 128]⟩
abbrev S1x128 : Shape := ⟨2, ![1, 128]⟩
abbrev S2000x128 : Shape := ⟨2, ![2000, 128]⟩
abbrev S10000x1 : Shape := ⟨2, ![10000, 1]⟩
abbrev S10000x256 : Shape := ⟨2, ![10000, 256]⟩
abbrev S256x128 : Shape := ⟨2, ![256, 128]⟩
abbrev S2000x256 : Shape := ⟨2, ![2000, 256]⟩
abbrev S10000x384 : Shape := ⟨2, ![10000, 384]⟩
abbrev S384x128 : Shape := ⟨2, ![384, 128]⟩
abbrev S2000x384 : Shape := ⟨2, ![2000, 384]⟩

abbrev nBuf : Space → Nat
  | .hbm => 116
  | .vmem => 29
  | .smem => 0
  | _ => 0

abbrev bufTy : (tb : Table) → Fin (tcTables nBuf tb) → BufTy
  | .hbm, ⟨0, _⟩ => ⟨S10000x128, .f32⟩
  | .hbm, ⟨1, _⟩ => ⟨S320000x16, .f32⟩
  | .hbm, ⟨2, _⟩ => ⟨S2x320000, .i32⟩
  | .hbm, ⟨3, _⟩ => ⟨S144x128, .f32⟩
  | .hbm, ⟨4, _⟩ => ⟨S128, .f32⟩
  | .hbm, ⟨5, _⟩ => ⟨S144x128, .f32⟩
  | .hbm, ⟨6, _⟩ => ⟨S128, .f32⟩
  | .hbm, ⟨7, _⟩ => ⟨S272x128, .f32⟩
  | .hbm, ⟨8, _⟩ => ⟨S128, .f32⟩
  | .hbm, ⟨9, _⟩ => ⟨S400x128, .f32⟩
  | .hbm, ⟨10, _⟩ => ⟨S128, .f32⟩
  | .hbm, ⟨11, _⟩ => ⟨S1x320000, .i32⟩
  | .hbm, ⟨12, _⟩ => ⟨S320000, .i32⟩
  | .hbm, ⟨13, _⟩ => ⟨S1x320000, .i32⟩
  | .hbm, ⟨14, _⟩ => ⟨S320000, .i32⟩
  | .hbm, ⟨15, _⟩ => ⟨S_, .f32⟩
  | .hbm, ⟨16, _⟩ => ⟨S320000, .f32⟩
  | .hbm, ⟨17, _⟩ => ⟨S_, .f32⟩
  | .hbm, ⟨18, _⟩ => ⟨S10000, .f32⟩
  | .hbm, ⟨19, _⟩ => ⟨S320000x1, .i32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S16x128, .f32⟩
  | .hbm, ⟨25, _⟩ => ⟨S16x128, .f32⟩
  | .hbm, ⟨26, _⟩ => ⟨S16x128, .f32⟩
  | .hbm, ⟨27, _⟩ => ⟨S16x128, .f32⟩
  | .hbm, ⟨28, _⟩ => ⟨S16x512, .f32⟩
  | .hbm, ⟨29, _⟩ => ⟨S320000x512, .f32⟩
  | .hbm, ⟨30, _⟩ => ⟨S320000x128, .f32⟩
  | .hbm, ⟨31, _⟩ => ⟨S128x128, .f32⟩
  | .hbm, ⟨32, _⟩ => ⟨S1x128, .f32⟩
  | .hbm, ⟨33, _⟩ => ⟨S10000x128, .f32⟩
  | .hbm, ⟨34, _⟩ => ⟨S_, .i32⟩
  | .hbm, ⟨35, _⟩ => ⟨S320000, .i32⟩
  | .hbm, ⟨36, _⟩ => ⟨S320000, .i1⟩
  | .hbm, ⟨37, _⟩ => ⟨S_, .i32⟩
  | .hbm, ⟨38, _⟩ => ⟨S320000, .i32⟩
  | .hbm, ⟨39, _⟩ => ⟨S320000, .i32⟩
  | .hbm, ⟨40, _⟩ => ⟨S320000, .i32⟩
  | .hbm, ⟨41, _⟩ => ⟨S320000x1, .i32⟩
  | .hbm, ⟨42, _⟩ => ⟨S320000x128, .f32⟩
  | .hbm, ⟨43, _⟩ => ⟨S320000x128, .f32⟩
  | .hbm, ⟨44, _⟩ => ⟨S_, .f32⟩
  | .hbm, ⟨45, _⟩ => ⟨S10000x128, .f32⟩
  | .hbm, ⟨46, _⟩ => ⟨S320000x1, .i32⟩
  | .hbm, ⟨47, _⟩ => ⟨S10000x128, .f32⟩
  | .hbm, ⟨48, _⟩ => ⟨S10000x1, .f32⟩
  | .hbm, ⟨49, _⟩ => ⟨S10000x128, .f32⟩
  | .hbm, ⟨50, _⟩ => ⟨S10000x128, .f32⟩
  | .hbm, ⟨51, _⟩ => ⟨S320000x128, .f32⟩
  | .hbm, ⟨52, _⟩ => ⟨S128x128, .f32⟩
  | .hbm, ⟨53, _⟩ => ⟨S1x128, .f32⟩
  | .hbm, ⟨54, _⟩ => ⟨S10000x128, .f32⟩
  | .hbm, ⟨55, _⟩ => ⟨S_, .i32⟩
  | .hbm, ⟨56, _⟩ => ⟨S320000, .i32⟩
  | .hbm, ⟨57, _⟩ => ⟨S320000, .i1⟩
  | .hbm, ⟨58, _⟩ => ⟨S_, .i32⟩
  | .hbm, ⟨59, _⟩ => ⟨S320000, .i32⟩
  | .hbm, ⟨60, _⟩ => ⟨S320000, .i32⟩
  | .hbm, ⟨61, _⟩ => ⟨S320000, .i32⟩
  | .hbm, ⟨62, _⟩ => ⟨S320000x1, .i32⟩
  | .hbm, ⟨63, _⟩ => ⟨S320000x128, .f32⟩
  | .hbm, ⟨64, _⟩ => ⟨S320000x128, .f32⟩
  | .hbm, ⟨65, _⟩ => ⟨S_, .f32⟩
  | .hbm, ⟨66, _⟩ => ⟨S10000x128, .f32⟩
  | .hbm, ⟨67, _⟩ => ⟨S320000x1, .i32⟩
  | .hbm, ⟨68, _⟩ => ⟨S10000x128, .f32⟩
  | .hbm, ⟨69, _⟩ => ⟨S10000x1, .f32⟩
  | .hbm, ⟨70, _⟩ => ⟨S10000x128, .f32⟩
  | .hbm, ⟨71, _⟩ => ⟨S10000x128, .f32⟩
  | .hbm, ⟨72, _⟩ => ⟨S10000x256, .f32⟩
  | .hbm, ⟨73, _⟩ => ⟨S320000x128, .f32⟩
  | .hbm, ⟨74, _⟩ => ⟨S256x128, .f32⟩
  | .hbm, ⟨75, _⟩ => ⟨S1x128, .f32⟩
  | .hbm, ⟨76, _⟩ => ⟨S10000x128, .f32⟩
  | .hbm, ⟨77, _⟩ => ⟨S_, .i32⟩
  | .hbm, ⟨78, _⟩ => ⟨S320000, .i32⟩
  | .hbm, ⟨79, _⟩ => ⟨S320000, .i1⟩
  | .hbm, ⟨80, _⟩ => ⟨S_, .i32⟩
  | .hbm, ⟨81, _⟩ => ⟨S320000, .i32⟩
  | .hbm, ⟨82, _⟩ => ⟨S320000, .i32⟩
  | .hbm, ⟨83, _⟩ => ⟨S320000, .i32⟩
  | .hbm, ⟨84, _⟩ => ⟨S320000x1, .i32⟩
  | .hbm, ⟨85, _⟩ => ⟨S320000x128, .f32⟩
  | .hbm, ⟨86, _⟩ => ⟨S320000x128, .f32⟩
  | .hbm, ⟨87, _⟩ => ⟨S_, .f32⟩
  | .hbm, ⟨88, _⟩ => ⟨S10000x128, .f32⟩
  | .hbm, ⟨89, _⟩ => ⟨S320000x1, .i32⟩
  | .hbm, ⟨90, _⟩ => ⟨S10000x128, .f32⟩
  | .hbm, ⟨91, _⟩ => ⟨S10000x1, .f32⟩
  | .hbm, ⟨92, _⟩ => ⟨S10000x128, .f32⟩
  | .hbm, ⟨93, _⟩ => ⟨S10000x128, .f32⟩
  | .hbm, ⟨94, _⟩ => ⟨S10000x384, .f32⟩
  | .hbm, ⟨95, _⟩ => ⟨S320000x128, .f32⟩
  | .hbm, ⟨96, _⟩ => ⟨S384x128, .f32⟩
  | .hbm, ⟨97, _⟩ => ⟨S1x128, .f32⟩
  | .hbm, ⟨98, _⟩ => ⟨S10000x128, .f32⟩
  | .hbm, ⟨99, _⟩ => ⟨S_, .i32⟩
  | .hbm, ⟨100, _⟩ => ⟨S320000, .i32⟩
  | .hbm, ⟨101, _⟩ => ⟨S320000, .i1⟩
  | .hbm, ⟨102, _⟩ => ⟨S_, .i32⟩
  | .hbm, ⟨103, _⟩ => ⟨S320000, .i32⟩
  | .hbm, ⟨104, _⟩ => ⟨S320000, .i32⟩
  | .hbm, ⟨105, _⟩ => ⟨S320000, .i32⟩
  | .hbm, ⟨106, _⟩ => ⟨S320000x1, .i32⟩
  | .hbm, ⟨107, _⟩ => ⟨S320000x128, .f32⟩
  | .hbm, ⟨108, _⟩ => ⟨S320000x128, .f32⟩
  | .hbm, ⟨109, _⟩ => ⟨S_, .f32⟩
  | .hbm, ⟨110, _⟩ => ⟨S10000x128, .f32⟩
  | .hbm, ⟨111, _⟩ => ⟨S320000x1, .i32⟩
  | .hbm, ⟨112, _⟩ => ⟨S10000x128, .f32⟩
  | .hbm, ⟨113, _⟩ => ⟨S10000x1, .f32⟩
  | .hbm, ⟨114, _⟩ => ⟨S10000x128, .f32⟩
  | .hbm, ⟨115, _⟩ => ⟨S10000x128, .f32⟩
  | .local _ .vmem, ⟨0, _⟩ => ⟨S8000x16, .f32⟩
  | .local _ .vmem, ⟨1, _⟩ => ⟨S8000x16, .f32⟩
  | .local _ .vmem, ⟨2, _⟩ => ⟨S16x512, .f32⟩
  | .local _ .vmem, ⟨3, _⟩ => ⟨S8000x512, .f32⟩
  | .local _ .vmem, ⟨4, _⟩ => ⟨S8000x512, .f32⟩
  | .local _ .vmem, ⟨5, _⟩ => ⟨S2000x128, .f32⟩
  | .local _ .vmem, ⟨6, _⟩ => ⟨S2000x128, .f32⟩
  | .local _ .vmem, ⟨7, _⟩ => ⟨S128x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S1x128, .f32⟩
  | .local _ .vmem, ⟨15, _⟩ => ⟨S2000x128, .f32⟩
  | .local _ .vmem, ⟨16, _⟩ => ⟨S2000x128, .f32⟩
  | .local _ .vmem, ⟨17, _⟩ => ⟨S2000x256, .f32⟩
  | .local _ .vmem, ⟨18, _⟩ => ⟨S2000x256, .f32⟩
  | .local _ .vmem, ⟨19, _⟩ => ⟨S256x128, .f32⟩
  | .local _ .vmem, ⟨20, _⟩ => ⟨S1x128, .f32⟩
  | .local _ .vmem, ⟨21, _⟩ => ⟨S2000x128, .f32⟩
  | .local _ .vmem, ⟨22, _⟩ => ⟨S2000x128, .f32⟩
  | .local _ .vmem, ⟨23, _⟩ => ⟨S2000x384, .f32⟩
  | .local _ .vmem, ⟨24, _⟩ => ⟨S2000x384, .f32⟩
  | .local _ .vmem, ⟨25, _⟩ => ⟨S384x128, .f32⟩
  | .local _ .vmem, ⟨26, _⟩ => ⟨S1x128, .f32⟩
  | .local _ .vmem, ⟨27, _⟩ => ⟨S2000x128, .f32⟩
  | .local _ .vmem, ⟨28, _⟩ => ⟨S2000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_4 : Ref sig .tc := ⟨.hbm, 55, rfl⟩
abbrev main_v38 : Ref sig .tc := ⟨.hbm, 56, rfl⟩
abbrev main_v39 : Ref sig .tc := ⟨.hbm, 57, rfl⟩
abbrev main_c_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_6 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_7 : Ref sig .tc := ⟨.hbm, 77, rfl⟩
abbrev main_v57 : Ref sig .tc := ⟨.hbm, 78, rfl⟩
abbrev main_v58 : Ref sig .tc := ⟨.hbm, 79, rfl⟩
abbrev main_c_8 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_9 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_c_10 : Ref sig .tc := ⟨.hbm, 99, rfl⟩
abbrev main_v76 : Ref sig .tc := ⟨.hbm, 100, rfl⟩
abbrev main_v77 : Ref sig .tc := ⟨.hbm, 101, rfl⟩
abbrev main_c_11 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_12 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg3_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem3_0 : DmaSem sig := 27
abbrev cc4_sem3_1 : DmaSem sig := 28

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x384 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S384x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  slices_S144x128_S16x128_128_0 : S144x128.Slices ![128, 0] S16x128
  slices_S272x128_S16x128_256_0 : S272x128.Slices ![256, 0] S16x128
  slices_S400x128_S16x128_384_0 : S400x128.Slices ![384, 0] S16x128
  concatenates_S16x128_S16x128_S16x128_S16x128_S16x512_d1 : Shape.Concatenates [S16x128, S16x128, S16x128, S16x128] S16x512 1
  inb_S8000x16_S8000x16_0_0 : ∀ a, (![0, 0] : Fin 2 → Nat) a + S8000x16.size a ≤ S8000x16.size a
  h_S8000x16 : 0 < S8000x16.numel
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S8000x512_S8000x512_0_0 : ∀ a, (![0, 0] : Fin 2 → Nat) a + S8000x512.size a ≤ S8000x512.size a
  h_S8000x512 : 0 < S8000x512.numel
  slices_S320000x512_S320000x128_0_0 : S320000x512.Slices ![0, 0] S320000x128
  slices_S144x128_S128x128_0_0 : S144x128.Slices ![0, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S10000x128 : S_.BroadcastsInDim S10000x128 (![] : Fin 0 → Fin S10000x128.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  slices_S320000x512_S320000x128_0_128 : S320000x512.Slices ![0, 128] S320000x128
  shapeCasts_S2000x128_S2000x128 : S2000x128.ShapeCasts S2000x128
  concatenates_S10000x128_S10000x128_S10000x256_d1 : Shape.Concatenates [S10000x128, S10000x128] S10000x256 1
  slices_S320000x512_S320000x128_0_256 : S320000x512.Slices ![0, 256] S320000x128
  slices_S272x128_S256x128_0_0 : S272x128.Slices ![0, 0] S256x128
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  concatenates_S10000x128_S10000x128_S10000x128_S10000x384_d1 : Shape.Concatenates [S10000x128, S10000x128, S10000x128] S10000x384 1
  slices_S320000x512_S320000x128_0_384 : S320000x512.Slices ![0, 384] S320000x128
  slices_S400x128_S384x128_0_0 : S400x128.Slices ![0, 0] S384x128
  inb_S2000x384_S2000x384_0_0 : ∀ a, (![0, 0] : Fin 2 → Nat) a + S2000x384.size a ≤ S2000x384.size a
  h_S2000x384 : 0 < S2000x384.numel
  shapeCasts_S2000x384_S2000x384 : S2000x384.ShapeCasts S2000x384
  inb_S384x128_S384x128_0_0 : ∀ a, (![0, 0] : Fin 2 → Nat) a + S384x128.size a ≤ S384x128.size a
  h_S384x128 : 0 < S384x128.numel
  shapeCasts_S384x128_S384x128 : S384x128.ShapeCasts S384x128
  scatter_S10000_S320000x1_S320000_n_0_0_1_wf : ScatterDims.WF S10000 S320000x1 S320000 [] [0] [0] 1
  dot_S8000x16_S16x512_S8000x512_1_0_0_1_n_n_wf : DotDims.WF S8000x16 S16x512 S8000x512 [1] [0] [0] [1] [] []
  dot_S2000x128_S128x128_S2000x128_1_0_0_1_n_n_wf : DotDims.WF S2000x128 S128x128 S2000x128 [1] [0] [0] [1] [] []
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  dot_S2000x256_S256x128_S2000x128_1_0_0_1_n_n_wf : DotDims.WF S2000x256 S256x128 S2000x128 [1] [0] [0] [1] [] []
  dot_S2000x384_S384x128_S2000x128_1_0_0_1_n_n_wf : DotDims.WF S2000x384 S384x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x16.size a ≤ S320000x16.size a
  hwx0_0 : ∀ i : grid0.Coords, EltTy.bits .f32 = 32 ∨ (Rect.block (s := S320000x16) S8000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x512.size a ≤ S16x512.size a
  hwx0_1 : ∀ i : grid0.Coords, EltTy.bits .f32 = 32 ∨ (Rect.block (s := S16x512) S16x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x512.size a ≤ S320000x512.size a
  hwx0_2 : ∀ i : grid0.Coords, EltTy.bits .f32 = 32 ∨ (Rect.block (s := S320000x512) S8000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S10000x128.size a
  hwx1_0 : ∀ i : grid1.Coords, EltTy.bits .f32 = 32 ∨ (Rect.block (s := S10000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S10000x128.size a
  hwx1_3 : ∀ i : grid1.Coords, EltTy.bits .f32 = 32 ∨ (Rect.block (s := S10000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S10000x128.size a
  hwx2_0 : ∀ i : grid2.Coords, EltTy.bits .f32 = 32 ∨ (Rect.block (s := S10000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S10000x128.size a
  hwx2_3 : ∀ i : grid2.Coords, EltTy.bits .f32 = 32 ∨ (Rect.block (s := S10000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S10000x256.size a
  hwx3_0 : ∀ i : grid3.Coords, EltTy.bits .f32 = 32 ∨ (Rect.block (s := S10000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S10000x128.size a
  hwx3_3 : ∀ i : grid3.Coords, EltTy.bits .f32 = 32 ∨ (Rect.block (s := S10000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x384.size a ≤ S10000x384.size a
  hwx4_0 : ∀ i : grid4.Coords, EltTy.bits .f32 = 32 ∨ (Rect.block (s := S10000x384) S2000x384.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S384x128.size a ≤ S384x128.size a
  hwx4_1 : ∀ i : grid4.Coords, EltTy.bits .f32 = 32 ∨ (Rect.block (s := S384x128) S384x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S10000x128.size a
  hwx4_3 : ∀ i : grid4.Coords, EltTy.bits .f32 = 32 ∨ (Rect.block (s := S10000x128) S2000x128.size (cc4_transform_3 i) (hinb4_3 i)).WholeWords (EltTy.packing .f32)

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S8000x16_S16x512_S8000x512_1_0_0_1_n_n : DotDims S8000x16 S16x512 S8000x512 where
  lhsContracting := [1]
  rhsContracting := [0]
  lhsNonContracting := [0]
  rhsNonContracting := [1]
  lhsBatch := []
  rhsBatch := []
  wf := dot_S8000x16_S16x512_S8000x512_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x384_S384x128_S2000x128_1_0_0_1_n_n : DotDims S2000x384 S384x128 S2000x128 where
  lhsContracting := [1]
  rhsContracting := [0]
  lhsNonContracting := [0]
  rhsNonContracting := [1]
  lhsBatch := []
  rhsBatch := []
  wf := dot_S2000x384_S384x128_S2000x128_1_0_0_1_n_n_wf

abbrev win0_0 : Pipeline.Window sig grid0 :=
  Pipeline.Window.ofSpec (Memref.whole main_arg1) S8000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S16x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S8000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v33) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v52) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v71) S2000x384.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v73) S384x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v75) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S10000x128 : Shape := ⟨2, ![10000, 128]⟩
abbrev S320000x16 : Shape := ⟨2, ![320000, 16]⟩
abbrev S2x320000 : Shape := ⟨2, ![2, 320000]⟩
abbrev S144x128 : Shape := ⟨2, ![144, 128]⟩
abbrev S128 : Shape := ⟨1, ![128]⟩
abbrev S272x128 : Shape := ⟨2, ![272, 128]⟩
abbrev S400x128 : Shape := ⟨2, ![400, 128]⟩
abbrev S1x320000 : Shape := ⟨2, ![1, 320000]⟩
abbrev S320000 : Shape := ⟨1, ![320000]⟩
abbrev S_ : Shape := ⟨0, ![]⟩
abbrev S10000 : Shape := ⟨1, ![10000]⟩
abbrev S320000x1 : Shape := ⟨2, ![320000, 1]⟩
abbrev S320000x128 : Shape := ⟨2, ![320000, 128]⟩
abbrev S320000x144 : Shape := ⟨2, ![320000, 144]⟩
abbrev S1x128 : Shape := ⟨2, ![1, 128]⟩
abbrev S10000x1 : Shape := ⟨2, ![10000, 1]⟩
abbrev S10000x256 : Shape := ⟨2, ![10000, 256]⟩
abbrev S320000x256 : Shape := ⟨2, ![320000, 256]⟩
abbrev S320000x272 : Shape := ⟨2, ![320000, 272]⟩
abbrev S10000x384 : Shape := ⟨2, ![10000, 384]⟩
abbrev S320000x384 : Shape := ⟨2, ![320000, 384]⟩
abbrev S320000x400 : Shape := ⟨2, ![320000, 400]⟩

abbrev nBuf : Space → Nat
  | .hbm => 110
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S320000x16, .f32⟩
  | .hbm, ⟨2, _⟩ => ⟨S2x320000, .i32⟩
  | .hbm, ⟨3, _⟩ => ⟨S144x128, .f32⟩
  | .hbm, ⟨4, _⟩ => ⟨S128, .f32⟩
  | .hbm, ⟨5, _⟩ => ⟨S144x128, .f32⟩
  | .hbm, ⟨6, _⟩ => ⟨S128, .f32⟩
  | .hbm, ⟨7, _⟩ => ⟨S272x128, .f32⟩
  | .hbm, ⟨8, _⟩ => ⟨S128, .f32⟩
  | .hbm, ⟨9, _⟩ => ⟨S400x128, .f32⟩
  | .hbm, ⟨10, _⟩ => ⟨S128, .f32⟩
  | .hbm, ⟨11, _⟩ => ⟨S1x320000, .i32⟩
  | .hbm, ⟨12, _⟩ => ⟨S320000, .i32⟩
  | .hbm, ⟨13, _⟩ => ⟨S1x320000, .i32⟩
  | .hbm, ⟨14, _⟩ => ⟨S320000, .i32⟩
  | .hbm, ⟨15, _⟩ => ⟨S_, .f32⟩
  | .hbm, ⟨16, _⟩ => ⟨S320000, .f32⟩
  | .hbm, ⟨17, _⟩ => ⟨S_, .f32⟩
  | .hbm, ⟨18, _⟩ => ⟨S10000, .f32⟩
  | .hbm, ⟨19, _⟩ => ⟨S320000x1, .i32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S_, .i32⟩
  | .hbm, ⟨25, _⟩ => ⟨S320000, .i32⟩
  | .hbm, ⟨26, _⟩ => ⟨S320000, .i1⟩
  | .hbm, ⟨27, _⟩ => ⟨S_, .i32⟩
  | .hbm, ⟨28, _⟩ => ⟨S320000, .i32⟩
  | .hbm, ⟨29, _⟩ => ⟨S320000, .i32⟩
  | .hbm, ⟨30, _⟩ => ⟨S320000, .i32⟩
  | .hbm, ⟨31, _⟩ => ⟨S320000x1, .i32⟩
  | .hbm, ⟨32, _⟩ => ⟨S320000x128, .f32⟩
  | .hbm, ⟨33, _⟩ => ⟨S320000x144, .f32⟩
  | .hbm, ⟨34, _⟩ => ⟨S320000x128, .f32⟩
  | .hbm, ⟨35, _⟩ => ⟨S1x128, .f32⟩
  | .hbm, ⟨36, _⟩ => ⟨S320000x128, .f32⟩
  | .hbm, ⟨37, _⟩ => ⟨S320000x128, .f32⟩
  | .hbm, ⟨38, _⟩ => ⟨S_, .f32⟩
  | .hbm, ⟨39, _⟩ => ⟨S10000x128, .f32⟩
  | .hbm, ⟨40, _⟩ => ⟨S320000x1, .i32⟩
  | .hbm, ⟨41, _⟩ => ⟨S10000x128, .f32⟩
  | .hbm, ⟨42, _⟩ => ⟨S10000x1, .f32⟩
  | .hbm, ⟨43, _⟩ => ⟨S10000x128, .f32⟩
  | .hbm, ⟨44, _⟩ => ⟨S10000x128, .f32⟩
  | .hbm, ⟨45, _⟩ => ⟨S_, .i32⟩
  | .hbm, ⟨46, _⟩ => ⟨S320000, .i32⟩
  | .hbm, ⟨47, _⟩ => ⟨S320000, .i1⟩
  | .hbm, ⟨48, _⟩ => ⟨S_, .i32⟩
  | .hbm, ⟨49, _⟩ => ⟨S320000, .i32⟩
  | .hbm, ⟨50, _⟩ => ⟨S320000, .i32⟩
  | .hbm, ⟨51, _⟩ => ⟨S320000, .i32⟩
  | .hbm, ⟨52, _⟩ => ⟨S320000x1, .i32⟩
  | .hbm, ⟨53, _⟩ => ⟨S320000x128, .f32⟩
  | .hbm, ⟨54, _⟩ => ⟨S320000x144, .f32⟩
  | .hbm, ⟨55, _⟩ => ⟨S320000x128, .f32⟩
  | .hbm, ⟨56, _⟩ => ⟨S1x128, .f32⟩
  | .hbm, ⟨57, _⟩ => ⟨S320000x128, .f32⟩
  | .hbm, ⟨58, _⟩ => ⟨S320000x128, .f32⟩
  | .hbm, ⟨59, _⟩ => ⟨S_, .f32⟩
  | .hbm, ⟨60, _⟩ => ⟨S10000x128, .f32⟩
  | .hbm, ⟨61, _⟩ => ⟨S320000x1, .i32⟩
  | .hbm, ⟨62, _⟩ => ⟨S10000x128, .f32⟩
  | .hbm, ⟨63, _⟩ => ⟨S10000x1, .f32⟩
  | .hbm, ⟨64, _⟩ => ⟨S10000x128, .f32⟩
  | .hbm, ⟨65, _⟩ => ⟨S10000x128, .f32⟩
  | .hbm, ⟨66, _⟩ => ⟨S10000x256, .f32⟩
  | .hbm, ⟨67, _⟩ => ⟨S_, .i32⟩
  | .hbm, ⟨68, _⟩ => ⟨S320000, .i32⟩
  | .hbm, ⟨69, _⟩ => ⟨S320000, .i1⟩
  | .hbm, ⟨70, _⟩ => ⟨S_, .i32⟩
  | .hbm, ⟨71, _⟩ => ⟨S320000, .i32⟩
  | .hbm, ⟨72, _⟩ => ⟨S320000, .i32⟩
  | .hbm, ⟨73, _⟩ => ⟨S320000, .i32⟩
  | .hbm, ⟨74, _⟩ => ⟨S320000x1, .i32⟩
  | .hbm, ⟨75, _⟩ => ⟨S320000x256, .f32⟩
  | .hbm, ⟨76, _⟩ => ⟨S320000x272, .f32⟩
  | .hbm, ⟨77, _⟩ => ⟨S320000x128, .f32⟩
  | .hbm, ⟨78, _⟩ => ⟨S1x128, .f32⟩
  | .hbm, ⟨79, _⟩ => ⟨S320000x128, .f32⟩
  | .hbm, ⟨80, _⟩ => ⟨S320000x128, .f32⟩
  | .hbm, ⟨81, _⟩ => ⟨S_, .f32⟩
  | .hbm, ⟨82, _⟩ => ⟨S10000x128, .f32⟩
  | .hbm, ⟨83, _⟩ => ⟨S320000x1, .i32⟩
  | .hbm, ⟨84, _⟩ => ⟨S10000x128, .f32⟩
  | .hbm, ⟨85, _⟩ => ⟨S10000x1, .f32⟩
  | .hbm, ⟨86, _⟩ => ⟨S10000x128, .f32⟩
  | .hbm, ⟨87, _⟩ => ⟨S10000x128, .f32⟩
  | .hbm, ⟨88, _⟩ => ⟨S10000x384, .f32⟩
  | .hbm, ⟨89, _⟩ => ⟨S_, .i32⟩
  | .hbm, ⟨90, _⟩ => ⟨S320000, .i32⟩
  | .hbm, ⟨91, _⟩ => ⟨S320000, .i1⟩
  | .hbm, ⟨92, _⟩ => ⟨S_, .i32⟩
  | .hbm, ⟨93, _⟩ => ⟨S320000, .i32⟩
  | .hbm, ⟨94, _⟩ => ⟨S320000, .i32⟩
  | .hbm, ⟨95, _⟩ => ⟨S320000, .i32⟩
  | .hbm, ⟨96, _⟩ => ⟨S320000x1, .i32⟩
  | .hbm, ⟨97, _⟩ => ⟨S320000x384, .f32⟩
  | .hbm, ⟨98, _⟩ => ⟨S320000x400, .f32⟩
  | .hbm, ⟨99, _⟩ => ⟨S320000x128, .f32⟩
  | .hbm, ⟨100, _⟩ => ⟨S1x128, .f32⟩
  | .hbm, ⟨101, _⟩ => ⟨S320000x128, .f32⟩
  | .hbm, ⟨102, _⟩ => ⟨S320000x128, .f32⟩
  | .hbm, ⟨103, _⟩ => ⟨S_, .f32⟩
  | .hbm, ⟨104, _⟩ => ⟨S10000x128, .f32⟩
  | .hbm, ⟨105, _⟩ => ⟨S320000x1, .i32⟩
  | .hbm, ⟨106, _⟩ => ⟨S10000x128, .f32⟩
  | .hbm, ⟨107, _⟩ => ⟨S10000x1, .f32⟩
  | .hbm, ⟨108, _⟩ => ⟨S10000x128, .f32⟩
  | .hbm, ⟨109, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_7 : Ref sig .tc := ⟨.hbm, 67, rfl⟩
abbrev main_v47 : Ref sig .tc := ⟨.hbm, 68, rfl⟩
abbrev main_v48 : Ref sig .tc := ⟨.hbm, 69, rfl⟩
abbrev main_c_8 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_9 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_10 : Ref sig .tc := ⟨.hbm, 89, rfl⟩
abbrev main_v66 : Ref sig .tc := ⟨.hbm, 90, rfl⟩
abbrev main_v67 : Ref sig .tc := ⟨.hbm, 91, rfl⟩
abbrev main_c_11 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_12 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  concatenates_S320000x128_S320000x16_S320000x144_d1 : Shape.Concatenates [S320000x128, S320000x16] S320000x144 1
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  bcast_S_S10000x128 : S_.BroadcastsInDim S10000x128 (![] : Fin 0 → Fin S10000x128.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  concatenates_S10000x128_S10000x128_S10000x256_d1 : Shape.Concatenates [S10000x128, S10000x128] S10000x256 1
  concatenates_S320000x256_S320000x16_S320000x272_d1 : Shape.Concatenates [S320000x256, S320000x16] S320000x272 1
  concatenates_S10000x128_S10000x128_S10000x128_S10000x384_d1 : Shape.Concatenates [S10000x128, S10000x128, S10000x128] S10000x384 1
  concatenates_S320000x384_S320000x16_S320000x400_d1 : Shape.Concatenates [S320000x384, S320000x16] S320000x400 1
  scatter_S10000_S320000x1_S320000_n_0_0_1_wf : ScatterDims.WF S10000 S320000x1 S320000 [] [0] [0] 1
  gather_S10000x128_S320000x1_S320000x128_1_0_n_n_0_1_1128_wf : GatherDims.WF S10000x128 S320000x1 S320000x128 [1] [0] [] [0] [] 1 ![1, 128]
  dot_S320000x144_S144x128_S320000x128_1_0_0_1_n_n_wf : DotDims.WF S320000x144 S144x128 S320000x128 [1] [0] [0] [1] [] []
  scatter_S10000x128_S320000x1_S320000x128_1_0_0_1_wf : ScatterDims.WF S10000x128 S320000x1 S320000x128 [1] [0] [0] 1
  gather_S10000x256_S320000x1_S320000x256_1_0_n_n_0_1_1256_wf : GatherDims.WF S10000x256 S320000x1 S320000x256 [1] [0] [] [0] [] 1 ![1, 256]
  dot_S320000x272_S272x128_S320000x128_1_0_0_1_n_n_wf : DotDims.WF S320000x272 S272x128 S320000x128 [1] [0] [0] [1] [] []
  gather_S10000x384_S320000x1_S320000x384_1_0_n_n_0_1_1384_wf : GatherDims.WF S10000x384 S320000x1 S320000x384 [1] [0] [] [0] [] 1 ![1, 384]
  dot_S320000x400_S400x128_S320000x128_1_0_0_1_n_n_wf : DotDims.WF S320000x400 S400x128 S320000x128 [1] [0] [0] [1] [] []

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S320000x144_S144x128_S320000x128_1_0_0_1_n_n : DotDims S320000x144 S144x128 S320000x128 where
  lhsContracting := [1]
  rhsContracting := [0]
  lhsNonContracting := [0]
  rhsNonContracting := [1]
  lhsBatch := []
  rhsBatch := []
  wf := dot_S320000x144_S144x128_S320000x128_1_0_0_1_n_n_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S320000x272_S272x128_S320000x128_1_0_0_1_n_n : DotDims S320000x272 S272x128 S320000x128 where
  lhsContracting := [1]
  rhsContracting := [0]
  lhsNonContracting := [0]
  rhsNonContracting := [1]
  lhsBatch := []
  rhsBatch := []
  wf := dot_S320000x272_S272x128_S320000x128_1_0_0_1_n_n_wf
def gather_S10000x384_S320000x1_S320000x384_1_0_n_n_0_1_1384 : GatherDims S10000x384 S320000x1 S320000x384 where
  offsetDims := [1]
  collapsedSliceDims := [0]
  operandBatchingDims := []
  startIndicesBatchingDims := []
  startIndexMap := [0]
  indexVectorDim := 1
  sliceSizes := ![1, 384]
  wf := gather_S10000x384_S320000x1_S320000x384_1_0_n_n_0_1_1384_wf
def dot_S320000x400_S400x128_S320000x128_1_0_0_1_n_n : DotDims S320000x400 S400x128 S320000x128 where
  lhsContracting := [1]
  rhsContracting := [0]
  lhsNonContracting := [0]
  rhsNonContracting := [1]
  lhsBatch := []
  rhsBatch := []
  wf := dot_S320000x400_S400x128_S320000x128_1_0_0_1_n_n_wf

class Facts : Prop extends Facts₀ where

variable [Facts]
-- ==== Proof.KReg0.lean ====
/-
  Region 0 of the program as printed: the edge-attribute projection shared by all four layers,
  P = A · [We₀ We₁ We₂ We₃], where A is the 320000 × 16 matrix of edge attributes and Weₗ is the block of the last
  16 rows of layer l's weights, the four blocks set side by side into one 16 × 512 matrix; forty row blocks of 8000
  edges.  Stated at a parameter `V`, the TensorCore's buffer contents when the region is entered: a window's block at
  a grid point is read off its array as the region finds it; the body loads the two input blocks whole, and stores the
  whole output block once, so the output's staging buffer after the body is that one store's payload of the input
  blocks; the proof data keep every input block in place and put that payload in the output window; the pipeline's
  body obligation follows from running the body symbolically.  Everything here holds at any float instance.
-/
import proofs.«122878_j84842783965681_2_alg».proof.Proof.Gen.Kernel.Launch
import proofs.«122878_j84842783965681_2_alg».proof.Proof.Gen.Kernel.Skeleton
import proofs.«122878_j84842783965681_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: rows 8000·t … 8000·t + 7999 of the edge attributes for window 0, the whole
    16 × 512 matrix of stacked edge weights for window 1, and the same rows of the projection for the output, window 2 —
    read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there or
    kept it from an earlier point (its index has not moved since), for any proof data over `V`'s arrays that leave the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each buffer whole. -/
abbrev r0_e : Rect S8000x16 := Rect.unit (s := S8000x16) ![0, 0] S8000x16.size inb_S8000x16_S8000x16_0_0
abbrev r0_w : Rect S16x512 := Rect.unit (s := S16x512) ![0, 0] S16x512.size inb_S16x512_S16x512_0_0
abbrev r0_p : Rect S8000x512 := Rect.unit (s := S8000x512) ![0, 0] S8000x512.size inb_S8000x512_S8000x512_0_0

/-- The output window's staging buffer after the body: its one whole store, of the product of the block of edge
    attributes with the stacked edge weights (no bias in this product). -/
def out0_2 (x0 : Vec F S8000x16 .f32) (x1 : Vec F S16x512 .f32) : Vec F S8000x512 .f32 :=
  View.canon [⟨r0_p, k0_pay1 (View.ld x0 r0_e) (View.ld x1 r0_w)⟩]

/-- The one store covers the buffer. -/
theorem cover0_2 (p0 : Vec F S8000x512 .f32) (y : S8000x512.Idx) :
    ∃ pc ∈ ([⟨r0_p, p0⟩] : List (View.Piece (Elt F) S8000x512 .f32)), y ∈ pc.1.set :=
  View.cover_of_tiled [⟨r0_p, p0⟩] S8000x512.size (by rfl) y

set_option maxHeartbeats 1000000 in
/-- The body on whole staging memrefs, the inputs' at `x0 x1` and the output's at anything, runs to the continuation
    holding the inputs as they were and the output at `out0_2` of them. -/
theorem sound_kernel0 (c : Dev nD) (E : Set ℕ) (i : grid0.Coords)
    (arg1 : Memref sig .tc .vmem S8000x16 .f32) (harg1 : arg1.IsWhole) (arg2 : Memref sig .tc .vmem S16x512 .f32) (harg2 : arg2.IsWhole)
    (arg3 : Memref sig .tc .vmem S8000x512 .f32) (harg3 : arg3.IsWhole)
    (x0 : Vec F S8000x16 .f32) (x1 : Vec F S16x512 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__edge_proj_kernel i arg1 harg1 arg2 harg2 arg3 harg3) K := by
  simp only [cc0__edge_proj_kernel_eq_skeleton]; unfold cc0__edge_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this pipeline on core `c`: the arrays as the region finds them; after the body at point `t` each
    input's buffer still at its block and the output's at `out0_2` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KReg1.lean ====
/-
  Region 1 of the program as printed: the node-level linear layer of the first graph-convolution layer,
  y = x · W₀[0:128, :] + b₀ over the 10000 node rows, five row blocks of 2000.  Stated at a parameter `V`, the
  TensorCore's buffer contents when the region is entered: a window's block at a grid point is read off its array
  as the region finds it; the body loads the three input blocks whole, and stores the whole output block once, so
  the output's staging buffer after the body is that one store's payload of the input blocks; the proof data keep
  every input block in place and put that payload in the output window; the pipeline's body obligation follows from
  running the body symbolically.  Everything here holds at any float instance.
-/
import proofs.«122878_j84842783965681_2_alg».proof.Proof.Gen.Kernel.Launch
import proofs.«122878_j84842783965681_2_alg».proof.Proof.Gen.Kernel.Skeleton
import proofs.«122878_j84842783965681_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: rows 2000·t … 2000·t + 1999 of the node features for window 0, the whole
    weight matrix, the whole bias row, and the output's rows for window 3 — read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the pipeline fetched it there or
    kept it from an earlier point (its index has not moved since), for any proof data over `V`'s arrays that leave the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: each buffer whole. -/
abbrev r1_x : Rect S2000x128 := Rect.unit (s := S2000x128) ![0, 0] S2000x128.size inb_S2000x128_S2000x128_0_0
abbrev r1_w : Rect S128x128 := Rect.unit (s := S128x128) ![0, 0] S128x128.size inb_S128x128_S128x128_0_0
abbrev r1_b : Rect S1x128 := Rect.unit (s := S1x128) ![0, 0] S1x128.size inb_S1x128_S1x128_0_0

/-- The output window's staging buffer after the body: its one whole store, of the product of the feature block with
    the weights plus the bias row broadcast down the rows. -/
def out1_3 (x0 : Vec F S2000x128 .f32) (x1 : Vec F S128x128 .f32) (x2 : Vec F S1x128 .f32) : Vec F S2000x128 .f32 :=
  View.canon [⟨r1_x, k1_pay1 (View.ld x0 r1_x) (View.ld x1 r1_w) (View.ld x2 r1_b)⟩]

/-- The one store covers the buffer. -/
theorem cover1_3 (p0 : Vec F S2000x128 .f32) (y : S2000x128.Idx) :
    ∃ pc ∈ ([⟨r1_x, p0⟩] : List (View.Piece (Elt F) S2000x128 .f32)), y ∈ pc.1.set :=
  View.cover_of_tiled [⟨r1_x, p0⟩] S2000x128.size (by rfl) y

set_option maxHeartbeats 1000000 in
/-- The body on whole staging memrefs, the inputs' at `x0 x1 x2` and the output's at anything, runs to the continuation
    holding the inputs as they were and the output at `out1_3` of them. -/
theorem sound_kernel1 (c : Dev nD) (E : Set ℕ) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__node_linear_kernel i arg1 harg1 arg2 harg2 arg3 harg3 arg4 harg4) K := by
  simp only [cc1__node_linear_kernel_eq_skeleton]; unfold cc1__node_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of this pipeline on core `c`: the arrays as the region finds them; after the body at point `t` each
    input's buffer still at its block and the output's at `out1_3` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KReg2.lean ====
/-
  Region 2 of the program as printed: the node-level linear layer of the second graph-convolution layer,
  y = z₀ · W₁[0:128, :] + b₁, where z₀ is the first layer's output over the 10000 node rows (128 columns) and only the
  first 128 rows of that layer's weights take part (the remaining 16 act on the edge attributes, elsewhere); five row
  blocks of 2000.  Stated at a parameter `V`, the TensorCore's buffer contents when the region is entered: a window's
  block at a grid point is read off its array as the region finds it; the body loads the three input blocks whole, and
  stores the whole output block once, so the output's staging buffer after the body is that one store's payload of the
  input blocks; the proof data keep every input block in place and put that payload in the output window; the
  pipeline's body obligation follows from running the body symbolically.  Everything here holds at any float instance.
-/
import proofs.«122878_j84842783965681_2_alg».proof.Proof.Gen.Kernel.Launch
import proofs.«122878_j84842783965681_2_alg».proof.Proof.Gen.Kernel.Skeleton
import proofs.«122878_j84842783965681_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: rows 2000·t … 2000·t + 1999 of the first layer's output for window 0, the
    whole 128 × 128 weight matrix, the whole bias row, and the output's rows for window 3 — read off the array as the
    region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the pipeline fetched it there or
    kept it from an earlier point (its index has not moved since), for any proof data over `V`'s arrays that leave the
    block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body's accesses: each buffer whole. -/
abbrev r2_x : Rect S2000x128 := Rect.unit (s := S2000x128) ![0, 0] S2000x128.size inb_S2000x128_S2000x128_0_0
abbrev r2_w : Rect S128x128 := Rect.unit (s := S128x128) ![0, 0] S128x128.size inb_S128x128_S128x128_0_0
abbrev r2_b : Rect S1x128 := Rect.unit (s := S1x128) ![0, 0] S1x128.size inb_S1x128_S1x128_0_0

/-- The output window's staging buffer after the body: its one whole store, of the product of the block of the first
    layer's output with the weights plus the bias row broadcast down the rows. -/
def out2_3 (x0 : Vec F S2000x128 .f32) (x1 : Vec F S128x128 .f32) (x2 : Vec F S1x128 .f32) : Vec F S2000x128 .f32 :=
  View.canon [⟨r2_x, k2_pay1 (View.ld x0 r2_x) (View.ld x1 r2_w) (View.ld x2 r2_b)⟩]

/-- The one store covers the buffer. -/
theorem cover2_3 (p0 : Vec F S2000x128 .f32) (y : S2000x128.Idx) :
    ∃ pc ∈ ([⟨r2_x, p0⟩] : List (View.Piece (Elt F) S2000x128 .f32)), y ∈ pc.1.set :=
  View.cover_of_tiled [⟨r2_x, p0⟩] S2000x128.size (by rfl) y

set_option maxHeartbeats 1000000 in
/-- The body on whole staging memrefs, the inputs' at `x0 x1 x2` and the output's at anything, runs to the continuation
    holding the inputs as they were and the output at `out2_3` of them. -/
theorem sound_kernel2 (c : Dev nD) (E : Set ℕ) (i : grid2.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__node_linear_kernel i arg1 harg1 arg2 harg2 arg3 harg3 arg4 harg4) K := by
  simp only [cc2__node_linear_kernel_eq_skeleton]; unfold cc2__node_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of this pipeline on core `c`: the arrays as the region finds them; after the body at point `t` each
    input's buffer still at its block and the output's at `out2_3` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KReg3.lean ====
/-
  Region 3 of the program as printed: the node-level linear layer of the third graph-convolution layer,
  y = [z₀ z₁] · W₂[0:256, :] + b₂, where the features are the outputs of the first two layers set side by side over the
  10000 node rows (256 columns) and only the first 256 rows of that layer's weights take part (the remaining 16 act on
  the edge attributes, elsewhere); five row blocks of 2000.  Stated at a parameter `V`, the TensorCore's buffer
  contents when the region is entered: a window's block at a grid point is read off its array as the region finds it;
  the body loads the three input blocks whole, and stores the whole output block once, so the output's staging buffer
  after the body is that one store's payload of the input blocks; the proof data keep every input block in place and
  put that payload in the output window; the pipeline's body obligation follows from running the body symbolically.
  Everything here holds at any float instance.
-/
import proofs.«122878_j84842783965681_2_alg».proof.Proof.Gen.Kernel.Launch
import proofs.«122878_j84842783965681_2_alg».proof.Proof.Gen.Kernel.Skeleton
import proofs.«122878_j84842783965681_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: rows 2000·t … 2000·t + 1999 of the two earlier outputs side by side for
    window 0, the whole 256 × 128 weight matrix, the whole bias row, and the output's rows for window 3 — read off the
    array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, whether the pipeline fetched it there or
    kept it from an earlier point (its index has not moved since), for any proof data over `V`'s arrays that leave the
    block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The body's accesses: each buffer whole. -/
abbrev r3_x : Rect S2000x256 := Rect.unit (s := S2000x256) ![0, 0] S2000x256.size inb_S2000x256_S2000x256_0_0
abbrev r3_w : Rect S256x128 := Rect.unit (s := S256x128) ![0, 0] S256x128.size inb_S256x128_S256x128_0_0
abbrev r3_b : Rect S1x128 := Rect.unit (s := S1x128) ![0, 0] S1x128.size inb_S1x128_S1x128_0_0
abbrev r3_y : Rect S2000x128 := Rect.unit (s := S2000x128) ![0, 0] S2000x128.size inb_S2000x128_S2000x128_0_0

/-- The output window's staging buffer after the body: its one whole store, of the product of the 2000 × 256 feature
    block with the weights plus the bias row broadcast down the rows. -/
def out3_3 (x0 : Vec F S2000x256 .f32) (x1 : Vec F S256x128 .f32) (x2 : Vec F S1x128 .f32) : Vec F S2000x128 .f32 :=
  View.canon [⟨r3_y, k3_pay1 (View.ld x0 r3_x) (View.ld x1 r3_w) (View.ld x2 r3_b)⟩]

/-- The one store covers the buffer. -/
theorem cover3_3 (p0 : Vec F S2000x128 .f32) (y : S2000x128.Idx) :
    ∃ pc ∈ ([⟨r3_y, p0⟩] : List (View.Piece (Elt F) S2000x128 .f32)), y ∈ pc.1.set :=
  View.cover_of_tiled [⟨r3_y, p0⟩] S2000x128.size (by rfl) y

set_option maxHeartbeats 1000000 in
/-- The body on whole staging memrefs, the inputs' at `x0 x1 x2` and the output's at anything, runs to the continuation
    holding the inputs as they were and the output at `out3_3` of them. -/
theorem sound_kernel3 (c : Dev nD) (E : Set ℕ) (i : grid3.Coords)
    (arg1 : Memref sig .tc .vmem S2000x256 .f32) (harg1 : arg1.IsWhole) (arg2 : Memref sig .tc .vmem S256x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x256 .f32) (x1 : Vec F S256x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__node_linear_kernel i arg1 harg1 arg2 harg2 arg3 harg3 arg4 harg4) K := by
  simp only [cc3__node_linear_kernel_eq_skeleton]; unfold cc3__node_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of this pipeline on core `c`: the arrays as the region finds them; after the body at point `t` each
    input's buffer still at its block and the output's at `out3_3` of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KReg4.lean ====
/-
  Region 4 of the program as printed: the node-level linear layer of the fourth and last graph-convolution layer,
  y = [z₀ z₁ z₂] · W₃[0:384, :] + b₃, where the features are the outputs of the three earlier layers set side by side
  over the 10000 node rows (384 columns) and only the first 384 rows of that layer's weights take part (the remaining
  16 act on the edge attributes, elsewhere); five row blocks of 2000.  Stated at a parameter `V`, the TensorCore's
  buffer contents when the region is entered: a window's block at a grid point is read off its array as the region
  finds it; the body loads the three input blocks whole, and stores the whole output block once, so the output's
  staging buffer after the body is that one store's payload of the input blocks; the proof data keep every input block
  in place and put that payload in the output window; the pipeline's body obligation follows from running the body
  symbolically.  Everything here holds at any float instance.
-/
import proofs.«122878_j84842783965681_2_alg».proof.Proof.Gen.Kernel.Launch
import proofs.«122878_j84842783965681_2_alg».proof.Proof.Gen.Kernel.Skeleton
import proofs.«122878_j84842783965681_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: rows 2000·t … 2000·t + 1999 of the three earlier outputs side by side for
    window 0, the whole 384 × 128 weight matrix, the whole bias row, and the output's rows for window 3 — read off the
    array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, whether the pipeline fetched it there or
    kept it from an earlier point (its index has not moved since), for any proof data over `V`'s arrays that leave the
    block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The body's accesses: each buffer whole. -/
abbrev r4_x : Rect S2000x384 := Rect.unit (s := S2000x384) ![0, 0] S2000x384.size inb_S2000x384_S2000x384_0_0
abbrev r4_w : Rect S384x128 := Rect.unit (s := S384x128) ![0, 0] S384x128.size inb_S384x128_S384x128_0_0
abbrev r4_b : Rect S1x128 := Rect.unit (s := S1x128) ![0, 0] S1x128.size inb_S1x128_S1x128_0_0
abbrev r4_y : Rect S2000x128 := Rect.unit (s := S2000x128) ![0, 0] S2000x128.size inb_S2000x128_S2000x128_0_0

/-- The output window's staging buffer after the body: its one whole store, of the product of the 2000 × 384 feature
    block with the weights plus the bias row broadcast down the rows. -/
def out4_3 (x0 : Vec F S2000x384 .f32) (x1 : Vec F S384x128 .f32) (x2 : Vec F S1x128 .f32) : Vec F S2000x128 .f32 :=
  View.canon [⟨r4_y, k4_pay1 (View.ld x0 r4_x) (View.ld x1 r4_w) (View.ld x2 r4_b)⟩]

/-- The one store covers the buffer. -/
theorem cover4_3 (p0 : Vec F S2000x128 .f32) (y : S2000x128.Idx) :
    ∃ pc ∈ ([⟨r4_y, p0⟩] : List (View.Piece (Elt F) S2000x128 .f32)), y ∈ pc.1.set :=
  View.cover_of_tiled [⟨r4_y, p0⟩] S2000x128.size (by rfl) y

set_option maxHeartbeats 1000000 in
/-- The body on whole staging memrefs, the inputs' at `x0 x1 x2` and the output's at anything, runs to the continuation
    holding the inputs as they were and the output at `out4_3` of them. -/
theorem sound_kernel4 (c : Dev nD) (E : Set ℕ) (i : grid4.Coords)
    (arg1 : Memref sig .tc .vmem S2000x384 .f32) (harg1 : arg1.IsWhole) (arg2 : Memref sig .tc .vmem S384x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x384 .f32) (x1 : Vec F S384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__node_linear_kernel i arg1 harg1 arg2 harg2 arg3 harg3 arg4 harg4) K := by
  simp only [cc4__node_linear_kernel_eq_skeleton]; unfold cc4__node_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The proof data of this pipeline on core `c`: the arrays as the region finds them; after the body at point `t` each
    input's buffer still at its block and the output's at `out4_3` of the input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.KRun.lean ====
/-
  The program's @main, as printed, from launch to return, as eleven segments: six stretches of host operations and,
  between them, the five kernel regions (the edge projection, then the node-level linear layer of each of the four
  graph-convolution layers).  The TensorCore's buffer contents at every segment boundary are a fold from the launch
  memory: a stretch of host operations applies its operations in order; a region leaves each of its input arrays as
  entered and its output array at what the pipeline's write-backs leave, every other buffer as entered.  Over the
  thread state "every unscoped buffer at the boundary's contents, the generator register at some state, nothing owed"
  each region is a segment whose body obligation is the region's own, and the run of the segments gives: every weakly
  fair execution terminates, nothing faulting, and every unscoped buffer ends at the last boundary's contents.  From
  that one statement both the frame (the arguments end as launched: no segment writes one) and the value (the result
  buffer's contents) are read.  Everything here holds at any float instance.
-/
import proofs.«122878_j84842783965681_2_alg».proof.Proof.Gen.Kernel.Regions
import proofs.«122878_j84842783965681_2_alg».proof.Proof.KReg0
import proofs.«122878_j84842783965681_2_alg».proof.Proof.KReg1
import proofs.«122878_j84842783965681_2_alg».proof.Proof.KReg2
import proofs.«122878_j84842783965681_2_alg».proof.Proof.KReg3
import proofs.«122878_j84842783965681_2_alg».proof.Proof.KReg4

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core `c`'s buffers at launch. -/
abbrev W0 : Dev nD → Valuation τ sig (Elt F) := fun c b => m (c, b)
/-- After the first stretch: the edge endpoints split out, the in-degree counts and their floor at one, the four
    edge-weight slices side by side (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: the edge projection's array at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch: the first layer's slice of the edge projection, its node weights and bias row
    (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third stretch: the first layer's messages gathered, summed per target node and averaged; the second
    layer's operands (region 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At region 2's exit. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After the fourth stretch: the second layer's output, the first two outputs side by side, the third layer's
    operands (region 3's entry). -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b
/-- At region 3's exit. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)

/-- After the fifth stretch: the third layer's output, the first three outputs side by side, the fourth layer's
    operands (region 4's entry). -/
abbrev W9 : Dev nD → Valuation τ sig (Elt F) := fun c => StableHlo.after hostOps4 (W8 m c)
abbrev V9 : (c : Dev nD) → (b : Ref sig .tc) → Buf (Elt F) ((c : Thread nD τ).loc b) := fun c b => W9 m c b
/-- At region 4's exit. -/
def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev V10 : (c : Dev nD) → (b : Ref sig .tc) → Buf (Elt F) ((c : Thread nD τ).loc b) := fun c b => W10 m c b
theorem hF4 (c : Dev nD) (w : Fin cfg4.W) : (dat4 (V9 m) c).arrAt w cfg4.N = V10 m c (Pipeline.arrRef spec4 w) :=
  (W10_arr m c w).symm
theorem hrest4 (c : Dev nD) : ∀ b, b ∉ Finset.univ.image (Pipeline.arrRef spec4) → V10 m c b = V9 m c b :=
  fun b hb => W10_of_ne m c b fun w e => hb (Finset.mem_image.mpr ⟨w, Finset.mem_univ _, e⟩)

/-- After the last stretch: the fourth layer's messages gathered, summed and averaged — the result. -/
abbrev W11 : Dev nD → Valuation τ sig (Elt F) := fun c => StableHlo.after hostOps5 (W10 m c)

/-! ## What each segment leaves unchanged -/

/-- A stretch of host operations changes only the buffers its operations write. -/
theorem W1_keep (c : Dev nD) (r : Ref sig .tc) (h : r ∉ hostOps0_W) : W1 m c (Proc.devRef .tc r) = W0 m c (Proc.devRef .tc r) :=
  StableHlo.after_of_writes_sub hostOps0 _ hostOps0_writes h
theorem W3_keep (c : Dev nD) (r : Ref sig .tc) (h : r ∉ hostOps1_W) : W3 m c (Proc.devRef .tc r) = W2 m c (Proc.devRef .tc r) :=
  StableHlo.after_of_writes_sub hostOps1 _ hostOps1_writes h
theorem W5_keep (c : Dev nD) (r : Ref sig .tc) (h : r ∉ hostOps2_W) : W5 m c (Proc.devRef .tc r) = W4 m c (Proc.devRef .tc r) :=
  StableHlo.after_of_writes_sub hostOps2 _ hostOps2_writes h
theorem W7_keep (c : Dev nD) (r : Ref sig .tc) (h : r ∉ hostOps3_W) : W7 m c (Proc.devRef .tc r) = W6 m c (Proc.devRef .tc r) :=
  StableHlo.after_of_writes_sub hostOps3 _ hostOps3_writes h
theorem W9_keep (c : Dev nD) (r : Ref sig .tc) (h : r ∉ hostOps4_W) : W9 m c (Proc.devRef .tc r) = W8 m c (Proc.devRef .tc r) :=
  StableHlo.after_of_writes_sub hostOps4 _ hostOps4_writes h
theorem W11_keep (c : Dev nD) (r : Ref sig .tc) (h : r ∉ hostOps5_W) : W11 m c (Proc.devRef .tc r) = W10 m c (Proc.devRef .tc r) :=
  StableHlo.after_of_writes_sub hostOps5 _ hostOps5_writes h

/-- A region changes only its output array: an input array ends as entered, any other buffer is untouched. -/
theorem W2_keep (c : Dev nD) (r : Ref sig .tc) (h : r ≠ main_v15) : W2 m c (Proc.devRef .tc r) = W1 m c (Proc.devRef .tc r) := by
  by_cases h0 : r = main_arg1
  · subst h0; exact (W2_arr m c 0).trans (((dat0 (V1 m) c).arrAt_in 0 rfl _).trans (A_eq0 (V1 m) c 0))
  by_cases h1 : r = main_v14
  · subst h1; exact (W2_arr m c 1).trans (((dat0 (V1 m) c).arrAt_in 1 rfl _).trans (A_eq0 (V1 m) c 1))
  exact W2_of_ne m c r fun w => match w with
    | ⟨0, _⟩ => Ne.symm h0
    | ⟨1, _⟩ => Ne.symm h1
    | ⟨2, _⟩ => Ne.symm h
theorem W4_keep (c : Dev nD) (r : Ref sig .tc) (h : r ≠ main_v19) : W4 m c (Proc.devRef .tc r) = W3 m c (Proc.devRef .tc r) := by
  by_cases h0 : r = main_arg0
  · subst h0; exact (W4_arr m c 0).trans (((dat1 (V3 m) c).arrAt_in 0 rfl _).trans (A_eq1 (V3 m) c 0))
  by_cases h1 : r = main_v17
  · subst h1; exact (W4_arr m c 1).trans (((dat1 (V3 m) c).arrAt_in 1 rfl _).trans (A_eq1 (V3 m) c 1))
  by_cases h2 : r = main_v18
  · subst h2; exact (W4_arr m c 2).trans (((dat1 (V3 m) c).arrAt_in 2 rfl _).trans (A_eq1 (V3 m) c 2))
  exact W4_of_ne m c r fun w => match w with
    | ⟨0, _⟩ => Ne.symm h0
    | ⟨1, _⟩ => Ne.symm h1
    | ⟨2, _⟩ => Ne.symm h2
    | ⟨3, _⟩ => Ne.symm h
theorem W6_keep (c : Dev nD) (r : Ref sig .tc) (h : r ≠ main_v37) : W6 m c (Proc.devRef .tc r) = W5 m c (Proc.devRef .tc r) := by
  by_cases h0 : r = main_v33
  · subst h0; exact (W6_arr m c 0).trans (((dat2 (V5 m) c).arrAt_in 0 rfl _).trans (A_eq2 (V5 m) c 0))
  by_cases h1 : r = main_v35
  · subst h1; exact (W6_arr m c 1).trans (((dat2 (V5 m) c).arrAt_in 1 rfl _).trans (A_eq2 (V5 m) c 1))
  by_cases h2 : r = main_v36
  · subst h2; exact (W6_arr m c 2).trans (((dat2 (V5 m) c).arrAt_in 2 rfl _).trans (A_eq2 (V5 m) c 2))
  exact W6_of_ne m c r fun w => match w with
    | ⟨0, _⟩ => Ne.symm h0
    | ⟨1, _⟩ => Ne.symm h1
    | ⟨2, _⟩ => Ne.symm h2
    | ⟨3, _⟩ => Ne.symm h
theorem W8_keep (c : Dev nD) (r : Ref sig .tc) (h : r ≠ main_v56) : W8 m c (Proc.devRef .tc r) = W7 m c (Proc.devRef .tc r) := by
  by_cases h0 : r = main_v52
  · subst h0; exact (W8_arr m c 0).trans (((dat3 (V7 m) c).arrAt_in 0 rfl _).trans (A_eq3 (V7 m) c 0))
  by_cases h1 : r = main_v54
  · subst h1; exact (W8_arr m c 1).trans (((dat3 (V7 m) c).arrAt_in 1 rfl _).trans (A_eq3 (V7 m) c 1))
  by_cases h2 : r = main_v55
  · subst h2; exact (W8_arr m c 2).trans (((dat3 (V7 m) c).arrAt_in 2 rfl _).trans (A_eq3 (V7 m) c 2))
  exact W8_of_ne m c r fun w => match w with
    | ⟨0, _⟩ => Ne.symm h0
    | ⟨1, _⟩ => Ne.symm h1
    | ⟨2, _⟩ => Ne.symm h2
    | ⟨3, _⟩ => Ne.symm h
theorem W10_keep (c : Dev nD) (r : Ref sig .tc) (h : r ≠ main_v75) : W10 m c (Proc.devRef .tc r) = W9 m c (Proc.devRef .tc r) := by
  by_cases h0 : r = main_v71
  · subst h0; exact (W10_arr m c 0).trans (((dat4 (V9 m) c).arrAt_in 0 rfl _).trans (A_eq4 (V9 m) c 0))
  by_cases h1 : r = main_v73
  · subst h1; exact (W10_arr m c 1).trans (((dat4 (V9 m) c).arrAt_in 1 rfl _).trans (A_eq4 (V9 m) c 1))
  by_cases h2 : r = main_v74
  · subst h2; exact (W10_arr m c 2).trans (((dat4 (V9 m) c).arrAt_in 2 rfl _).trans (A_eq4 (V9 m) c 2))
  exact W10_of_ne m c r fun w => match w with
    | ⟨0, _⟩ => Ne.symm h0
    | ⟨1, _⟩ => Ne.symm h1
    | ⟨2, _⟩ => Ne.symm h2
    | ⟨3, _⟩ => Ne.symm h

/-- A buffer no segment writes — every argument — ends as launched. -/
theorem W11_arg (c : Dev nD) (r : Ref sig .tc)
    (h0 : r ∉ hostOps0_W) (h1 : r ∉ hostOps1_W) (h2 : r ∉ hostOps2_W) (h3 : r ∉ hostOps3_W) (h4 : r ∉ hostOps4_W) (h5 : r ∉ hostOps5_W)
    (g0 : r ≠ main_v15) (g1 : r ≠ main_v19) (g2 : r ≠ main_v37) (g3 : r ≠ main_v56) (g4 : r ≠ main_v75) :
    W11 m c (Proc.devRef .tc r) = m ((c : Thread nD τ).loc r) :=
  (W11_keep m c r h5).trans <| (W10_keep m c r g4).trans <| (W9_keep m c r h4).trans <| (W8_keep m c r g3).trans <|
  (W7_keep m c r h3).trans <| (W6_keep m c r g2).trans <| (W5_keep m c r h2).trans <| (W4_keep m c r g1).trans <|
  (W3_keep m c r h1).trans <| (W2_keep m c r g0).trans <| (W1_keep m c r h0).trans rfl

/-! ## The proof data family and the thread state -/

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W11 m c) ∗ ∃ r, prngReg c r)

/-! ## The regions as segments -/

set_option backward.isDefEq.respectTransparency.types false in
/-- Region 0 over the thread state: entered from every unscoped buffer at `W1`, left at `W2`.  Its arrays are split out
    of the unscoped buffers at entry and put back at the exit contents; the generator register goes into the pipeline's
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from `W5`, left at `W6`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from `W7`, left at `W8`. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from `W9`, left at `W10`. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (V9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V9 m c) (V10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's eleven segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)) ]

/-- @main is the run of the segments: its chain of items is the chain of the segments' programs. -/
theorem main_run (c : Dev nD) : main (F := F) c = Pipeline.Seg.run (segs m) := by
  rw [main_chain c, Pipeline.Seg.run_eq_chain]
  rfl

set_option backward.isDefEq.respectTransparency.types false in
/-- THE RUN.  At the compiled mesh, from any memory with zero counters, every weakly fair execution of @main on the
    TensorCores terminates, nothing faulting, and in every final state each unscoped buffer holds the last boundary's
    contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W11 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

end Cert.Kernel.Fr

end
-- ==== Proof.KIReg0.lean ====
/-
  Region 0 of the idealized program: the edge-attribute projection shared by all four layers,
  P = A · [We₀ We₁ We₂ We₃], where A is the 320000 × 16 matrix of edge attributes and Weₗ is the block of the last
  16 rows of layer l's weights, the four blocks set side by side into one 16 × 512 matrix; forty row blocks of 8000
  edges.  Stated at a parameter `V`, the TensorCore's buffer contents when the region is entered: a window's block at
  a grid point is read off its array as the region finds it; the body loads the two input blocks whole, and stores the
  whole output block once, so the output's staging buffer after the body is that one store's payload of the input
  blocks; the proof data keep every input block in place and put that payload in the output window; the pipeline's
  body obligation follows from running the body symbolically.  Everything here holds at any float instance.
-/
import proofs.«122878_j84842783965681_2_alg».proof.Proof.Gen.KernelIdeal.Launch
import proofs.«122878_j84842783965681_2_alg».proof.Proof.Gen.KernelIdeal.Skeleton
import proofs.«122878_j84842783965681_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: rows 8000·t … 8000·t + 7999 of the edge attributes for window 0, the whole
    16 × 512 matrix of stacked edge weights for window 1, and the same rows of the projection for the output, window 2 —
    read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there or
    kept it from an earlier point (its index has not moved since), for any proof data over `V`'s arrays that leave the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each buffer whole. -/
abbrev r0_e : Rect S8000x16 := Rect.unit (s := S8000x16) ![0, 0] S8000x16.size inb_S8000x16_S8000x16_0_0
abbrev r0_w : Rect S16x512 := Rect.unit (s := S16x512) ![0, 0] S16x512.size inb_S16x512_S16x512_0_0
abbrev r0_p : Rect S8000x512 := Rect.unit (s := S8000x512) ![0, 0] S8000x512.size inb_S8000x512_S8000x512_0_0

/-- The output window's staging buffer after the body: its one whole store, of the product of the block of edge
    attributes with the stacked edge weights (no bias in this product). -/
def out0_2 (x0 : Vec F S8000x16 .f32) (x1 : Vec F S16x512 .f32) : Vec F S8000x512 .f32 :=
  View.canon [⟨r0_p, k0_pay1 (View.ld x0 r0_e) (View.ld x1 r0_w)⟩]

/-- The one store covers the buffer. -/
theorem cover0_2 (p0 : Vec F S8000x512 .f32) (y : S8000x512.Idx) :
    ∃ pc ∈ ([⟨r0_p, p0⟩] : List (View.Piece (Elt F) S8000x512 .f32)), y ∈ pc.1.set :=
  View.cover_of_tiled [⟨r0_p, p0⟩] S8000x512.size (by rfl) y

set_option maxHeartbeats 1000000 in
/-- The body on whole staging memrefs, the inputs' at `x0 x1` and the output's at anything, runs to the continuation
    holding the inputs as they were and the output at `out0_2` of them. -/
theorem sound_kernel0 (c : Dev nD) (E : Set ℕ) (i : grid0.Coords)
    (arg1 : Memref sig .tc .vmem S8000x16 .f32) (harg1 : arg1.IsWhole) (arg2 : Memref sig .tc .vmem S16x512 .f32) (harg2 : arg2.IsWhole)
    (arg3 : Memref sig .tc .vmem S8000x512 .f32) (harg3 : arg3.IsWhole)
    (x0 : Vec F S8000x16 .f32) (x1 : Vec F S16x512 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__edge_proj_kernel i arg1 harg1 arg2 harg2 arg3 harg3) K := by
  simp only [cc0__edge_proj_kernel_eq_skeleton]; unfold cc0__edge_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this pipeline on core `c`: the arrays as the region finds them; after the body at point `t` each
    input's buffer still at its block and the output's at `out0_2` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KIReg1.lean ====
/-
  Region 1 of the idealized program: the node-level linear layer of the first graph-convolution layer,
  y = x · W₀[0:128, :] + b₀ over the 10000 node rows, five row blocks of 2000.  Stated at a parameter `V`, the
  TensorCore's buffer contents when the region is entered: a window's block at a grid point is read off its array
  as the region finds it; the body loads the three input blocks whole, and stores the whole output block once, so
  the output's staging buffer after the body is that one store's payload of the input blocks; the proof data keep
  every input block in place and put that payload in the output window; the pipeline's body obligation follows from
  running the body symbolically.  Everything here holds at any float instance.
-/
import proofs.«122878_j84842783965681_2_alg».proof.Proof.Gen.KernelIdeal.Launch
import proofs.«122878_j84842783965681_2_alg».proof.Proof.Gen.KernelIdeal.Skeleton
import proofs.«122878_j84842783965681_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: rows 2000·t … 2000·t + 1999 of the node features for window 0, the whole
    weight matrix, the whole bias row, and the output's rows for window 3 — read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the pipeline fetched it there or
    kept it from an earlier point (its index has not moved since), for any proof data over `V`'s arrays that leave the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: each buffer whole. -/
abbrev r1_x : Rect S2000x128 := Rect.unit (s := S2000x128) ![0, 0] S2000x128.size inb_S2000x128_S2000x128_0_0
abbrev r1_w : Rect S128x128 := Rect.unit (s := S128x128) ![0, 0] S128x128.size inb_S128x128_S128x128_0_0
abbrev r1_b : Rect S1x128 := Rect.unit (s := S1x128) ![0, 0] S1x128.size inb_S1x128_S1x128_0_0

/-- The output window's staging buffer after the body: its one whole store, of the product of the feature block with
    the weights plus the bias row broadcast down the rows. -/
def out1_3 (x0 : Vec F S2000x128 .f32) (x1 : Vec F S128x128 .f32) (x2 : Vec F S1x128 .f32) : Vec F S2000x128 .f32 :=
  View.canon [⟨r1_x, k1_pay1 (View.ld x0 r1_x) (View.ld x1 r1_w) (View.ld x2 r1_b)⟩]

/-- The one store covers the buffer. -/
theorem cover1_3 (p0 : Vec F S2000x128 .f32) (y : S2000x128.Idx) :
    ∃ pc ∈ ([⟨r1_x, p0⟩] : List (View.Piece (Elt F) S2000x128 .f32)), y ∈ pc.1.set :=
  View.cover_of_tiled [⟨r1_x, p0⟩] S2000x128.size (by rfl) y

set_option maxHeartbeats 1000000 in
/-- The body on whole staging memrefs, the inputs' at `x0 x1 x2` and the output's at anything, runs to the continuation
    holding the inputs as they were and the output at `out1_3` of them. -/
theorem sound_kernel1 (c : Dev nD) (E : Set ℕ) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__node_linear_kernel i arg1 harg1 arg2 harg2 arg3 harg3 arg4 harg4) K := by
  simp only [cc1__node_linear_kernel_eq_skeleton]; unfold cc1__node_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of this pipeline on core `c`: the arrays as the region finds them; after the body at point `t` each
    input's buffer still at its block and the output's at `out1_3` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KIReg2.lean ====
/-
  Region 2 of the idealized program: the node-level linear layer of the second graph-convolution layer,
  y = z₀ · W₁[0:128, :] + b₁, where z₀ is the first layer's output over the 10000 node rows (128 columns) and only the
  first 128 rows of that layer's weights take part (the remaining 16 act on the edge attributes, elsewhere); five row
  blocks of 2000.  Stated at a parameter `V`, the TensorCore's buffer contents when the region is entered: a window's
  block at a grid point is read off its array as the region finds it; the body loads the three input blocks whole, and
  stores the whole output block once, so the output's staging buffer after the body is that one store's payload of the
  input blocks; the proof data keep every input block in place and put that payload in the output window; the
  pipeline's body obligation follows from running the body symbolically.  Everything here holds at any float instance.
-/
import proofs.«122878_j84842783965681_2_alg».proof.Proof.Gen.KernelIdeal.Launch
import proofs.«122878_j84842783965681_2_alg».proof.Proof.Gen.KernelIdeal.Skeleton
import proofs.«122878_j84842783965681_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: rows 2000·t … 2000·t + 1999 of the first layer's output for window 0, the
    whole 128 × 128 weight matrix, the whole bias row, and the output's rows for window 3 — read off the array as the
    region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the pipeline fetched it there or
    kept it from an earlier point (its index has not moved since), for any proof data over `V`'s arrays that leave the
    block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body's accesses: each buffer whole. -/
abbrev r2_x : Rect S2000x128 := Rect.unit (s := S2000x128) ![0, 0] S2000x128.size inb_S2000x128_S2000x128_0_0
abbrev r2_w : Rect S128x128 := Rect.unit (s := S128x128) ![0, 0] S128x128.size inb_S128x128_S128x128_0_0
abbrev r2_b : Rect S1x128 := Rect.unit (s := S1x128) ![0, 0] S1x128.size inb_S1x128_S1x128_0_0

/-- The output window's staging buffer after the body: its one whole store, of the product of the block of the first
    layer's output with the weights plus the bias row broadcast down the rows. -/
def out2_3 (x0 : Vec F S2000x128 .f32) (x1 : Vec F S128x128 .f32) (x2 : Vec F S1x128 .f32) : Vec F S2000x128 .f32 :=
  View.canon [⟨r2_x, k2_pay1 (View.ld x0 r2_x) (View.ld x1 r2_w) (View.ld x2 r2_b)⟩]

/-- The one store covers the buffer. -/
theorem cover2_3 (p0 : Vec F S2000x128 .f32) (y : S2000x128.Idx) :
    ∃ pc ∈ ([⟨r2_x, p0⟩] : List (View.Piece (Elt F) S2000x128 .f32)), y ∈ pc.1.set :=
  View.cover_of_tiled [⟨r2_x, p0⟩] S2000x128.size (by rfl) y

set_option maxHeartbeats 1000000 in
/-- The body on whole staging memrefs, the inputs' at `x0 x1 x2` and the output's at anything, runs to the continuation
    holding the inputs as they were and the output at `out2_3` of them. -/
theorem sound_kernel2 (c : Dev nD) (E : Set ℕ) (i : grid2.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__node_linear_kernel i arg1 harg1 arg2 harg2 arg3 harg3 arg4 harg4) K := by
  simp only [cc2__node_linear_kernel_eq_skeleton]; unfold cc2__node_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of this pipeline on core `c`: the arrays as the region finds them; after the body at point `t` each
    input's buffer still at its block and the output's at `out2_3` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KIReg3.lean ====
/-
  Region 3 of the idealized program: the node-level linear layer of the third graph-convolution layer,
  y = [z₀ z₁] · W₂[0:256, :] + b₂, where the features are the outputs of the first two layers set side by side over the
  10000 node rows (256 columns) and only the first 256 rows of that layer's weights take part (the remaining 16 act on
  the edge attributes, elsewhere); five row blocks of 2000.  Stated at a parameter `V`, the TensorCore's buffer
  contents when the region is entered: a window's block at a grid point is read off its array as the region finds it;
  the body loads the three input blocks whole, and stores the whole output block once, so the output's staging buffer
  after the body is that one store's payload of the input blocks; the proof data keep every input block in place and
  put that payload in the output window; the pipeline's body obligation follows from running the body symbolically.
  Everything here holds at any float instance.
-/
import proofs.«122878_j84842783965681_2_alg».proof.Proof.Gen.KernelIdeal.Launch
import proofs.«122878_j84842783965681_2_alg».proof.Proof.Gen.KernelIdeal.Skeleton
import proofs.«122878_j84842783965681_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: rows 2000·t … 2000·t + 1999 of the two earlier outputs side by side for
    window 0, the whole 256 × 128 weight matrix, the whole bias row, and the output's rows for window 3 — read off the
    array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, whether the pipeline fetched it there or
    kept it from an earlier point (its index has not moved since), for any proof data over `V`'s arrays that leave the
    block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The body's accesses: each buffer whole. -/
abbrev r3_x : Rect S2000x256 := Rect.unit (s := S2000x256) ![0, 0] S2000x256.size inb_S2000x256_S2000x256_0_0
abbrev r3_w : Rect S256x128 := Rect.unit (s := S256x128) ![0, 0] S256x128.size inb_S256x128_S256x128_0_0
abbrev r3_b : Rect S1x128 := Rect.unit (s := S1x128) ![0, 0] S1x128.size inb_S1x128_S1x128_0_0
abbrev r3_y : Rect S2000x128 := Rect.unit (s := S2000x128) ![0, 0] S2000x128.size inb_S2000x128_S2000x128_0_0

/-- The output window's staging buffer after the body: its one whole store, of the product of the 2000 × 256 feature
    block with the weights plus the bias row broadcast down the rows. -/
def out3_3 (x0 : Vec F S2000x256 .f32) (x1 : Vec F S256x128 .f32) (x2 : Vec F S1x128 .f32) : Vec F S2000x128 .f32 :=
  View.canon [⟨r3_y, k3_pay1 (View.ld x0 r3_x) (View.ld x1 r3_w) (View.ld x2 r3_b)⟩]

/-- The one store covers the buffer. -/
theorem cover3_3 (p0 : Vec F S2000x128 .f32) (y : S2000x128.Idx) :
    ∃ pc ∈ ([⟨r3_y, p0⟩] : List (View.Piece (Elt F) S2000x128 .f32)), y ∈ pc.1.set :=
  View.cover_of_tiled [⟨r3_y, p0⟩] S2000x128.size (by rfl) y

set_option maxHeartbeats 1000000 in
/-- The body on whole staging memrefs, the inputs' at `x0 x1 x2` and the output's at anything, runs to the continuation
    holding the inputs as they were and the output at `out3_3` of them. -/
theorem sound_kernel3 (c : Dev nD) (E : Set ℕ) (i : grid3.Coords)
    (arg1 : Memref sig .tc .vmem S2000x256 .f32) (harg1 : arg1.IsWhole) (arg2 : Memref sig .tc .vmem S256x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x256 .f32) (x1 : Vec F S256x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__node_linear_kernel i arg1 harg1 arg2 harg2 arg3 harg3 arg4 harg4) K := by
  simp only [cc3__node_linear_kernel_eq_skeleton]; unfold cc3__node_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of this pipeline on core `c`: the arrays as the region finds them; after the body at point `t` each
    input's buffer still at its block and the output's at `out3_3` of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KIReg4.lean ====
/-
  Region 4 of the idealized program: the node-level linear layer of the fourth and last graph-convolution layer,
  y = [z₀ z₁ z₂] · W₃[0:384, :] + b₃, where the features are the outputs of the three earlier layers set side by side
  over the 10000 node rows (384 columns) and only the first 384 rows of that layer's weights take part (the remaining
  16 act on the edge attributes, elsewhere); five row blocks of 2000.  Stated at a parameter `V`, the TensorCore's
  buffer contents when the region is entered: a window's block at a grid point is read off its array as the region
  finds it; the body loads the three input blocks whole, and stores the whole output block once, so the output's
  staging buffer after the body is that one store's payload of the input blocks; the proof data keep every input block
  in place and put that payload in the output window; the pipeline's body obligation follows from running the body
  symbolically.  Everything here holds at any float instance.
-/
import proofs.«122878_j84842783965681_2_alg».proof.Proof.Gen.KernelIdeal.Launch
import proofs.«122878_j84842783965681_2_alg».proof.Proof.Gen.KernelIdeal.Skeleton
import proofs.«122878_j84842783965681_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: rows 2000·t … 2000·t + 1999 of the three earlier outputs side by side for
    window 0, the whole 384 × 128 weight matrix, the whole bias row, and the output's rows for window 3 — read off the
    array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, whether the pipeline fetched it there or
    kept it from an earlier point (its index has not moved since), for any proof data over `V`'s arrays that leave the
    block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The body's accesses: each buffer whole. -/
abbrev r4_x : Rect S2000x384 := Rect.unit (s := S2000x384) ![0, 0] S2000x384.size inb_S2000x384_S2000x384_0_0
abbrev r4_w : Rect S384x128 := Rect.unit (s := S384x128) ![0, 0] S384x128.size inb_S384x128_S384x128_0_0
abbrev r4_b : Rect S1x128 := Rect.unit (s := S1x128) ![0, 0] S1x128.size inb_S1x128_S1x128_0_0
abbrev r4_y : Rect S2000x128 := Rect.unit (s := S2000x128) ![0, 0] S2000x128.size inb_S2000x128_S2000x128_0_0

/-- The output window's staging buffer after the body: its one whole store, of the product of the 2000 × 384 feature
    block with the weights plus the bias row broadcast down the rows. -/
def out4_3 (x0 : Vec F S2000x384 .f32) (x1 : Vec F S384x128 .f32) (x2 : Vec F S1x128 .f32) : Vec F S2000x128 .f32 :=
  View.canon [⟨r4_y, k4_pay1 (View.ld x0 r4_x) (View.ld x1 r4_w) (View.ld x2 r4_b)⟩]

/-- The one store covers the buffer. -/
theorem cover4_3 (p0 : Vec F S2000x128 .f32) (y : S2000x128.Idx) :
    ∃ pc ∈ ([⟨r4_y, p0⟩] : List (View.Piece (Elt F) S2000x128 .f32)), y ∈ pc.1.set :=
  View.cover_of_tiled [⟨r4_y, p0⟩] S2000x128.size (by rfl) y

set_option maxHeartbeats 1000000 in
/-- The body on whole staging memrefs, the inputs' at `x0 x1 x2` and the output's at anything, runs to the continuation
    holding the inputs as they were and the output at `out4_3` of them. -/
theorem sound_kernel4 (c : Dev nD) (E : Set ℕ) (i : grid4.Coords)
    (arg1 : Memref sig .tc .vmem S2000x384 .f32) (harg1 : arg1.IsWhole) (arg2 : Memref sig .tc .vmem S384x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x384 .f32) (x1 : Vec F S384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__node_linear_kernel i arg1 harg1 arg2 harg2 arg3 harg3 arg4 harg4) K := by
  simp only [cc4__node_linear_kernel_eq_skeleton]; unfold cc4__node_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The proof data of this pipeline on core `c`: the arrays as the region finds them; after the body at point `t` each
    input's buffer still at its block and the output's at `out4_3` of the input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.KIRun.lean ====
/-
  The idealized program's @main from launch to return, as eleven segments: six stretches of host operations and,
  between them, the five kernel regions (the edge projection, then the node-level linear layer of each of the four
  graph-convolution layers).  The TensorCore's buffer contents at every segment boundary are a fold from the launch
  memory: a stretch of host operations applies its operations in order; a region leaves each of its input arrays as
  entered and its output array at what the pipeline's write-backs leave, every other buffer as entered.  Over the
  thread state "every unscoped buffer at the boundary's contents, the generator register at some state, nothing owed"
  each region is a segment whose body obligation is the region's own, and the run of the segments gives: every weakly
  fair execution terminates, nothing faulting, and every unscoped buffer ends at the last boundary's contents.  From
  that one statement both the frame (the arguments end as launched: no segment writes one) and the value (the result
  buffer's contents) are read.  Everything here holds at any float instance.
-/
import proofs.«122878_j84842783965681_2_alg».proof.Proof.Gen.KernelIdeal.Regions
import proofs.«122878_j84842783965681_2_alg».proof.Proof.KIReg0
import proofs.«122878_j84842783965681_2_alg».proof.Proof.KIReg1
import proofs.«122878_j84842783965681_2_alg».proof.Proof.KIReg2
import proofs.«122878_j84842783965681_2_alg».proof.Proof.KIReg3
import proofs.«122878_j84842783965681_2_alg».proof.Proof.KIReg4

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core `c`'s buffers at launch. -/
abbrev W0 : Dev nD → Valuation τ sig (Elt F) := fun c b => m (c, b)
/-- After the first stretch: the edge endpoints split out, the in-degree counts and their floor at one, the four
    edge-weight slices side by side (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: the edge projection's array at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch: the first layer's slice of the edge projection, its node weights and bias row
    (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third stretch: the first layer's messages gathered, summed per target node and averaged; the second
    layer's operands (region 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At region 2's exit. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After the fourth stretch: the second layer's output, the first two outputs side by side, the third layer's
    operands (region 3's entry). -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b
/-- At region 3's exit. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)

/-- After the fifth stretch: the third layer's output, the first three outputs side by side, the fourth layer's
    operands (region 4's entry). -/
abbrev W9 : Dev nD → Valuation τ sig (Elt F) := fun c => StableHlo.after hostOps4 (W8 m c)
abbrev V9 : (c : Dev nD) → (b : Ref sig .tc) → Buf (Elt F) ((c : Thread nD τ).loc b) := fun c b => W9 m c b
/-- At region 4's exit. -/
def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev V10 : (c : Dev nD) → (b : Ref sig .tc) → Buf (Elt F) ((c : Thread nD τ).loc b) := fun c b => W10 m c b
theorem hF4 (c : Dev nD) (w : Fin cfg4.W) : (dat4 (V9 m) c).arrAt w cfg4.N = V10 m c (Pipeline.arrRef spec4 w) :=
  (W10_arr m c w).symm
theorem hrest4 (c : Dev nD) : ∀ b, b ∉ Finset.univ.image (Pipeline.arrRef spec4) → V10 m c b = V9 m c b :=
  fun b hb => W10_of_ne m c b fun w e => hb (Finset.mem_image.mpr ⟨w, Finset.mem_univ _, e⟩)

/-- After the last stretch: the fourth layer's messages gathered, summed and averaged — the result. -/
abbrev W11 : Dev nD → Valuation τ sig (Elt F) := fun c => StableHlo.after hostOps5 (W10 m c)

/-! ## What each segment leaves unchanged -/

/-- A stretch of host operations changes only the buffers its operations write. -/
theorem W1_keep (c : Dev nD) (r : Ref sig .tc) (h : r ∉ hostOps0_W) : W1 m c (Proc.devRef .tc r) = W0 m c (Proc.devRef .tc r) :=
  StableHlo.after_of_writes_sub hostOps0 _ hostOps0_writes h
theorem W3_keep (c : Dev nD) (r : Ref sig .tc) (h : r ∉ hostOps1_W) : W3 m c (Proc.devRef .tc r) = W2 m c (Proc.devRef .tc r) :=
  StableHlo.after_of_writes_sub hostOps1 _ hostOps1_writes h
theorem W5_keep (c : Dev nD) (r : Ref sig .tc) (h : r ∉ hostOps2_W) : W5 m c (Proc.devRef .tc r) = W4 m c (Proc.devRef .tc r) :=
  StableHlo.after_of_writes_sub hostOps2 _ hostOps2_writes h
theorem W7_keep (c : Dev nD) (r : Ref sig .tc) (h : r ∉ hostOps3_W) : W7 m c (Proc.devRef .tc r) = W6 m c (Proc.devRef .tc r) :=
  StableHlo.after_of_writes_sub hostOps3 _ hostOps3_writes h
theorem W9_keep (c : Dev nD) (r : Ref sig .tc) (h : r ∉ hostOps4_W) : W9 m c (Proc.devRef .tc r) = W8 m c (Proc.devRef .tc r) :=
  StableHlo.after_of_writes_sub hostOps4 _ hostOps4_writes h
theorem W11_keep (c : Dev nD) (r : Ref sig .tc) (h : r ∉ hostOps5_W) : W11 m c (Proc.devRef .tc r) = W10 m c (Proc.devRef .tc r) :=
  StableHlo.after_of_writes_sub hostOps5 _ hostOps5_writes h

/-- A region changes only its output array: an input array ends as entered, any other buffer is untouched. -/
theorem W2_keep (c : Dev nD) (r : Ref sig .tc) (h : r ≠ main_v15) : W2 m c (Proc.devRef .tc r) = W1 m c (Proc.devRef .tc r) := by
  by_cases h0 : r = main_arg1
  · subst h0; exact (W2_arr m c 0).trans (((dat0 (V1 m) c).arrAt_in 0 rfl _).trans (A_eq0 (V1 m) c 0))
  by_cases h1 : r = main_v14
  · subst h1; exact (W2_arr m c 1).trans (((dat0 (V1 m) c).arrAt_in 1 rfl _).trans (A_eq0 (V1 m) c 1))
  exact W2_of_ne m c r fun w => match w with
    | ⟨0, _⟩ => Ne.symm h0
    | ⟨1, _⟩ => Ne.symm h1
    | ⟨2, _⟩ => Ne.symm h
theorem W4_keep (c : Dev nD) (r : Ref sig .tc) (h : r ≠ main_v19) : W4 m c (Proc.devRef .tc r) = W3 m c (Proc.devRef .tc r) := by
  by_cases h0 : r = main_arg0
  · subst h0; exact (W4_arr m c 0).trans (((dat1 (V3 m) c).arrAt_in 0 rfl _).trans (A_eq1 (V3 m) c 0))
  by_cases h1 : r = main_v17
  · subst h1; exact (W4_arr m c 1).trans (((dat1 (V3 m) c).arrAt_in 1 rfl _).trans (A_eq1 (V3 m) c 1))
  by_cases h2 : r = main_v18
  · subst h2; exact (W4_arr m c 2).trans (((dat1 (V3 m) c).arrAt_in 2 rfl _).trans (A_eq1 (V3 m) c 2))
  exact W4_of_ne m c r fun w => match w with
    | ⟨0, _⟩ => Ne.symm h0
    | ⟨1, _⟩ => Ne.symm h1
    | ⟨2, _⟩ => Ne.symm h2
    | ⟨3, _⟩ => Ne.symm h
theorem W6_keep (c : Dev nD) (r : Ref sig .tc) (h : r ≠ main_v37) : W6 m c (Proc.devRef .tc r) = W5 m c (Proc.devRef .tc r) := by
  by_cases h0 : r = main_v33
  · subst h0; exact (W6_arr m c 0).trans (((dat2 (V5 m) c).arrAt_in 0 rfl _).trans (A_eq2 (V5 m) c 0))
  by_cases h1 : r = main_v35
  · subst h1; exact (W6_arr m c 1).trans (((dat2 (V5 m) c).arrAt_in 1 rfl _).trans (A_eq2 (V5 m) c 1))
  by_cases h2 : r = main_v36
  · subst h2; exact (W6_arr m c 2).trans (((dat2 (V5 m) c).arrAt_in 2 rfl _).trans (A_eq2 (V5 m) c 2))
  exact W6_of_ne m c r fun w => match w with
    | ⟨0, _⟩ => Ne.symm h0
    | ⟨1, _⟩ => Ne.symm h1
    | ⟨2, _⟩ => Ne.symm h2
    | ⟨3, _⟩ => Ne.symm h
theorem W8_keep (c : Dev nD) (r : Ref sig .tc) (h : r ≠ main_v56) : W8 m c (Proc.devRef .tc r) = W7 m c (Proc.devRef .tc r) := by
  by_cases h0 : r = main_v52
  · subst h0; exact (W8_arr m c 0).trans (((dat3 (V7 m) c).arrAt_in 0 rfl _).trans (A_eq3 (V7 m) c 0))
  by_cases h1 : r = main_v54
  · subst h1; exact (W8_arr m c 1).trans (((dat3 (V7 m) c).arrAt_in 1 rfl _).trans (A_eq3 (V7 m) c 1))
  by_cases h2 : r = main_v55
  · subst h2; exact (W8_arr m c 2).trans (((dat3 (V7 m) c).arrAt_in 2 rfl _).trans (A_eq3 (V7 m) c 2))
  exact W8_of_ne m c r fun w => match w with
    | ⟨0, _⟩ => Ne.symm h0
    | ⟨1, _⟩ => Ne.symm h1
    | ⟨2, _⟩ => Ne.symm h2
    | ⟨3, _⟩ => Ne.symm h
theorem W10_keep (c : Dev nD) (r : Ref sig .tc) (h : r ≠ main_v75) : W10 m c (Proc.devRef .tc r) = W9 m c (Proc.devRef .tc r) := by
  by_cases h0 : r = main_v71
  · subst h0; exact (W10_arr m c 0).trans (((dat4 (V9 m) c).arrAt_in 0 rfl _).trans (A_eq4 (V9 m) c 0))
  by_cases h1 : r = main_v73
  · subst h1; exact (W10_arr m c 1).trans (((dat4 (V9 m) c).arrAt_in 1 rfl _).trans (A_eq4 (V9 m) c 1))
  by_cases h2 : r = main_v74
  · subst h2; exact (W10_arr m c 2).trans (((dat4 (V9 m) c).arrAt_in 2 rfl _).trans (A_eq4 (V9 m) c 2))
  exact W10_of_ne m c r fun w => match w with
    | ⟨0, _⟩ => Ne.symm h0
    | ⟨1, _⟩ => Ne.symm h1
    | ⟨2, _⟩ => Ne.symm h2
    | ⟨3, _⟩ => Ne.symm h

/-- A buffer no segment writes — every argument — ends as launched. -/
theorem W11_arg (c : Dev nD) (r : Ref sig .tc)
    (h0 : r ∉ hostOps0_W) (h1 : r ∉ hostOps1_W) (h2 : r ∉ hostOps2_W) (h3 : r ∉ hostOps3_W) (h4 : r ∉ hostOps4_W) (h5 : r ∉ hostOps5_W)
    (g0 : r ≠ main_v15) (g1 : r ≠ main_v19) (g2 : r ≠ main_v37) (g3 : r ≠ main_v56) (g4 : r ≠ main_v75) :
    W11 m c (Proc.devRef .tc r) = m ((c : Thread nD τ).loc r) :=
  (W11_keep m c r h5).trans <| (W10_keep m c r g4).trans <| (W9_keep m c r h4).trans <| (W8_keep m c r g3).trans <|
  (W7_keep m c r h3).trans <| (W6_keep m c r g2).trans <| (W5_keep m c r h2).trans <| (W4_keep m c r g1).trans <|
  (W3_keep m c r h1).trans <| (W2_keep m c r g0).trans <| (W1_keep m c r h0).trans rfl

/-! ## The proof data family and the thread state -/

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W11 m c) ∗ ∃ r, prngReg c r)

/-! ## The regions as segments -/

set_option backward.isDefEq.respectTransparency.types false in
/-- Region 0 over the thread state: entered from every unscoped buffer at `W1`, left at `W2`.  Its arrays are split out
    of the unscoped buffers at entry and put back at the exit contents; the generator register goes into the pipeline's
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from `W5`, left at `W6`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from `W7`, left at `W8`. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from `W9`, left at `W10`. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (V9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V9 m c) (V10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's eleven segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)) ]

/-- @main is the run of the segments: its chain of items is the chain of the segments' programs. -/
theorem main_run (c : Dev nD) : main (F := F) c = Pipeline.Seg.run (segs m) := by
  rw [main_chain c, Pipeline.Seg.run_eq_chain]
  rfl

set_option backward.isDefEq.respectTransparency.types false in
/-- THE RUN.  At the compiled mesh, from any memory with zero counters, every weakly fair execution of @main on the
    TensorCores terminates, nothing faulting, and in every final state each unscoped buffer holds the last boundary's
    contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W11 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

end Cert.KernelIdeal.Fr

end
-- ==== Proof.RefOps.lean ====
import proofs.«122878_j84842783965681_2_alg».proof.Proof.Gen.ReferenceIdeal
import Idealize.ShloMosaic.Lib.StableHlo.Run
import Idealize.ShloMosaic.PureOps.Ideal

/-!
# The reference program as a list of operations, in five consecutive pieces

The reference's @main is a straight line of 99 host operations. Cut after the operations that do not depend on the
layer (the two endpoints of every edge, the in-degree of every node and its floor at 1) and after each of the four
layers, it is the concatenation of five lists. The contents of the buffers after a concatenation of two lists are
the contents after the second list, started from the contents after the first (`after_append`), so what the whole
line computes can be read one piece at a time. Every weakly fair execution of @main ends with each buffer at the
fold of the 99 operations over the launch contents (`run_raw`).
-/

noncomputable section

namespace Cert.Gcn.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 to 13: the source and destination endpoints of the edges (rows 0 and 1 of the edge list, each as a
    flat array), the in-degree of every node (ones summed into zeros at the destinations) and its floor at 1. -/
abbrev opsP : List (HloOp τ sig (Elt F)) :=
  [ unary main_arg2 main_v0 ((extractStridedSlice S1x320000 ![0, 0] · slices_S2x320000_S1x320000_0_0) : (⟨S2x320000, .i32⟩ : BufTy).Contents (Elt F) → (⟨S1x320000, .i32⟩ : BufTy).Contents (Elt F)),
    reshape main_v0 main_v1 rfl shapeCasts_S1x320000_S320000,
    unary main_arg2 main_v2 ((extractStridedSlice S1x320000 ![1, 0] · slices_S2x320000_S1x320000_1_0) : (⟨S2x320000, .i32⟩ : BufTy).Contents (Elt F) → (⟨S1x320000, .i32⟩ : BufTy).Contents (Elt F)),
    reshape main_v2 main_v3 rfl shapeCasts_S1x320000_S320000,
    nullary main_cst (constant S_ .f32 0x3F800000#32),
    unary main_cst main_v4 (broadcastInDim S320000 ![] bcast_S_S320000 : (⟨S_, .f32⟩ : BufTy).Contents (Elt F) → (⟨S320000, .f32⟩ : BufTy).Contents (Elt F)),
    nullary main_cst_0 (constant S_ .f32 0x00000000#32),
    unary main_cst_0 main_v5 (broadcastInDim S10000 ![] bcast_S_S10000 : (⟨S_, .f32⟩ : BufTy).Contents (Elt F) → (⟨S10000, .f32⟩ : BufTy).Contents (Elt F)),
    unary main_v3 main_v6 (broadcastInDim S320000x1 ![0] bcast_S320000_S320000x1_0 : (⟨S320000, .i32⟩ : BufTy).Contents (Elt F) → (⟨S320000x1, .i32⟩ : BufTy).Contents (Elt F)),
    ternary main_v5 main_v6 main_v4 main_v7 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    nullary main_cst_1 (constant S_ .f32 0x3F800000#32),
    unary main_cst_1 main_v8 (broadcastInDim S10000 ![] bcast_S_S10000 : (⟨S_, .f32⟩ : BufTy).Contents (Elt F) → (⟨S10000, .f32⟩ : BufTy).Contents (Elt F)),
    binary main_v7 main_v8 main_v9 (maximumf : (⟨S10000, .f32⟩ : BufTy).Contents (Elt F) → (⟨S10000, .f32⟩ : BufTy).Contents (Elt F) → (⟨S10000, .f32⟩ : BufTy).Contents (Elt F)) ]

/-- Operations 14 to 34, the first layer: the source rows (a negative index wrapped once by the node count, as one
    column), the gathered feature rows beside the edge attributes times the weight plus the bias, summed into the
    destination nodes and divided by the floored in-degree. -/
abbrev opsL0 : List (HloOp τ sig (Elt F)) :=
  [ nullary main_c (constantI S_ 32 0#32),
    unary main_c main_v10 (broadcastInDim S320000 ![] bcast_S_S320000 : (⟨S_, .i32⟩ : BufTy).Contents (Elt F) → (⟨S320000, .i32⟩ : BufTy).Contents (Elt F)),
    binary main_v1 main_v10 main_v11 (cmpi .slt : (⟨S320000, .i32⟩ : BufTy).Contents (Elt F) → (⟨S320000, .i32⟩ : BufTy).Contents (Elt F) → (⟨S320000, .i1⟩ : BufTy).Contents (Elt F)),
    nullary main_c_2 (constantI S_ 32 10000#32),
    unary main_c_2 main_v12 (broadcastInDim S320000 ![] bcast_S_S320000 : (⟨S_, .i32⟩ : BufTy).Contents (Elt F) → (⟨S320000, .i32⟩ : BufTy).Contents (Elt F)),
    binary main_v1 main_v12 main_v13 (addi : (⟨S320000, .i32⟩ : BufTy).Contents (Elt F) → (⟨S320000, .i32⟩ : BufTy).Contents (Elt F) → (⟨S320000, .i32⟩ : BufTy).Contents (Elt F)),
    ternary main_v11 main_v13 main_v1 main_v14 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v14 main_v15 (broadcastInDim S320000x1 ![0] bcast_S320000_S320000x1_0 : (⟨S320000, .i32⟩ : BufTy).Contents (Elt F) → (⟨S320000x1, .i32⟩ : BufTy).Contents (Elt F)),
    binary main_arg0 main_v15 main_v16 ((fun x i => Host.gather gather_S10000x128_S320000x1_S320000x128_1_0_n_n_0_1_1128 x i) : (⟨S10000x128, .f32⟩ : BufTy).Contents (Elt F) → (⟨S320000x1, .i32⟩ : BufTy).Contents (Elt F) → (⟨S320000x128, .f32⟩ : BufTy).Contents (Elt F)),
    binary main_v16 main_arg1 main_v17 ((fun a b => concatenate S320000x144 1 [⟨S320000x128, a⟩, ⟨S320000x16, b⟩] concatenates_S320000x128_S320000x16_S320000x144_d1) : (⟨S320000x128, .f32⟩ : BufTy).Contents (Elt F) → (⟨S320000x16, .f32⟩ : BufTy).Contents (Elt F) → (⟨S320000x144, .f32⟩ : BufTy).Contents (Elt F)),
    binary main_v17 main_arg3 main_v18 ((fun l r => Host.dotGeneral dot_S320000x144_S144x128_S320000x128_1_0_0_1_n_n none l r) : (⟨S320000x144, .f32⟩ : BufTy).Contents (Elt F) → (⟨S144x128, .f32⟩ : BufTy).Contents (Elt F) → (⟨S320000x128, .f32⟩ : BufTy).Contents (Elt F)),
    unary main_arg4 main_v19 (broadcastInDim S1x128 ![1] bcast_S128_S1x128_1 : (⟨S128, .f32⟩ : BufTy).Contents (Elt F) → (⟨S1x128, .f32⟩ : BufTy).Contents (Elt F)),
    unary main_v19 main_v20 (broadcastInDim S320000x128 ![0, 1] bcast_S1x128_S320000x128_0_1 : (⟨S1x128, .f32⟩ : BufTy).Contents (Elt F) → (⟨S320000x128, .f32⟩ : BufTy).Contents (Elt F)),
    binary main_v18 main_v20 main_v21 (addf : (⟨S320000x128, .f32⟩ : BufTy).Contents (Elt F) → (⟨S320000x128, .f32⟩ : BufTy).Contents (Elt F) → (⟨S320000x128, .f32⟩ : BufTy).Contents (Elt F)),
    nullary main_cst_3 (constant S_ .f32 0x00000000#32),
    unary main_cst_3 main_v22 (broadcastInDim S10000x128 ![] bcast_S_S10000x128 : (⟨S_, .f32⟩ : BufTy).Contents (Elt F) → (⟨S10000x128, .f32⟩ : BufTy).Contents (Elt F)),
    unary main_v3 main_v23 (broadcastInDim S320000x1 ![0] bcast_S320000_S320000x1_0 : (⟨S320000, .i32⟩ : BufTy).Contents (Elt F) → (⟨S320000x1, .i32⟩ : BufTy).Contents (Elt F)),
    ternary main_v22 main_v23 main_v21 main_v24 ((fun x i u => Host.scatterAdd scatter_S10000x128_S320000x1_S320000x128_1_0_0_1 x i u) : (⟨S10000x128, .f32⟩ : BufTy).Contents (Elt F) → (⟨S320000x1, .i32⟩ : BufTy).Contents (Elt F) → (⟨S320000x128, .f32⟩ : BufTy).Contents (Elt F) → (⟨S10000x128, .f32⟩ : BufTy).Contents (Elt F)),
    unary main_v9 main_v25 (broadcastInDim S10000x1 ![0] bcast_S10000_S10000x1_0 : (⟨S10000, .f32⟩ : BufTy).Contents (Elt F) → (⟨S10000x1, .f32⟩ : BufTy).Contents (Elt F)),
    unary main_v25 main_v26 (broadcastInDim S10000x128 ![0, 1] bcast_S10000x1_S10000x128_0_1 : (⟨S10000x1, .f32⟩ : BufTy).Contents (Elt F) → (⟨S10000x128, .f32⟩ : BufTy).Contents (Elt F)),
    binary main_v24 main_v26 main_v27 (Host.divf : (⟨S10000x128, .f32⟩ : BufTy).Contents (Elt F) → (⟨S10000x128, .f32⟩ : BufTy).Contents (Elt F) → (⟨S10000x128, .f32⟩ : BufTy).Contents (Elt F)) ]

/-- Operations 35 to 55, the second layer, on the first layer's output, and operation 56, the two outputs side by
    side. -/
abbrev opsL1 : List (HloOp τ sig (Elt F)) :=
  [ nullary main_c_4 (constantI S_ 32 0#32),
    unary main_c_4 main_v28 (broadcastInDim S320000 ![] bcast_S_S320000 : (⟨S_, .i32⟩ : BufTy).Contents (Elt F) → (⟨S320000, .i32⟩ : BufTy).Contents (Elt F)),
    binary main_v1 main_v28 main_v29 (cmpi .slt : (⟨S320000, .i32⟩ : BufTy).Contents (Elt F) → (⟨S320000, .i32⟩ : BufTy).Contents (Elt F) → (⟨S320000, .i1⟩ : BufTy).Contents (Elt F)),
    nullary main_c_5 (constantI S_ 32 10000#32),
    unary main_c_5 main_v30 (broadcastInDim S320000 ![] bcast_S_S320000 : (⟨S_, .i32⟩ : BufTy).Contents (Elt F) → (⟨S320000, .i32⟩ : BufTy).Contents (Elt F)),
    binary main_v1 main_v30 main_v31 (addi : (⟨S320000, .i32⟩ : BufTy).Contents (Elt F) → (⟨S320000, .i32⟩ : BufTy).Contents (Elt F) → (⟨S320000, .i32⟩ : BufTy).Contents (Elt F)),
    ternary main_v29 main_v31 main_v1 main_v32 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v32 main_v33 (broadcastInDim S320000x1 ![0] bcast_S320000_S320000x1_0 : (⟨S320000, .i32⟩ : BufTy).Contents (Elt F) → (⟨S320000x1, .i32⟩ : BufTy).Contents (Elt F)),
    binary main_v27 main_v33 main_v34 ((fun x i => Host.gather gather_S10000x128_S320000x1_S320000x128_1_0_n_n_0_1_1128 x i) : (⟨S10000x128, .f32⟩ : BufTy).Contents (Elt F) → (⟨S320000x1, .i32⟩ : BufTy).Contents (Elt F) → (⟨S320000x128, .f32⟩ : BufTy).Contents (Elt F)),
    binary main_v34 main_arg1 main_v35 ((fun a b => concatenate S320000x144 1 [⟨S320000x128, a⟩, ⟨S320000x16, b⟩] concatenates_S320000x128_S320000x16_S320000x144_d1) : (⟨S320000x128, .f32⟩ : BufTy).Contents (Elt F) → (⟨S320000x16, .f32⟩ : BufTy).Contents (Elt F) → (⟨S320000x144, .f32⟩ : BufTy).Contents (Elt F)),
    binary main_v35 main_arg5 main_v36 ((fun l r => Host.dotGeneral dot_S320000x144_S144x128_S320000x128_1_0_0_1_n_n none l r) : (⟨S320000x144, .f32⟩ : BufTy).Contents (Elt F) → (⟨S144x128, .f32⟩ : BufTy).Contents (Elt F) → (⟨S320000x128, .f32⟩ : BufTy).Contents (Elt F)),
    unary main_arg6 main_v37 (broadcastInDim S1x128 ![1] bcast_S128_S1x128_1 : (⟨S128, .f32⟩ : BufTy).Contents (Elt F) → (⟨S1x128, .f32⟩ : BufTy).Contents (Elt F)),
    unary main_v37 main_v38 (broadcastInDim S320000x128 ![0, 1] bcast_S1x128_S320000x128_0_1 : (⟨S1x128, .f32⟩ : BufTy).Contents (Elt F) → (⟨S320000x128, .f32⟩ : BufTy).Contents (Elt F)),
    binary main_v36 main_v38 main_v39 (addf : (⟨S320000x128, .f32⟩ : BufTy).Contents (Elt F) → (⟨S320000x128, .f32⟩ : BufTy).Contents (Elt F) → (⟨S320000x128, .f32⟩ : BufTy).Contents (Elt F)),
    nullary main_cst_6 (constant S_ .f32 0x00000000#32),
    unary main_cst_6 main_v40 (broadcastInDim S10000x128 ![] bcast_S_S10000x128 : (⟨S_, .f32⟩ : BufTy).Contents (Elt F) → (⟨S10000x128, .f32⟩ : BufTy).Contents (Elt F)),
    unary main_v3 main_v41 (broadcastInDim S320000x1 ![0] bcast_S320000_S320000x1_0 : (⟨S320000, .i32⟩ : BufTy).Contents (Elt F) → (⟨S320000x1, .i32⟩ : BufTy).Contents (Elt F)),
    ternary main_v40 main_v41 main_v39 main_v42 ((fun x i u => Host.scatterAdd scatter_S10000x128_S320000x1_S320000x128_1_0_0_1 x i u) : (⟨S10000x128, .f32⟩ : BufTy).Contents (Elt F) → (⟨S320000x1, .i32⟩ : BufTy).Contents (Elt F) → (⟨S320000x128, .f32⟩ : BufTy).Contents (Elt F) → (⟨S10000x128, .f32⟩ : BufTy).Contents (Elt F)),
    unary main_v9 main_v43 (broadcastInDim S10000x1 ![0] bcast_S10000_S10000x1_0 : (⟨S10000, .f32⟩ : BufTy).Contents (Elt F) → (⟨S10000x1, .f32⟩ : BufTy).Contents (Elt F)),
    unary main_v43 main_v44 (broadcastInDim S10000x128 ![0, 1] bcast_S10000x1_S10000x128_0_1 : (⟨S10000x1, .f32⟩ : BufTy).Contents (Elt F) → (⟨S10000x128, .f32⟩ : BufTy).Contents (Elt F)),
    binary main_v42 main_v44 main_v45 (Host.divf : (⟨S10000x128, .f32⟩ : BufTy).Contents (Elt F) → (⟨S10000x128, .f32⟩ : BufTy).Contents (Elt F) → (⟨S10000x128, .f32⟩ : BufTy).Contents (Elt F)),
    binary main_v27 main_v45 main_v46 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)) ]

/-- Operations 57 to 77, the third layer, on the first two outputs side by side, and operation 78, the three outputs
    side by side. -/
abbrev opsL2 : List (HloOp τ sig (Elt F)) :=
  [ nullary main_c_7 (constantI S_ 32 0#32),
    unary main_c_7 main_v47 (broadcastInDim S320000 ![] bcast_S_S320000 : (⟨S_, .i32⟩ : BufTy).Contents (Elt F) → (⟨S320000, .i32⟩ : BufTy).Contents (Elt F)),
    binary main_v1 main_v47 main_v48 (cmpi .slt : (⟨S320000, .i32⟩ : BufTy).Contents (Elt F) → (⟨S320000, .i32⟩ : BufTy).Contents (Elt F) → (⟨S320000, .i1⟩ : BufTy).Contents (Elt F)),
    nullary main_c_8 (constantI S_ 32 10000#32),
    unary main_c_8 main_v49 (broadcastInDim S320000 ![] bcast_S_S320000 : (⟨S_, .i32⟩ : BufTy).Contents (Elt F) → (⟨S320000, .i32⟩ : BufTy).Contents (Elt F)),
    binary main_v1 main_v49 main_v50 (addi : (⟨S320000, .i32⟩ : BufTy).Contents (Elt F) → (⟨S320000, .i32⟩ : BufTy).Contents (Elt F) → (⟨S320000, .i32⟩ : BufTy).Contents (Elt F)),
    ternary main_v48 main_v50 main_v1 main_v51 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v51 main_v52 (broadcastInDim S320000x1 ![0] bcast_S320000_S320000x1_0 : (⟨S320000, .i32⟩ : BufTy).Contents (Elt F) → (⟨S320000x1, .i32⟩ : BufTy).Contents (Elt F)),
    binary main_v46 main_v52 main_v53 ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)),
    binary main_v53 main_arg1 main_v54 ((fun a b => concatenate S320000x272 1 [⟨S320000x256, a⟩, ⟨S320000x16, b⟩] concatenates_S320000x256_S320000x16_S320000x272_d1) : (⟨S320000x256, .f32⟩ : BufTy).Contents (Elt F) → (⟨S320000x16, .f32⟩ : BufTy).Contents (Elt F) → (⟨S320000x272, .f32⟩ : BufTy).Contents (Elt F)),
    binary main_v54 main_arg7 main_v55 ((fun l r => Host.dotGeneral dot_S320000x272_S272x128_S320000x128_1_0_0_1_n_n none l r) : (⟨S320000x272, .f32⟩ : BufTy).Contents (Elt F) → (⟨S272x128, .f32⟩ : BufTy).Contents (Elt F) → (⟨S320000x128, .f32⟩ : BufTy).Contents (Elt F)),
    unary main_arg8 main_v56 (broadcastInDim S1x128 ![1] bcast_S128_S1x128_1 : (⟨S128, .f32⟩ : BufTy).Contents (Elt F) → (⟨S1x128, .f32⟩ : BufTy).Contents (Elt F)),
    unary main_v56 main_v57 (broadcastInDim S320000x128 ![0, 1] bcast_S1x128_S320000x128_0_1 : (⟨S1x128, .f32⟩ : BufTy).Contents (Elt F) → (⟨S320000x128, .f32⟩ : BufTy).Contents (Elt F)),
    binary main_v55 main_v57 main_v58 (addf : (⟨S320000x128, .f32⟩ : BufTy).Contents (Elt F) → (⟨S320000x128, .f32⟩ : BufTy).Contents (Elt F) → (⟨S320000x128, .f32⟩ : BufTy).Contents (Elt F)),
    nullary main_cst_9 (constant S_ .f32 0x00000000#32),
    unary main_cst_9 main_v59 (broadcastInDim S10000x128 ![] bcast_S_S10000x128 : (⟨S_, .f32⟩ : BufTy).Contents (Elt F) → (⟨S10000x128, .f32⟩ : BufTy).Contents (Elt F)),
    unary main_v3 main_v60 (broadcastInDim S320000x1 ![0] bcast_S320000_S320000x1_0 : (⟨S320000, .i32⟩ : BufTy).Contents (Elt F) → (⟨S320000x1, .i32⟩ : BufTy).Contents (Elt F)),
    ternary main_v59 main_v60 main_v58 main_v61 ((fun x i u => Host.scatterAdd scatter_S10000x128_S320000x1_S320000x128_1_0_0_1 x i u) : (⟨S10000x128, .f32⟩ : BufTy).Contents (Elt F) → (⟨S320000x1, .i32⟩ : BufTy).Contents (Elt F) → (⟨S320000x128, .f32⟩ : BufTy).Contents (Elt F) → (⟨S10000x128, .f32⟩ : BufTy).Contents (Elt F)),
    unary main_v9 main_v62 (broadcastInDim S10000x1 ![0] bcast_S10000_S10000x1_0 : (⟨S10000, .f32⟩ : BufTy).Contents (Elt F) → (⟨S10000x1, .f32⟩ : BufTy).Contents (Elt F)),
    unary main_v62 main_v63 (broadcastInDim S10000x128 ![0, 1] bcast_S10000x1_S10000x128_0_1 : (⟨S10000x1, .f32⟩ : BufTy).Contents (Elt F) → (⟨S10000x128, .f32⟩ : BufTy).Contents (Elt F)),
    binary main_v61 main_v63 main_v64 (Host.divf : (⟨S10000x128, .f32⟩ : BufTy).Contents (Elt F) → (⟨S10000x128, .f32⟩ : BufTy).Contents (Elt F) → (⟨S10000x128, .f32⟩ : BufTy).Contents (Elt F)),
    nary ![main_v27, main_v45, main_v64] main_v65 (fun u => concatenate S10000x384 1 [⟨S10000x128, u 0⟩, ⟨S10000x128, u 1⟩, ⟨S10000x128, u 2⟩] concatenates_S10000x128_S10000x128_S10000x128_S10000x384_d1) ]

/-- Operations 79 to 99, the fourth layer, on the three outputs side by side. -/
abbrev opsL3 : List (HloOp τ sig (Elt F)) :=
  [ nullary main_c_10 (constantI S_ 32 0#32),
    unary main_c_10 main_v66 (broadcastInDim S320000 ![] bcast_S_S320000 : (⟨S_, .i32⟩ : BufTy).Contents (Elt F) → (⟨S320000, .i32⟩ : BufTy).Contents (Elt F)),
    binary main_v1 main_v66 main_v67 (cmpi .slt : (⟨S320000, .i32⟩ : BufTy).Contents (Elt F) → (⟨S320000, .i32⟩ : BufTy).Contents (Elt F) → (⟨S320000, .i1⟩ : BufTy).Contents (Elt F)),
    nullary main_c_11 (constantI S_ 32 10000#32),
    unary main_c_11 main_v68 (broadcastInDim S320000 ![] bcast_S_S320000 : (⟨S_, .i32⟩ : BufTy).Contents (Elt F) → (⟨S320000, .i32⟩ : BufTy).Contents (Elt F)),
    binary main_v1 main_v68 main_v69 (addi : (⟨S320000, .i32⟩ : BufTy).Contents (Elt F) → (⟨S320000, .i32⟩ : BufTy).Contents (Elt F) → (⟨S320000, .i32⟩ : BufTy).Contents (Elt F)),
    ternary main_v67 main_v69 main_v1 main_v70 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v70 main_v71 (broadcastInDim S320000x1 ![0] bcast_S320000_S320000x1_0 : (⟨S320000, .i32⟩ : BufTy).Contents (Elt F) → (⟨S320000x1, .i32⟩ : BufTy).Contents (Elt F)),
    binary main_v65 main_v71 main_v72 ((fun x i => Host.gather gather_S10000x384_S320000x1_S320000x384_1_0_n_n_0_1_1384 x i) : (⟨S10000x384, .f32⟩ : BufTy).Contents (Elt F) → (⟨S320000x1, .i32⟩ : BufTy).Contents (Elt F) → (⟨S320000x384, .f32⟩ : BufTy).Contents (Elt F)),
    binary main_v72 main_arg1 main_v73 ((fun a b => concatenate S320000x400 1 [⟨S320000x384, a⟩, ⟨S320000x16, b⟩] concatenates_S320000x384_S320000x16_S320000x400_d1) : (⟨S320000x384, .f32⟩ : BufTy).Contents (Elt F) → (⟨S320000x16, .f32⟩ : BufTy).Contents (Elt F) → (⟨S320000x400, .f32⟩ : BufTy).Contents (Elt F)),
    binary main_v73 main_arg9 main_v74 ((fun l r => Host.dotGeneral dot_S320000x400_S400x128_S320000x128_1_0_0_1_n_n none l r) : (⟨S320000x400, .f32⟩ : BufTy).Contents (Elt F) → (⟨S400x128, .f32⟩ : BufTy).Contents (Elt F) → (⟨S320000x128, .f32⟩ : BufTy).Contents (Elt F)),
    unary main_arg10 main_v75 (broadcastInDim S1x128 ![1] bcast_S128_S1x128_1 : (⟨S128, .f32⟩ : BufTy).Contents (Elt F) → (⟨S1x128, .f32⟩ : BufTy).Contents (Elt F)),
    unary main_v75 main_v76 (broadcastInDim S320000x128 ![0, 1] bcast_S1x128_S320000x128_0_1 : (⟨S1x128, .f32⟩ : BufTy).Contents (Elt F) → (⟨S320000x128, .f32⟩ : BufTy).Contents (Elt F)),
    binary main_v74 main_v76 main_v77 (addf : (⟨S320000x128, .f32⟩ : BufTy).Contents (Elt F) → (⟨S320000x128, .f32⟩ : BufTy).Contents (Elt F) → (⟨S320000x128, .f32⟩ : BufTy).Contents (Elt F)),
    nullary main_cst_12 (constant S_ .f32 0x00000000#32),
    unary main_cst_12 main_v78 (broadcastInDim S10000x128 ![] bcast_S_S10000x128 : (⟨S_, .f32⟩ : BufTy).Contents (Elt F) → (⟨S10000x128, .f32⟩ : BufTy).Contents (Elt F)),
    unary main_v3 main_v79 (broadcastInDim S320000x1 ![0] bcast_S320000_S320000x1_0 : (⟨S320000, .i32⟩ : BufTy).Contents (Elt F) → (⟨S320000x1, .i32⟩ : BufTy).Contents (Elt F)),
    ternary main_v78 main_v79 main_v77 main_v80 ((fun x i u => Host.scatterAdd scatter_S10000x128_S320000x1_S320000x128_1_0_0_1 x i u) : (⟨S10000x128, .f32⟩ : BufTy).Contents (Elt F) → (⟨S320000x1, .i32⟩ : BufTy).Contents (Elt F) → (⟨S320000x128, .f32⟩ : BufTy).Contents (Elt F) → (⟨S10000x128, .f32⟩ : BufTy).Contents (Elt F)),
    unary main_v9 main_v81 (broadcastInDim S10000x1 ![0] bcast_S10000_S10000x1_0 : (⟨S10000, .f32⟩ : BufTy).Contents (Elt F) → (⟨S10000x1, .f32⟩ : BufTy).Contents (Elt F)),
    unary main_v81 main_v82 (broadcastInDim S10000x128 ![0, 1] bcast_S10000x1_S10000x128_0_1 : (⟨S10000x1, .f32⟩ : BufTy).Contents (Elt F) → (⟨S10000x128, .f32⟩ : BufTy).Contents (Elt F)),
    binary main_v80 main_v82 main_v83 (Host.divf : (⟨S10000x128, .f32⟩ : BufTy).Contents (Elt F) → (⟨S10000x128, .f32⟩ : BufTy).Contents (Elt F) → (⟨S10000x128, .f32⟩ : BufTy).Contents (Elt F)) ]

/-- @main's 99 operations, in order. -/
abbrev ops : List (HloOp τ sig (Elt F)) := opsP ++ opsL0 ++ opsL1 ++ opsL2 ++ opsL3

set_option maxRecDepth 8192 in
set_option maxHeartbeats 4000000 in
/-- @main is the straight line of these operations. -/
theorem main_eq (c : Dev nD) : main (F := F) c = StableHlo.seq ops := rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and determines what it writes -/

/-- A property of every element of two lists holds of every element of their concatenation. -/
theorem forall_append {α : Type*} {p : α → Prop} {l₁ l₂ : List α} (h₁ : l₁.Forall p) (h₂ : l₂.Forall p) :
    (l₁ ++ l₂).Forall p := by
  rw [List.forall_iff_forall_mem] at h₁ h₂ ⊢
  intro x hx
  rcases List.mem_append.mp hx with h | h
  · exact h₁ x h
  · exact h₂ x h

theorem opsP_sub : (opsP : List (HloOp τ sig (Elt F))).Forall fun op => op.bufs ⊆ tcRefs τ sig :=
  ⟨unary_bufs_sub .., reshape_bufs_sub .., unary_bufs_sub .., reshape_bufs_sub .., nullary_bufs_sub .., unary_bufs_sub ..,
    nullary_bufs_sub .., unary_bufs_sub .., unary_bufs_sub .., ternary_bufs_sub .., nullary_bufs_sub .., unary_bufs_sub ..,
    binary_bufs_sub ..⟩

theorem opsL0_sub : (opsL0 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., unary_bufs_sub ..,
    unary_bufs_sub .., binary_bufs_sub .., nullary_bufs_sub .., unary_bufs_sub .., unary_bufs_sub .., ternary_bufs_sub ..,
    unary_bufs_sub .., unary_bufs_sub .., binary_bufs_sub ..⟩

theorem opsL1_sub : (opsL1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., unary_bufs_sub ..,
    unary_bufs_sub .., binary_bufs_sub .., nullary_bufs_sub .., unary_bufs_sub .., unary_bufs_sub .., ternary_bufs_sub ..,
    unary_bufs_sub .., unary_bufs_sub .., binary_bufs_sub .., binary_bufs_sub ..⟩

theorem opsL2_sub : (opsL2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., unary_bufs_sub ..,
    unary_bufs_sub .., binary_bufs_sub .., nullary_bufs_sub .., unary_bufs_sub .., unary_bufs_sub .., ternary_bufs_sub ..,
    unary_bufs_sub .., unary_bufs_sub .., binary_bufs_sub .., nary_bufs_sub ..⟩

theorem opsL3_sub : (opsL3 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., unary_bufs_sub ..,
    unary_bufs_sub .., binary_bufs_sub .., nullary_bufs_sub .., unary_bufs_sub .., unary_bufs_sub .., ternary_bufs_sub ..,
    unary_bufs_sub .., unary_bufs_sub .., binary_bufs_sub ..⟩

/-- Every operation of @main touches TensorCore buffers only. -/
theorem ops_sub : (ops : List (HloOp τ sig (Elt F))).Forall fun op => op.bufs ⊆ tcRefs τ sig :=
  forall_append (forall_append (forall_append (forall_append opsP_sub opsL0_sub) opsL1_sub) opsL2_sub) opsL3_sub

theorem opsP_fresh : ∀ op ∈ (opsP : List (HloOp τ sig (Elt F))), op.fresh = ∅ := by
  intro op h
  repeat (cases h with | head => rfl | tail _ h => ?_)
  exact nomatch h

theorem opsL0_fresh : ∀ op ∈ (opsL0 : List (HloOp τ sig (Elt F))), op.fresh = ∅ := by
  intro op h
  repeat (cases h with | head => rfl | tail _ h => ?_)
  exact nomatch h

theorem opsL1_fresh : ∀ op ∈ (opsL1 : List (HloOp τ sig (Elt F))), op.fresh = ∅ := by
  intro op h
  repeat (cases h with | head => rfl | tail _ h => ?_)
  exact nomatch h

theorem opsL2_fresh : ∀ op ∈ (opsL2 : List (HloOp τ sig (Elt F))), op.fresh = ∅ := by
  intro op h
  repeat (cases h with | head => rfl | tail _ h => ?_)
  exact nomatch h

theorem opsL3_fresh : ∀ op ∈ (opsL3 : List (HloOp τ sig (Elt F))), op.fresh = ∅ := by
  intro op h
  repeat (cases h with | head => rfl | tail _ h => ?_)
  exact nomatch h

/-- No operation of @main leaves what it writes undetermined. -/
theorem ops_fresh : ∀ op ∈ (ops : List (HloOp τ sig (Elt F))), op.fresh = ∅ := by
  intro op h
  rcases List.mem_append.mp h with h | h
  · rcases List.mem_append.mp h with h | h
    · rcases List.mem_append.mp h with h | h
      · rcases List.mem_append.mp h with h | h
        · exact opsP_fresh op h
        · exact opsL0_fresh op h
      · exact opsL1_fresh op h
    · exact opsL2_fresh op h
  · exact opsL3_fresh op h

/-! ## Reading a concatenation one piece at a time, and the run -/

/-- The contents after two lists run one after the other: those after the second, from those after the first. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, after_cons, ih]

/-- On every device, for any float values, from any memory with zero counters: every weakly fair execution of @main
    terminates with each TensorCore buffer at the fold of the 99 operations over the device's launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = StableHlo.after ops (StableHlo.launchContents m d) (Proc.devRef .tc b) :=
  run_seq scopedRefs_eq scopedSems_eq defs main (fun _ => ops) main_eq (fun _ => ops_sub) m ρ (fun _ => ops_fresh)

end Cert.Gcn.RefRun

end
-- ==== Proof.RefArgs.lean ====
/-
  The reference program never writes one of its eleven arguments.  Each of its 99 host operations writes only its own
  result buffer, and no result buffer is an argument; so after the whole line, from any contents, an argument's buffer
  holds what it held before the line.
-/
import proofs.«122878_j84842783965681_2_alg».proof.Proof.RefOps

set_option maxRecDepth 16384

noncomputable section

namespace Cert.Gcn.RefRun

open Cert.ReferenceIdeal Cert.ReferenceIdeal.Gen Idealize.ShloMosaic Idealize.ShloMosaic.TcCoe Idealize.SL.Sem Idealize.ShloMosaic.StableHlo

variable {F : FTy → Type} [FloatOps F]

/-- Closes "no operation of the line writes this buffer": the line is unfolded into its 99 operations, each
    operation's written set is its one result buffer, and the argument differs from every result buffer. -/
local macro "none_writes" : tactic =>
  `(tactic| (
    simp only [ops, opsP, opsL0, opsL1, opsL2, opsL3, List.cons_append, List.nil_append, List.Forall,
      StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-- The node features are not written. -/
theorem arg_0 (V : Valuation τ sig (Elt F)) :
    StableHlo.after ops V (Proc.devRef .tc main_arg0) = V (Proc.devRef .tc main_arg0) :=
  StableHlo.after_of_forall_not_mem (b := Proc.devRef .tc main_arg0) _ _ (List.forall_iff_forall_mem.mp (by none_writes))

/-- The edge attributes are not written. -/
theorem arg_1 (V : Valuation τ sig (Elt F)) :
    StableHlo.after ops V (Proc.devRef .tc main_arg1) = V (Proc.devRef .tc main_arg1) :=
  StableHlo.after_of_forall_not_mem (b := Proc.devRef .tc main_arg1) _ _ (List.forall_iff_forall_mem.mp (by none_writes))

/-- The edge index is not written. -/
theorem arg_2 (V : Valuation τ sig (Elt F)) :
    StableHlo.after ops V (Proc.devRef .tc main_arg2) = V (Proc.devRef .tc main_arg2) :=
  StableHlo.after_of_forall_not_mem (b := Proc.devRef .tc main_arg2) _ _ (List.forall_iff_forall_mem.mp (by none_writes))

/-- The first layer's weights are not written. -/
theorem arg_3 (V : Valuation τ sig (Elt F)) :
    StableHlo.after ops V (Proc.devRef .tc main_arg3) = V (Proc.devRef .tc main_arg3) :=
  StableHlo.after_of_forall_not_mem (b := Proc.devRef .tc main_arg3) _ _ (List.forall_iff_forall_mem.mp (by none_writes))

/-- The first layer's bias is not written. -/
theorem arg_4 (V : Valuation τ sig (Elt F)) :
    StableHlo.after ops V (Proc.devRef .tc main_arg4) = V (Proc.devRef .tc main_arg4) :=
  StableHlo.after_of_forall_not_mem (b := Proc.devRef .tc main_arg4) _ _ (List.forall_iff_forall_mem.mp (by none_writes))

/-- The second layer's weights are not written. -/
theorem arg_5 (V : Valuation τ sig (Elt F)) :
    StableHlo.after ops V (Proc.devRef .tc main_arg5) = V (Proc.devRef .tc main_arg5) :=
  StableHlo.after_of_forall_not_mem (b := Proc.devRef .tc main_arg5) _ _ (List.forall_iff_forall_mem.mp (by none_writes))

/-- The second layer's bias is not written. -/
theorem arg_6 (V : Valuation τ sig (Elt F)) :
    StableHlo.after ops V (Proc.devRef .tc main_arg6) = V (Proc.devRef .tc main_arg6) :=
  StableHlo.after_of_forall_not_mem (b := Proc.devRef .tc main_arg6) _ _ (List.forall_iff_forall_mem.mp (by none_writes))

/-- The third layer's weights are not written. -/
theorem arg_7 (V : Valuation τ sig (Elt F)) :
    StableHlo.after ops V (Proc.devRef .tc main_arg7) = V (Proc.devRef .tc main_arg7) :=
  StableHlo.after_of_forall_not_mem (b := Proc.devRef .tc main_arg7) _ _ (List.forall_iff_forall_mem.mp (by none_writes))

/-- The third layer's bias is not written. -/
theorem arg_8 (V : Valuation τ sig (Elt F)) :
    StableHlo.after ops V (Proc.devRef .tc main_arg8) = V (Proc.devRef .tc main_arg8) :=
  StableHlo.after_of_forall_not_mem (b := Proc.devRef .tc main_arg8) _ _ (List.forall_iff_forall_mem.mp (by none_writes))

/-- The fourth layer's weights are not written. -/
theorem arg_9 (V : Valuation τ sig (Elt F)) :
    StableHlo.after ops V (Proc.devRef .tc main_arg9) = V (Proc.devRef .tc main_arg9) :=
  StableHlo.after_of_forall_not_mem (b := Proc.devRef .tc main_arg9) _ _ (List.forall_iff_forall_mem.mp (by none_writes))

/-- The fourth layer's bias is not written. -/
theorem arg_10 (V : Valuation τ sig (Elt F)) :
    StableHlo.after ops V (Proc.devRef .tc main_arg10) = V (Proc.devRef .tc main_arg10) :=
  StableHlo.after_of_forall_not_mem (b := Proc.devRef .tc main_arg10) _ _ (List.forall_iff_forall_mem.mp (by none_writes))

end Cert.Gcn.RefRun

end
-- ==== Proof.LibIndexOps.lean ====
import Idealize.ShloMosaic.PureOps.Ideal
import Idealize.ShloMosaic.PureOps.Ideal.Laws
import Idealize.ShloMosaic.Lib.ValueIdx
import Idealize.ShloMosaic.Lib.Pipeline.Value

/-!
# Host scatter-add, gather and concatenation read at an index, for flat arrays

For a flat array `x : [N]`, an integer array `idx : [M, 1]` and updates `upd : [M]`:
* `x.at[idx].add(upd)` at `n` is `x n` plus the sum of the `upd j` whose index word `idx[j, 0]`, read signed, is `n`
  (`scatterAddFlat_apply`; the one-column form `[N, 1]`, `[M, 1]`: `scatterAddCol_apply`);
* `x[idx]` at `j` is `x` at `idx[j, 0]` read signed and clamped into `[0, N − 1]` (`gatherFlat_apply`; whole rows of
  `x : [N, C]`: `gatherRows_apply`);
* a concatenation of two flat arrays at `j` is the first below its extent, else the second (`concatFlat_apply`), two
  one-column arrays side by side at `(n, c)` are the first in column 0 and the second in column 1
  (`concatCols_apply`), and a sum over `A + B` terms splits at `A` (`sum_fin_append`).
Each set of dimension numbers is an `abbrev` taking its conditions as a parameter, so a record with the same literal
lists is that `abbrev` by definition. No proof enumerates an extent.
-/

noncomputable section

open scoped BigOperators

namespace Cert.LibIndexOps

open Idealize.ShloMosaic Idealize.ShloMosaic.ValueIdx

/-! ## Sums over a rank-1 index set -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## A scatter-add into a flat array: `x.at[idx].add(upd)` for `x : [N]`, `idx : [M, 1]`, `upd : [M]` -/

/-- The dimension numbers of a scatter of `M` scalar updates into a flat operand `[N]` at the scatter indices
    `[M, 1]`: no window axis, the operand's one axis inserted and named by the index vector's one component. -/
abbrev scatFlat (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update `j`'s window starts at its index word `idx[j, 0]`, read signed. -/
theorem scatFlat_start {N M w : Nat} (wf : ScatterDims.WF ⟨1, ![N]⟩ ⟨2, ![M, 1]⟩ ⟨1, ![M]⟩ [] [0] [0] 1)
    (idx : IVec ⟨2, ![M, 1]⟩ w) (j : Fin M) :
    (scatFlat N M wf).start (ix1 j) idx 0 = (idx (ix2 j 0)).toInt := by
  unfold ScatterDims.start
  rw [dif_pos (show (0 : Fin 1) ∈ (scatFlat N M wf).scatterDimsToOperandDims from List.mem_singleton.mpr rfl)]
  have hsi : (scatFlat N M wf).siIdx (ix1 j) ⟨List.idxOf (0 : Fin 1) (scatFlat N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- A scalar update has no window coordinate. -/
theorem scatFlat_window {N M : Nat} (wf : ScatterDims.WF ⟨1, ![N]⟩ ⟨2, ![M, 1]⟩ ⟨1, ![M]⟩ [] [0] [0] 1)
    (j : (⟨1, ![M]⟩ : Shape).Idx) : (scatFlat N M wf).window j 0 = 0 := by
  unfold ScatterDims.window
  rw [dif_neg]
  simp [ScatterDims.sKept, Shape.kept]

/-- Update `j` lands on element `n` exactly when its index word, read signed, is `n`. -/
theorem scatFlat_resultIdx_iff {N M w : Nat} (wf : ScatterDims.WF ⟨1, ![N]⟩ ⟨2, ![M, 1]⟩ ⟨1, ![M]⟩ [] [0] [0] 1)
    (idx : IVec ⟨2, ![M, 1]⟩ w) (j : Fin M) (n : Fin N) :
    (scatFlat N M wf).resultIdx? (ix1 j) idx = some (ix1 n) ↔ (idx (ix2 j 0)).toInt = (n.val : Int) := by
  have hs := scatFlat_start wf idx j
  have hw := scatFlat_window wf (ix1 j)
  unfold ScatterDims.resultIdx?
  split
  · next h =>
    have h0 := h 0
    rw [hs, hw] at h0
    rw [Option.some.injEq]
    constructor
    · intro e
      have e0 := congrArg (fun f => ((f 0).val : Nat)) e
      simp only [hs, hw] at e0
      change _ = n.val at e0
      omega
    · intro e
      funext a
      obtain rfl : a = 0 := Subsingleton.elim _ _
      refine Fin.ext ?_
      show ((scatFlat N M wf).start (ix1 j) idx 0 + ((scatFlat N M wf).window (ix1 j) 0 : Int)).toNat = n.val
      rw [hs, hw, e]; simp
  · next h =>
    constructor
    · intro e; cases e
    · intro e
      exfalso; apply h
      intro a
      obtain rfl : a = 0 := Subsingleton.elim _ _
      rw [hs, hw, e]
      have hn : (n.val : Int) < ((⟨1, ![N]⟩ : Shape).size 0 : Nat) := by
        have : n.val < N := n.isLt
        exact_mod_cast this
      constructor
      · simp
      · simpa using hn

/-- THE SCATTER-ADD READ AT `n`: the operand's element plus the sum of the updates whose index word, read signed, is
    `n`; an update whose word is negative or at least `N` lands on no element and is dropped. -/
theorem scatterAddFlat_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (n : Fin N) :
    Ideal.hostScatterAdd (scatFlat N M wf) x idx upd (ix1 n)
      = x (ix1 n) + ∑ j : Fin M, if (idx (ix2 j 0)).toInt = (n.val : Int) then upd (ix1 j) else 0 := by
  unfold Ideal.hostScatterAdd
  congr 1
  rw [Finset.sum_filter, sum_idx1]
  refine Finset.sum_congr rfl fun j _ => ?_
  exact if_congr (scatFlat_resultIdx_iff wf idx j n) rfl rfl

/-! ## A gather from a flat array: `x[idx]` for `x : [N]`, `idx : [M, 1]` -/

/-- The dimension numbers of a gather of `M` scalars out of a flat operand `[N]` at the start indices `[M, 1]`:
    no offset axis, the operand's one axis collapsed (slice size 1) and named by the index vector's one component. -/
abbrev gathFlat (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER READ AT `j`: the operand at the start index `idx[j, 0]`, read signed and clamped into `[0, N − 1]`. -/
theorem gatherFlat_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (gathFlat N M wf) x idx (ix1 j)
      = x (ix1 ⟨min (idx (ix2 j 0)).toInt.toNat (N - 1), by omega⟩) := by
  unfold Host.gather
  congr 1
  funext a
  obtain rfl : a = 0 := Subsingleton.elim _ _
  refine Fin.ext ?_
  show (gathFlat N M wf).start (ix1 j) idx 0 + (gathFlat N M wf).batchCoord (ix1 j) 0
    + (gathFlat N M wf).offCoord (ix1 j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gathFlat N M wf).startIndexMap from List.mem_singleton.mpr rfl)]
  have hsi : (gathFlat N M wf).siIdx (ix1 j) ⟨List.idxOf (0 : Fin 1) (gathFlat N M wf).startIndexMap,
      List.idxOf_lt_length_iff.2 (List.mem_singleton.mpr rfl)⟩ = ix2 j 0 := by
    funext b; refine Fin.ext ?_
    match b with
    | ⟨0, _⟩ => rfl
    | ⟨1, _⟩ => rfl
  rw [hsi]
  rfl

/-! ## A scatter-add into a one-column array: `x.at[idx].add(upd)` for `x : [N, 1]`, `idx : [M, 1]`, `upd : [M, 1]` -/

/-- The dimension numbers of a scatter of `M` one-element rows into an operand `[N, 1]` at the scatter indices
    `[M, 1]`: the updates' axis 1 is the window axis (onto the operand's axis 1), the operand's axis 0 is inserted
    and named by the index vector's one component. -/
abbrev scatCol (N M : Nat) (wf : ScatterDims.WF ⟨2, ![N, 1]⟩ ⟨2, ![M, 1]⟩ ⟨2, ![M, 1]⟩ [1] [0] [0] 1) :
    ScatterDims ⟨2, ![N, 1]⟩ ⟨2, ![M, 1]⟩ ⟨2, ![M, 1]⟩ where
  updateWindowDims := [1]
  insertedWindowDims := [0]
  scatterDimsToOperandDims := [0]
  indexVectorDim := 1
  wf := wf

/-- On the row axis update `(j, 0)`'s window starts at its index word `idx[j, 0]`, read signed. -/
theorem scatCol_start0 {N M w : Nat} (wf : ScatterDims.WF ⟨2, ![N, 1]⟩ ⟨2, ![M, 1]⟩ ⟨2, ![M, 1]⟩ [1] [0] [0] 1)
    (idx : IVec ⟨2, ![M, 1]⟩ w) (j : Fin M) :
    (scatCol N M wf).start (ix2 j 0) idx 0 = (idx (ix2 j 0)).toInt := by
  unfold ScatterDims.start
  rw [dif_pos (show (0 : Fin 2) ∈ (scatCol N M wf).scatterDimsToOperandDims from List.mem_singleton.mpr rfl)]
  have hsi : (scatCol N M wf).siIdx (ix2 j 0) ⟨List.idxOf (0 : Fin 2) (scatCol N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- On the column axis, which the index vector does not name, the window starts at 0. -/
theorem scatCol_start1 {N M w : Nat} (wf : ScatterDims.WF ⟨2, ![N, 1]⟩ ⟨2, ![M, 1]⟩ ⟨2, ![M, 1]⟩ [1] [0] [0] 1)
    (idx : IVec ⟨2, ![M, 1]⟩ w) (j : (⟨2, ![M, 1]⟩ : Shape).Idx) :
    (scatCol N M wf).start j idx 1 = 0 := by
  unfold ScatterDims.start
  rw [dif_neg]
  simp

/-- The row axis is inserted: no window coordinate there. -/
theorem scatCol_window0 {N M : Nat} (wf : ScatterDims.WF ⟨2, ![N, 1]⟩ ⟨2, ![M, 1]⟩ ⟨2, ![M, 1]⟩ [1] [0] [0] 1)
    (j : (⟨2, ![M, 1]⟩ : Shape).Idx) : (scatCol N M wf).window j 0 = 0 := by
  unfold ScatterDims.window
  rw [dif_neg]
  simp [ScatterDims.sKept, Shape.kept]

/-- The column axis has extent 1: the window coordinate there is 0. -/
theorem scatCol_window1 {N M : Nat} (wf : ScatterDims.WF ⟨2, ![N, 1]⟩ ⟨2, ![M, 1]⟩ ⟨2, ![M, 1]⟩ [1] [0] [0] 1)
    (j : Fin M) : (scatCol N M wf).window (ix2 j 0) 1 = 0 := by
  unfold ScatterDims.window
  split
  · rfl
  · rfl

/-- Update `(j, 0)` lands on element `(n, 0)` exactly when its index word, read signed, is `n`. -/
theorem scatCol_resultIdx_iff {N M w : Nat} (wf : ScatterDims.WF ⟨2, ![N, 1]⟩ ⟨2, ![M, 1]⟩ ⟨2, ![M, 1]⟩ [1] [0] [0] 1)
    (idx : IVec ⟨2, ![M, 1]⟩ w) (j : Fin M) (n : Fin N) :
    (scatCol N M wf).resultIdx? (ix2 j 0) idx = some (ix2 n 0) ↔ (idx (ix2 j 0)).toInt = (n.val : Int) := by
  have hs0 := scatCol_start0 wf idx j
  have hs1 := scatCol_start1 wf idx (ix2 j 0)
  have hw0 := scatCol_window0 wf (ix2 j 0)
  have hw1 := scatCol_window1 wf j
  unfold ScatterDims.resultIdx?
  split
  · next h =>
    have h0 := h 0
    rw [hs0, hw0] at h0
    rw [Option.some.injEq]
    constructor
    · intro e
      have e0 := congrArg (fun f => ((f 0).val : Nat)) e
      simp only [hs0, hw0] at e0
      change _ = n.val at e0
      omega
    · intro e
      funext a
      revert a
      refine Fin.forall_fin_two.2 ⟨?_, ?_⟩
      · refine Fin.ext ?_
        show ((scatCol N M wf).start (ix2 j 0) idx 0 + ((scatCol N M wf).window (ix2 j 0) 0 : Int)).toNat = n.val
        rw [hs0, hw0, e]; simp
      · refine Fin.ext ?_
        show ((scatCol N M wf).start (ix2 j 0) idx 1 + ((scatCol N M wf).window (ix2 j 0) 1 : Int)).toNat = 0
        rw [hs1, hw1]; rfl
  · next h =>
    constructor
    · intro e; cases e
    · intro e
      exfalso; apply h
      refine Fin.forall_fin_two.2 ⟨?_, ?_⟩
      · rw [hs0, hw0, e]
        have hn : (n.val : Int) < ((⟨2, ![N, 1]⟩ : Shape).size 0 : Nat) := by
          have : n.val < N := n.isLt
          exact_mod_cast this
        constructor
        · simp
        · simpa using hn
      · rw [hs1, hw1]
        refine ⟨by simp, ?_⟩
        show (0 : Int) + ((0 : Nat) : Int) < ((1 : Nat) : Int)
        simp

/-- THE SCATTER-ADD READ AT `(n, 0)`: the operand's element plus the sum of the updates whose index word, read
    signed, is `n`; an update whose word is negative or at least `N` lands on no element and is dropped. -/
theorem scatterAddCol_apply {N M w : Nat} (wf : ScatterDims.WF ⟨2, ![N, 1]⟩ ⟨2, ![M, 1]⟩ ⟨2, ![M, 1]⟩ [1] [0] [0] 1)
    (x : (⟨2, ![N, 1]⟩ : Shape).Idx → EReal) (idx : IVec ⟨2, ![M, 1]⟩ w) (upd : (⟨2, ![M, 1]⟩ : Shape).Idx → EReal)
    (n : Fin N) :
    Ideal.hostScatterAdd (scatCol N M wf) x idx upd (ix2 n 0)
      = x (ix2 n 0) + ∑ j : Fin M, if (idx (ix2 j 0)).toInt = (n.val : Int) then upd (ix2 j 0) else 0 := by
  unfold Ideal.hostScatterAdd
  congr 1
  rw [Finset.sum_filter, sum_idx2]
  refine Finset.sum_congr rfl fun j _ => ?_
  rw [Fin.sum_univ_one]
  exact if_congr (scatCol_resultIdx_iff wf idx j n) rfl rfl

/-! ## A gather of rows: `x[idx]` for `x : [N, C]`, `idx : [M, 1]` -/

/-- The dimension numbers of a gather of `M` whole rows out of an operand `[N, C]` at the start indices `[M, 1]`:
    the result's axis 1 is the offset axis (the operand's axis 1, slice size `C`), the operand's axis 0 is collapsed
    (slice size 1) and named by the index vector's one component. -/
abbrev gathRows (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(j, c)`: column `c` of the operand's row at the start index `idx[j, 0]`, read signed and
    clamped into `[0, N − 1]`. -/
theorem gatherRows_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M) (c : Fin C) :
    Host.gather (gathRows N C M wf) x idx (ix2 j c)
      = x (ix2 ⟨min (idx (ix2 j 0)).toInt.toNat (N - 1), by omega⟩ c) := by
  unfold Host.gather
  congr 1
  funext a
  revert a
  refine Fin.forall_fin_two.2 ⟨?_, ?_⟩
  · refine Fin.ext ?_
    show (gathRows N C M wf).start (ix2 j c) idx 0 + (gathRows N C M wf).batchCoord (ix2 j c) 0
      + (gathRows N C M wf).offCoord (ix2 j c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gathRows N C M wf).startIndexMap from List.mem_singleton.mpr rfl)]
    have hsi : (gathRows N C M wf).siIdx (ix2 j c) ⟨List.idxOf (0 : Fin 2) (gathRows N C M wf).startIndexMap,
        List.idxOf_lt_length_iff.2 (List.mem_singleton.mpr rfl)⟩ = ix2 j 0 := by
      funext b; refine Fin.ext ?_
      match b with
      | ⟨0, _⟩ => rfl
      | ⟨1, _⟩ => rfl
    rw [hsi]
    rfl
  · refine Fin.ext ?_
    show (gathRows N C M wf).start (ix2 j c) idx 1 + (gathRows N C M wf).batchCoord (ix2 j c) 1
      + (gathRows N C M wf).offCoord (ix2 j c) 1 = c.val
    rw [GatherDims.batchCoord_eq_zero _ _ _ List.not_mem_nil]
    have hst : (gathRows N C M wf).start (ix2 j c) idx 1 = 0 := by
      unfold GatherDims.start
      rw [dif_neg]
      simp
    have hoff : (gathRows N C M wf).offCoord (ix2 j c) 1 = c.val := by
      unfold GatherDims.offCoord
      split
      · rfl
      · next h => exact absurd ((GatherDims.mem_sKept _ _).2 ⟨by simp, List.not_mem_nil⟩) h
    rw [hst, hoff]
    simp

/-! ## Concatenations at an index, and a sum over a concatenated range -/

/-- The extents of two flat pieces laid end to end add up to the whole's. -/
theorem concatFlat_total {A B T : Nat} (h : Shape.Concatenates [⟨1, ![A]⟩, ⟨1, ![B]⟩] ⟨1, ![T]⟩ 0) : A + B = T := by
  have e : A + (B + 0) = T := h.2.2
  omega

/-- A CONCATENATION OF TWO FLAT ARRAYS READ AT `j`: the first piece at `j` below its extent `A`, else the second
    piece at `j − A`. -/
theorem concatFlat_apply {α : Type} (A B T : Nat) (a : (⟨1, ![A]⟩ : Shape).Idx → α) (b : (⟨1, ![B]⟩ : Shape).Idx → α)
    (h : Shape.Concatenates [⟨1, ![A]⟩, ⟨1, ![B]⟩] ⟨1, ![T]⟩ 0) (j : Fin T) :
    concatenate ⟨1, ![T]⟩ 0 [⟨⟨1, ![A]⟩, a⟩, ⟨⟨1, ![B]⟩, b⟩] h (ix1 j)
      = if hj : j.val < A then a (ix1 ⟨j.val, hj⟩)
        else b (ix1 ⟨j.val - A, by have := concatFlat_total h; have := j.isLt; omega⟩) := by
  by_cases hj : j.val < A
  · rw [dif_pos hj]
    refine concatenate_pair_apply_left 0 a b h (ix1 j) rfl (ix1 ⟨j.val, hj⟩) (fun k => ?_)
    obtain rfl : k = 0 := Subsingleton.elim _ _
    rfl
  · rw [dif_neg hj]
    refine concatenate_pair_apply_right 0 a b h (ix1 j) rfl rfl (ix1 ⟨j.val - A, _⟩)
      (fun k hk => absurd (Subsingleton.elim _ _) hk) ?_
    show j.val - A + A = j.val
    omega

/-- A sum over a range of `A + B` terms is the sum over the first `A` plus the sum over the last `B`. -/
theorem sum_fin_append (A B T : Nat) (hT : A + B = T) (f : Fin T → EReal) :
    ∑ j : Fin T, f j = ∑ j : Fin A, f ⟨j.val, by omega⟩ + ∑ n : Fin B, f ⟨A + n.val, by omega⟩ := by
  subst hT
  rw [Fin.sum_univ_add]
  rfl

/-- A CONCATENATION OF TWO ONE-COLUMN ARRAYS SIDE BY SIDE READ AT `(n, c)`: the first piece's row `n` in column 0,
    the second piece's in column 1. -/
theorem concatCols_apply {α : Type} (N : Nat) (a b : (⟨2, ![N, 1]⟩ : Shape).Idx → α)
    (h : Shape.Concatenates [⟨2, ![N, 1]⟩, ⟨2, ![N, 1]⟩] ⟨2, ![N, 2]⟩ 1) (n : Fin N) (c : Fin 2) :
    concatenate ⟨2, ![N, 2]⟩ 1 [⟨⟨2, ![N, 1]⟩, a⟩, ⟨⟨2, ![N, 1]⟩, b⟩] h (ix2 n c)
      = if c.val = 0 then a (ix2 n 0) else b (ix2 n 0) := by
  revert c
  refine Fin.forall_fin_two.2 ⟨?_, ?_⟩
  · rw [if_pos (show ((0 : Fin 2).val = 0) from rfl)]
    exact concatenate_pair_apply_left 1 a b h (ix2 n 0) rfl (ix2 n 0) (Fin.forall_fin_two.2 ⟨rfl, rfl⟩)
  · rw [if_neg (show ¬ ((1 : Fin 2).val = 0) by decide)]
    exact concatenate_pair_apply_right 1 a b h (ix2 n 1) rfl rfl (ix2 n 0)
      (Fin.forall_fin_two.2 ⟨fun _ => rfl, fun hk => absurd rfl hk⟩) rfl

/-! ## The lemmas instantiated at extents of tens of millions -/

/-- A record spelt with the literal lists and its own conditions is, by definition, `scatFlat` at those conditions. -/
example (wf : ScatterDims.WF ⟨1, ![5000000]⟩ ⟨2, ![85000000, 1]⟩ ⟨1, ![85000000]⟩ [] [0] [0] 1) :
    ({ updateWindowDims := [], insertedWindowDims := [0], scatterDimsToOperandDims := [0], indexVectorDim := 1,
       wf := wf } : ScatterDims ⟨1, ![5000000]⟩ ⟨2, ![85000000, 1]⟩ ⟨1, ![85000000]⟩)
      = scatFlat 5000000 85000000 wf := rfl

/-- The scatter-add read at 5 000 000 nodes and 85 000 000 updates. -/
example (wf : ScatterDims.WF ⟨1, ![5000000]⟩ ⟨2, ![85000000, 1]⟩ ⟨1, ![85000000]⟩ [] [0] [0] 1)
    (x : (⟨1, ![5000000]⟩ : Shape).Idx → EReal) (idx : IVec ⟨2, ![85000000, 1]⟩ 32)
    (upd : (⟨1, ![85000000]⟩ : Shape).Idx → EReal) (n : Fin 5000000) :
    Ideal.hostScatterAdd (scatFlat 5000000 85000000 wf) x idx upd (ix1 n)
      = x (ix1 n) + ∑ j : Fin 85000000, if (idx (ix2 j 0)).toInt = (n.val : Int) then upd (ix1 j) else 0 :=
  scatterAddFlat_apply wf x idx upd n

/-- The gather read at 5 000 000 nodes and 85 000 000 start indices. -/
example (wf : GatherDims.WF ⟨1, ![5000000]⟩ ⟨2, ![85000000, 1]⟩ ⟨1, ![85000000]⟩ [] [0] [] [0] [] 1 ![1])
    (x : (⟨1, ![5000000]⟩ : Shape).Idx → EReal) (idx : IVec ⟨2, ![85000000, 1]⟩ 32) (j : Fin 85000000) :
    Host.gather (gathFlat 5000000 85000000 wf) x idx (ix1 j)
      = x (ix1 ⟨min (idx (ix2 j 0)).toInt.toNat (5000000 - 1), by omega⟩) :=
  gatherFlat_apply (by norm_num) wf x idx j

/-- The sum over 85 000 000 terms split at 80 000 000. -/
example (f : Fin 85000000 → EReal) :
    ∑ j : Fin 85000000, f j
      = ∑ j : Fin 80000000, f ⟨j.val, by omega⟩ + ∑ n : Fin 5000000, f ⟨80000000 + n.val, by omega⟩ :=
  sum_fin_append 80000000 5000000 85000000 (by norm_num) f

end Cert.LibIndexOps

end
-- ==== Proof.GcnMsg.lean ====
import proofs.«122878_j84842783965681_2_alg».proof.ReferenceIdeal
import Idealize.ShloMosaic.PureOps.Ideal
import Idealize.ShloMosaic.PureOps.Ideal.Laws
import Idealize.ShloMosaic.Lib.ValueIdx
import Idealize.ShloMosaic.Lib.Pipeline.Value
import proofs.«122878_j84842783965681_2_alg».proof.Proof.LibIndexOps

/-!
# The per-edge message of a dense graph convolution, computed two ways

For node features `feat : [N, C]`, edge attributes `ea : [E, A]`, a weight `W : [C + A, J]`, a bias `b : [J]` and
source rows `idx : [E, 1]`, the message of edge `e` in column `j` is

  `∑ k < C + A, cat (e, k) * W (k, j) + b j`,   `cat (e, k) = feat (row e, k)` for `k < C`, else `ea (e, k − C)`.

The sum splits at `C`. Its first half plus the bias is the node-level product `y (row e, j)`, where
`y (n, j) = ∑ k < C, feat (n, k) * W (k, j) + b j`; its second half is the edge projection
`eas (e, j) = ∑ k < A, ea (e, k) * W (C + k, j)`. So the message is `y (row e, j) + eas (e, j)`: gathering rows of `y`
and adding `eas` gives the same array. Only commutativity and associativity of the addition are used, so the
statement holds over the extended reals with no finiteness condition.
-/

noncomputable section

open scoped BigOperators

namespace Cert.Gcn

open Idealize.ShloMosaic Idealize.ShloMosaic.ValueIdx Cert.LibIndexOps Cert.ReferenceIdeal

/-! ## The law of addition used -/

/-- Moving the bias past the second partial sum: `(s₁ + b) + s₂ = (s₁ + s₂) + b`. -/
theorem add_bias_swap {M : Type*} [AddCommMonoid M] (s₁ s₂ b : M) : (s₁ + b) + s₂ = (s₁ + s₂) + b :=
  add_right_comm s₁ b s₂

/-! ## A matrix product read at an index -/

/-- The dimension numbers of a plain matrix product `[M, T] × [T, J] → [M, J]`: the left operand's axis 1 contracted
    against the right operand's axis 0, no batch axis. -/
abbrev dotMat (M T J : Nat)
    (wf : DotDims.WF ⟨2, ![M, T]⟩ ⟨2, ![T, J]⟩ ⟨2, ![M, J]⟩ [1] [0] [0] [1] [] []) :
    DotDims ⟨2, ![M, T]⟩ ⟨2, ![T, J]⟩ ⟨2, ![M, J]⟩ where
  lhsContracting := [1]
  rhsContracting := [0]
  lhsNonContracting := [0]
  rhsNonContracting := [1]
  lhsBatch := []
  rhsBatch := []
  wf := wf

/-- The left operand's row coordinate is the result's. -/
theorem dotMat_lhs0 {M T J : Nat} (wf : DotDims.WF ⟨2, ![M, T]⟩ ⟨2, ![T, J]⟩ ⟨2, ![M, J]⟩ [1] [0] [0] [1] [] [])
    (i : (⟨2, ![M, J]⟩ : Shape).Idx) (q : (dotMat M T J wf).contr.Idx) :
    ((dotMat M T J wf).lhsIdx i q 0).val = (i 0).val := by
  unfold DotDims.lhsIdx
  rw [dif_neg (show ¬(0 : Fin 2) ∈ (dotMat M T J wf).lhsBatch from List.not_mem_nil),
    dif_pos (show (0 : Fin 2) ∈ (dotMat M T J wf).lhsNonContracting from List.mem_singleton.mpr rfl)]
  rfl

/-- The right operand's column coordinate is the result's. -/
theorem dotMat_rhs1 {M T J : Nat} (wf : DotDims.WF ⟨2, ![M, T]⟩ ⟨2, ![T, J]⟩ ⟨2, ![M, J]⟩ [1] [0] [0] [1] [] [])
    (i : (⟨2, ![M, J]⟩ : Shape).Idx) (q : (dotMat M T J wf).contr.Idx) :
    ((dotMat M T J wf).rhsIdx i q 1).val = (i 1).val := by
  unfold DotDims.rhsIdx
  rw [dif_neg (show ¬(1 : Fin 2) ∈ (dotMat M T J wf).rhsBatch from List.not_mem_nil),
    dif_pos (show (1 : Fin 2) ∈ (dotMat M T J wf).rhsNonContracting from List.mem_singleton.mpr rfl)]
  rfl

/-- THE MATRIX PRODUCT READ AT `(e, j)`: the sum over the contracted coordinate `k` of the left operand at `(e, k)`
    times the right operand at `(k, j)`. -/
theorem dotMat_apply {M T J : Nat} (wf : DotDims.WF ⟨2, ![M, T]⟩ ⟨2, ![T, J]⟩ ⟨2, ![M, J]⟩ [1] [0] [0] [1] [] [])
    (l : FVec Ideal ⟨2, ![M, T]⟩ .f32) (r : FVec Ideal ⟨2, ![T, J]⟩ .f32) (e : Fin M) (j : Fin J) :
    Host.dotGeneral (F := Ideal) (dotMat M T J wf) none l r (ix2 e j) = ∑ k : Fin T, l (ix2 e k) * r (ix2 k j) := by
  simp only [Host.dotGeneral]
  rw [Ideal.dotGeneral_apply, ← Equiv.sum_comp (contrEquiv1 (dotMat M T J wf) T rfl rfl).symm]
  refine Finset.sum_congr rfl fun k _ => ?_
  have hk := contrEquiv1_symm_val (dotMat M T J wf) T rfl rfl k
  have el : (dotMat M T J wf).lhsIdx (ix2 e j) ((contrEquiv1 (dotMat M T J wf) T rfl rfl).symm k) = ix2 e k :=
    funext fun a => Fin.ext (by
      match a with
      | ⟨0, _⟩ => exact dotMat_lhs0 wf _ _
      | ⟨1, _⟩ => exact ((dotMat M T J wf).lhsIdx_val_of_single rfl _ _).trans hk)
  have er : (dotMat M T J wf).rhsIdx (ix2 e j) ((contrEquiv1 (dotMat M T J wf) T rfl rfl).symm k) = ix2 k j :=
    funext fun a => Fin.ext (by
      match a with
      | ⟨0, _⟩ => exact ((dotMat M T J wf).rhsIdx_val_of_single rfl _ _).trans hk
      | ⟨1, _⟩ => exact dotMat_rhs1 wf _ _)
  rw [el, er]

/-! ## A bias broadcast over the rows, read at an index -/

/-- A coordinate of an axis of extent `J` is itself, also when read through the broadcasting rule (an axis of extent 1
    reads coordinate 0, which is then the only coordinate). -/
theorem val_eq_ite_one {J : Nat} (j : Fin J) : j.val = if J = 1 then 0 else j.val := by
  split
  · have := j.isLt; omega
  · rfl

/-- A bias `b : [J]`, laid out as one row `[1, J]` and repeated over `E` rows, reads `b j` at `(e, j)`. -/
theorem biasRows_apply {α : Type} {E J : Nat}
    (h1 : (⟨1, ![J]⟩ : Shape).BroadcastsInDim ⟨2, ![1, J]⟩ (![1] : Fin 1 → Fin 2))
    (h2 : (⟨2, ![1, J]⟩ : Shape).BroadcastsInDim ⟨2, ![E, J]⟩ (![0, 1] : Fin 2 → Fin 2))
    (b : (⟨1, ![J]⟩ : Shape).Idx → α) (e : Fin E) (j : Fin J) :
    broadcastInDim ⟨2, ![E, J]⟩ ![0, 1] h2 (broadcastInDim ⟨2, ![1, J]⟩ ![1] h1 b) (ix2 e j) = b (ix1 j) := by
  refine (broadcastInDim_apply _ h2 _ (ix2 e j) (ix2 (0 : Fin 1) j) ?_).trans
    (broadcastInDim_apply _ h1 b (ix2 (0 : Fin 1) j) (ix1 j) ?_)
  · refine Fin.forall_fin_two.2 ⟨?_, ?_⟩
    · show (0 : Nat) = if (1 : Nat) = 1 then 0 else e.val
      rw [if_pos rfl]
    · exact val_eq_ite_one j
  · intro a
    obtain rfl : a = 0 := Subsingleton.elim _ _
    exact val_eq_ite_one j

/-! ## The message computed two ways, for any sizes -/

/-- THE TWO MESSAGES AGREE. With `y` the node-level product plus bias and `eas` the edge projection, gathering rows
    of `y` and adding `eas` is the product of the concatenated row `[feat (row e, ·), ea (e, ·)]` with `W`, plus
    the bias: the contraction splits at `C`, both sides gather the same clamped row, and the bias moves past the
    second partial sum. -/
theorem msg_eq_general {N C A T J E : Nat} (hN : 0 < N) (hT : C + A = T)
    (gC : GatherDims.WF ⟨2, ![N, C]⟩ ⟨2, ![E, 1]⟩ ⟨2, ![E, C]⟩ [1] [0] [] [0] [] 1 ![1, C])
    (gJ : GatherDims.WF ⟨2, ![N, J]⟩ ⟨2, ![E, 1]⟩ ⟨2, ![E, J]⟩ [1] [0] [] [0] [] 1 ![1, J])
    (dw : DotDims.WF ⟨2, ![E, T]⟩ ⟨2, ![T, J]⟩ ⟨2, ![E, J]⟩ [1] [0] [0] [1] [] [])
    (hc : Shape.Concatenates [⟨2, ![E, C]⟩, ⟨2, ![E, A]⟩] ⟨2, ![E, T]⟩ 1)
    (h1 : (⟨1, ![J]⟩ : Shape).BroadcastsInDim ⟨2, ![1, J]⟩ (![1] : Fin 1 → Fin 2))
    (h2 : (⟨2, ![1, J]⟩ : Shape).BroadcastsInDim ⟨2, ![E, J]⟩ (![0, 1] : Fin 2 → Fin 2))
    (feat : FVec Ideal ⟨2, ![N, C]⟩ .f32) (ea : FVec Ideal ⟨2, ![E, A]⟩ .f32) (W : FVec Ideal ⟨2, ![T, J]⟩ .f32)
    (b : FVec Ideal ⟨1, ![J]⟩ .f32) (idx : IVec ⟨2, ![E, 1]⟩ 32)
    (y : FVec Ideal ⟨2, ![N, J]⟩ .f32) (eas : FVec Ideal ⟨2, ![E, J]⟩ .f32)
    (hy : ∀ (n : Fin N) (j : Fin J),
      y (ix2 n j) = (∑ k : Fin C, feat (ix2 n k) * W (ix2 ⟨k.val, by omega⟩ j)) + b (ix1 j))
    (heas : ∀ (e : Fin E) (j : Fin J),
      eas (ix2 e j) = ∑ k : Fin A, ea (ix2 e k) * W (ix2 ⟨C + k.val, by omega⟩ j)) :
    addf (F := Ideal) (Host.gather (gathRows N J E gJ) y idx) eas
      = addf (F := Ideal) (Host.dotGeneral (F := Ideal) (dotMat E T J dw) none
          (concatenate ⟨2, ![E, T]⟩ 1
            [⟨⟨2, ![E, C]⟩, Host.gather (gathRows N C E gC) feat idx⟩, ⟨⟨2, ![E, A]⟩, ea⟩] hc) W)
          (broadcastInDim ⟨2, ![E, J]⟩ ![0, 1] h2 (broadcastInDim ⟨2, ![1, J]⟩ ![1] h1 b)) := by
  funext i
  obtain ⟨e, j, rfl⟩ : ∃ e j, i = ix2 e j := ⟨i 0, i 1, eq_ix2 i⟩
  -- the concatenated row below `C` is the gathered feature row, from `C` on the edge attributes
  have hL : ∀ k : Fin C,
      concatenate ⟨2, ![E, T]⟩ 1 [⟨⟨2, ![E, C]⟩, Host.gather (gathRows N C E gC) feat idx⟩, ⟨⟨2, ![E, A]⟩, ea⟩] hc
          (ix2 e ⟨k.val, by omega⟩)
        = feat (ix2 ⟨min (idx (ix2 e 0)).toInt.toNat (N - 1), by omega⟩ k) := fun k =>
    (concatenate_pair_apply_left 1 _ ea hc (ix2 e ⟨k.val, by omega⟩) rfl (ix2 e k)
      (Fin.forall_fin_two.2 ⟨rfl, rfl⟩)).trans (gatherRows_apply hN gC feat idx e k)
  have hR : ∀ k : Fin A,
      concatenate ⟨2, ![E, T]⟩ 1 [⟨⟨2, ![E, C]⟩, Host.gather (gathRows N C E gC) feat idx⟩, ⟨⟨2, ![E, A]⟩, ea⟩] hc
          (ix2 e ⟨C + k.val, by omega⟩)
        = ea (ix2 e k) := fun k =>
    concatenate_pair_apply_right 1 _ ea hc (ix2 e ⟨C + k.val, by omega⟩) rfl rfl (ix2 e k)
      (Fin.forall_fin_two.2 ⟨fun _ => rfl, fun hk => absurd rfl hk⟩) (Nat.add_comm k.val C)
  rw [addf_apply, addf_apply, gatherRows_apply hN gJ y idx e j, hy, heas, dotMat_apply dw, biasRows_apply h1 h2 b e j,
    sum_fin_append C A T hT]
  simp only [hL, hR]
  exact add_bias_swap _ _ _

/-! ## The four layers of the reference program

Feature widths 128 (twice), 256 and 384, sixteen edge attributes, 10 000 nodes, 320 000 edges and 128 output columns.
The kernel's side always gathers rows of the 128-column node-level product. -/

variable [Facts₀]

open Facts₀

/-- Feature width 128 (the first two layers): weight `[144, 128]`. -/
theorem msg_eq_128 (feat : FVec Ideal S10000x128 .f32) (ea : FVec Ideal S320000x16 .f32) (W : FVec Ideal S144x128 .f32)
    (b : FVec Ideal S128 .f32) (idx : IVec S320000x1 32) (y : FVec Ideal S10000x128 .f32)
    (eas : FVec Ideal S320000x128 .f32)
    (hy : ∀ (n : Fin 10000) (j : Fin 128),
      y (ix2 n j) = (∑ k : Fin 128, feat (ix2 n k) * W (ix2 ⟨k.val, by omega⟩ j)) + b (ix1 j))
    (heas : ∀ (e : Fin 320000) (j : Fin 128),
      eas (ix2 e j) = ∑ k : Fin 16, ea (ix2 e k) * W (ix2 ⟨128 + k.val, by omega⟩ j)) :
    addf (F := Ideal) (Host.gather gather_S10000x128_S320000x1_S320000x128_1_0_n_n_0_1_1128 y idx) eas
      = addf (F := Ideal) (Host.dotGeneral (F := Ideal) dot_S320000x144_S144x128_S320000x128_1_0_0_1_n_n none
          (concatenate S320000x144 1
            [⟨S320000x128, Host.gather gather_S10000x128_S320000x1_S320000x128_1_0_n_n_0_1_1128 feat idx⟩,
              ⟨S320000x16, ea⟩] concatenates_S320000x128_S320000x16_S320000x144_d1) W)
          (broadcastInDim S320000x128 ![0, 1] bcast_S1x128_S320000x128_0_1
            (broadcastInDim S1x128 ![1] bcast_S128_S1x128_1 b)) :=
  msg_eq_general (N := 10000) (C := 128) (A := 16) (T := 144) (J := 128) (E := 320000) (by norm_num) (by norm_num)
    gather_S10000x128_S320000x1_S320000x128_1_0_n_n_0_1_1128_wf
    gather_S10000x128_S320000x1_S320000x128_1_0_n_n_0_1_1128_wf
    dot_S320000x144_S144x128_S320000x128_1_0_0_1_n_n_wf
    concatenates_S320000x128_S320000x16_S320000x144_d1 bcast_S128_S1x128_1 bcast_S1x128_S320000x128_0_1
    feat ea W b idx y eas hy heas

/-- Feature width 256 (the third layer): weight `[272, 128]`. -/
theorem msg_eq_256 (feat : FVec Ideal S10000x256 .f32) (ea : FVec Ideal S320000x16 .f32) (W : FVec Ideal S272x128 .f32)
    (b : FVec Ideal S128 .f32) (idx : IVec S320000x1 32) (y : FVec Ideal S10000x128 .f32)
    (eas : FVec Ideal S320000x128 .f32)
    (hy : ∀ (n : Fin 10000) (j : Fin 128),
      y (ix2 n j) = (∑ k : Fin 256, feat (ix2 n k) * W (ix2 ⟨k.val, by omega⟩ j)) + b (ix1 j))
    (heas : ∀ (e : Fin 320000) (j : Fin 128),
      eas (ix2 e j) = ∑ k : Fin 16, ea (ix2 e k) * W (ix2 ⟨256 + k.val, by omega⟩ j)) :
    addf (F := Ideal) (Host.gather gather_S10000x128_S320000x1_S320000x128_1_0_n_n_0_1_1128 y idx) eas
      = addf (F := Ideal) (Host.dotGeneral (F := Ideal) dot_S320000x272_S272x128_S320000x128_1_0_0_1_n_n none
          (concatenate S320000x272 1
            [⟨S320000x256, Host.gather gather_S10000x256_S320000x1_S320000x256_1_0_n_n_0_1_1256 feat idx⟩,
              ⟨S320000x16, ea⟩] concatenates_S320000x256_S320000x16_S320000x272_d1) W)
          (broadcastInDim S320000x128 ![0, 1] bcast_S1x128_S320000x128_0_1
            (broadcastInDim S1x128 ![1] bcast_S128_S1x128_1 b)) :=
  msg_eq_general (N := 10000) (C := 256) (A := 16) (T := 272) (J := 128) (E := 320000) (by norm_num) (by norm_num)
    gather_S10000x256_S320000x1_S320000x256_1_0_n_n_0_1_1256_wf
    gather_S10000x128_S320000x1_S320000x128_1_0_n_n_0_1_1128_wf
    dot_S320000x272_S272x128_S320000x128_1_0_0_1_n_n_wf
    concatenates_S320000x256_S320000x16_S320000x272_d1 bcast_S128_S1x128_1 bcast_S1x128_S320000x128_0_1
    feat ea W b idx y eas hy heas

/-- Feature width 384 (the fourth layer): weight `[400, 128]`. -/
theorem msg_eq_384 (feat : FVec Ideal S10000x384 .f32) (ea : FVec Ideal S320000x16 .f32) (W : FVec Ideal S400x128 .f32)
    (b : FVec Ideal S128 .f32) (idx : IVec S320000x1 32) (y : FVec Ideal S10000x128 .f32)
    (eas : FVec Ideal S320000x128 .f32)
    (hy : ∀ (n : Fin 10000) (j : Fin 128),
      y (ix2 n j) = (∑ k : Fin 384, feat (ix2 n k) * W (ix2 ⟨k.val, by omega⟩ j)) + b (ix1 j))
    (heas : ∀ (e : Fin 320000) (j : Fin 128),
      eas (ix2 e j) = ∑ k : Fin 16, ea (ix2 e k) * W (ix2 ⟨384 + k.val, by omega⟩ j)) :
    addf (F := Ideal) (Host.gather gather_S10000x128_S320000x1_S320000x128_1_0_n_n_0_1_1128 y idx) eas
      = addf (F := Ideal) (Host.dotGeneral (F := Ideal) dot_S320000x400_S400x128_S320000x128_1_0_0_1_n_n none
          (concatenate S320000x400 1
            [⟨S320000x384, Host.gather gather_S10000x384_S320000x1_S320000x384_1_0_n_n_0_1_1384 feat idx⟩,
              ⟨S320000x16, ea⟩] concatenates_S320000x384_S320000x16_S320000x400_d1) W)
          (broadcastInDim S320000x128 ![0, 1] bcast_S1x128_S320000x128_0_1
            (broadcastInDim S1x128 ![1] bcast_S128_S1x128_1 b)) :=
  msg_eq_general (N := 10000) (C := 384) (A := 16) (T := 400) (J := 128) (E := 320000) (by norm_num) (by norm_num)
    gather_S10000x384_S320000x1_S320000x384_1_0_n_n_0_1_1384_wf
    gather_S10000x128_S320000x1_S320000x128_1_0_n_n_0_1_1128_wf
    dot_S320000x400_S400x128_S320000x128_1_0_0_1_n_n_wf
    concatenates_S320000x384_S320000x16_S320000x400_d1 bcast_S128_S1x128_1 bcast_S1x128_S320000x128_0_1
    feat ea W b idx y eas hy heas

end Cert.Gcn

end
-- ==== Proof.RefRead.lean ====
/-
  The reference program's result as one function of its eleven arguments, at the extended reals.  The program is four
  graph-convolution layers over the same graph.  Every layer gathers the source node's feature row for each edge, sets
  the edge's sixteen attributes beside it, multiplies by the layer's weight matrix and adds the bias: that is the
  edge's message; the messages are summed into their target nodes and each node's sum is divided by its in-degree
  floored at one.  The first two layers read 128 feature columns (the input features, then the first output); the
  third reads the first two outputs side by side, the fourth the first three.  The functions below name these pieces
  (the edge endpoints, the floored in-degree, the gather's row index, a layer's message and closing step, each layer's
  output), and the program's list of operations, read in five stretches, leaves the fourth layer's output in the result
  buffer.
-/
import proofs.«122878_j84842783965681_2_alg».proof.Proof.Gen.ReferenceIdeal
import proofs.«122878_j84842783965681_2_alg».proof.Proof.RefOps
import proofs.«122878_j84842783965681_2_alg».proof.Proof.GcnMsg
import Idealize.ShloMosaic.Lib.StableHlo.Run
import Idealize.ShloMosaic.PureOps.Ideal

set_option maxRecDepth 16384

noncomputable section

namespace Cert.Gcn.RefRun

open Idealize.ShloMosaic Idealize.ShloMosaic.TcCoe Idealize.SL.Sem Idealize.ShloMosaic.StableHlo
open Cert.ReferenceIdeal Cert.ReferenceIdeal.Gen

/-! ## What every layer shares -/

/-- Each edge's source node: row 0 of the edge index. -/
def srcR (x2 : (⟨S2x320000, .i32⟩ : BufTy).Contents (Elt Ideal)) : (⟨S320000, .i32⟩ : BufTy).Contents (Elt Ideal) :=
  shapeCast S320000 (extractStridedSlice S1x320000 ![0, 0] x2 slices_S2x320000_S1x320000_0_0) shapeCasts_S1x320000_S320000
/-- Each edge's target node: row 1 of the edge index. -/
def dstR (x2 : (⟨S2x320000, .i32⟩ : BufTy).Contents (Elt Ideal)) : (⟨S320000, .i32⟩ : BufTy).Contents (Elt Ideal) :=
  shapeCast S320000 (extractStridedSlice S1x320000 ![1, 0] x2 slices_S2x320000_S1x320000_1_0) shapeCasts_S1x320000_S320000
/-- Each node's in-degree (a one summed into every edge's target), floored at one. -/
def denR (x2 : (⟨S2x320000, .i32⟩ : BufTy).Contents (Elt Ideal)) : (⟨S10000, .f32⟩ : BufTy).Contents (Elt Ideal) :=
  maximumf (F := Ideal)
    (Host.scatterAdd (F := Ideal) scatter_S10000_S320000x1_S320000_n_0_0_1
      (broadcastInDim S10000 ![] bcast_S_S10000 (constant (F := Ideal) S_ .f32 0x00000000#32))
      (broadcastInDim S320000x1 ![0] bcast_S320000_S320000x1_0 (dstR x2))
      (broadcastInDim S320000 ![] bcast_S_S320000 (constant (F := Ideal) S_ .f32 0x3F800000#32)))
    (broadcastInDim S10000 ![] bcast_S_S10000 (constant (F := Ideal) S_ .f32 0x3F800000#32))
/-- The gather's row index per edge: the source node, plus the node count when the word is negative. -/
def idxR (x2 : (⟨S2x320000, .i32⟩ : BufTy).Contents (Elt Ideal)) : (⟨S320000x1, .i32⟩ : BufTy).Contents (Elt Ideal) :=
  broadcastInDim S320000x1 ![0] bcast_S320000_S320000x1_0
    (select (cmpi .slt (srcR x2) (broadcastInDim S320000 ![] bcast_S_S320000 (constantI S_ 32 0#32)))
      (addi (srcR x2) (broadcastInDim S320000 ![] bcast_S_S320000 (constantI S_ 32 10000#32)))
      (srcR x2))
/-- A layer's closing step: the per-edge messages summed into their target nodes, each node's sum divided by its floored
    in-degree. -/
def tailR (x2 : (⟨S2x320000, .i32⟩ : BufTy).Contents (Elt Ideal)) (msg : (⟨S320000x128, .f32⟩ : BufTy).Contents (Elt Ideal)) :
    (⟨S10000x128, .f32⟩ : BufTy).Contents (Elt Ideal) :=
  Host.divf (F := Ideal)
    (Host.scatterAdd (F := Ideal) scatter_S10000x128_S320000x1_S320000x128_1_0_0_1
      (broadcastInDim S10000x128 ![] bcast_S_S10000x128 (constant (F := Ideal) S_ .f32 0x00000000#32))
      (broadcastInDim S320000x1 ![0] bcast_S320000_S320000x1_0 (dstR x2))
      msg)
    (broadcastInDim S10000x128 ![0, 1] bcast_S10000x1_S10000x128_0_1 (broadcastInDim S10000x1 ![0] bcast_S10000_S10000x1_0 (denR x2)))

/-! ## A layer's per-edge message: the gathered feature row beside the edge's attributes, times the weights, plus the bias -/

/-- With 128 feature columns (the first two layers). -/
def msgR128 (feat : FVec Ideal S10000x128 .f32) (ea : FVec Ideal S320000x16 .f32) (W : FVec Ideal S144x128 .f32)
    (b : FVec Ideal S128 .f32) (idx : IVec S320000x1 32) : FVec Ideal S320000x128 .f32 :=
  addf (F := Ideal) (φ := .f32) (Host.dotGeneral (F := Ideal) dot_S320000x144_S144x128_S320000x128_1_0_0_1_n_n none
      (concatenate S320000x144 1
        [⟨S320000x128, Host.gather gather_S10000x128_S320000x1_S320000x128_1_0_n_n_0_1_1128 feat idx⟩,
          ⟨S320000x16, ea⟩] concatenates_S320000x128_S320000x16_S320000x144_d1) W)
    (broadcastInDim S320000x128 ![0, 1] bcast_S1x128_S320000x128_0_1 (broadcastInDim S1x128 ![1] bcast_S128_S1x128_1 b))
/-- With 256 feature columns (the third layer). -/
def msgR256 (feat : FVec Ideal S10000x256 .f32) (ea : FVec Ideal S320000x16 .f32) (W : FVec Ideal S272x128 .f32)
    (b : FVec Ideal S128 .f32) (idx : IVec S320000x1 32) : FVec Ideal S320000x128 .f32 :=
  addf (F := Ideal) (φ := .f32) (Host.dotGeneral (F := Ideal) dot_S320000x272_S272x128_S320000x128_1_0_0_1_n_n none
      (concatenate S320000x272 1
        [⟨S320000x256, Host.gather gather_S10000x256_S320000x1_S320000x256_1_0_n_n_0_1_1256 feat idx⟩,
          ⟨S320000x16, ea⟩] concatenates_S320000x256_S320000x16_S320000x272_d1) W)
    (broadcastInDim S320000x128 ![0, 1] bcast_S1x128_S320000x128_0_1 (broadcastInDim S1x128 ![1] bcast_S128_S1x128_1 b))
/-- With 384 feature columns (the fourth layer). -/
def msgR384 (feat : FVec Ideal S10000x384 .f32) (ea : FVec Ideal S320000x16 .f32) (W : FVec Ideal S400x128 .f32)
    (b : FVec Ideal S128 .f32) (idx : IVec S320000x1 32) : FVec Ideal S320000x128 .f32 :=
  addf (F := Ideal) (φ := .f32) (Host.dotGeneral (F := Ideal) dot_S320000x400_S400x128_S320000x128_1_0_0_1_n_n none
      (concatenate S320000x400 1
        [⟨S320000x384, Host.gather gather_S10000x384_S320000x1_S320000x384_1_0_n_n_0_1_1384 feat idx⟩,
          ⟨S320000x16, ea⟩] concatenates_S320000x384_S320000x16_S320000x400_d1) W)
    (broadcastInDim S320000x128 ![0, 1] bcast_S1x128_S320000x128_0_1 (broadcastInDim S1x128 ![1] bcast_S128_S1x128_1 b))

/-! ## The four layers' outputs and the later layers' inputs -/

section Layers

variable (x0 : (⟨S10000x128, .f32⟩ : BufTy).Contents (Elt Ideal)) (x1 : (⟨S320000x16, .f32⟩ : BufTy).Contents (Elt Ideal))
  (x2 : (⟨S2x320000, .i32⟩ : BufTy).Contents (Elt Ideal))
  (x3 : (⟨S144x128, .f32⟩ : BufTy).Contents (Elt Ideal)) (x4 : (⟨S128, .f32⟩ : BufTy).Contents (Elt Ideal))
  (x5 : (⟨S144x128, .f32⟩ : BufTy).Contents (Elt Ideal)) (x6 : (⟨S128, .f32⟩ : BufTy).Contents (Elt Ideal))
  (x7 : (⟨S272x128, .f32⟩ : BufTy).Contents (Elt Ideal)) (x8 : (⟨S128, .f32⟩ : BufTy).Contents (Elt Ideal))
  (x9 : (⟨S400x128, .f32⟩ : BufTy).Contents (Elt Ideal)) (x10 : (⟨S128, .f32⟩ : BufTy).Contents (Elt Ideal))

/-- The first layer's output, from the input features. -/
def O0R : (⟨S10000x128, .f32⟩ : BufTy).Contents (Elt Ideal) := tailR x2 (msgR128 x0 x1 x3 x4 (idxR x2))
/-- The second layer's output, from the first's. -/
def O1R : (⟨S10000x128, .f32⟩ : BufTy).Contents (Elt Ideal) := tailR x2 (msgR128 (O0R x0 x1 x2 x3 x4) x1 x5 x6 (idxR x2))
/-- The third layer's input: the first two outputs side by side. -/
def F2R : (⟨S10000x256, .f32⟩ : BufTy).Contents (Elt Ideal) :=
  concatenate S10000x256 1 [⟨S10000x128, O0R x0 x1 x2 x3 x4⟩, ⟨S10000x128, O1R x0 x1 x2 x3 x4 x5 x6⟩]
    concatenates_S10000x128_S10000x128_S10000x256_d1
/-- The third layer's output. -/
def O2R : (⟨S10000x128, .f32⟩ : BufTy).Contents (Elt Ideal) :=
  tailR x2 (msgR256 (F2R x0 x1 x2 x3 x4 x5 x6) x1 x7 x8 (idxR x2))
/-- The fourth layer's input: the first three outputs side by side. -/
def F3R : (⟨S10000x384, .f32⟩ : BufTy).Contents (Elt Ideal) :=
  concatenate S10000x384 1 [⟨S10000x128, O0R x0 x1 x2 x3 x4⟩, ⟨S10000x128, O1R x0 x1 x2 x3 x4 x5 x6⟩,
    ⟨S10000x128, O2R x0 x1 x2 x3 x4 x5 x6 x7 x8⟩] concatenates_S10000x128_S10000x128_S10000x128_S10000x384_d1
/-- The fourth layer's output: the program's result. -/
def O3R : (⟨S10000x128, .f32⟩ : BufTy).Contents (Elt Ideal) :=
  tailR x2 (msgR384 (F3R x0 x1 x2 x3 x4 x5 x6 x7 x8) x1 x9 x10 (idxR x2))

end Layers

/-! ## Which buffers each stretch of the program writes

The program's operations are read in five stretches: the edge endpoints and the floored in-degree, then one stretch per
layer.  A buffer that a stretch does not write holds after the stretch what it held before. -/

/-- The buffers the first stretch writes. -/
abbrev wP : List (Ref sig .tc) :=
  [main_v0, main_v1, main_v2, main_v3, main_cst, main_v4, main_cst_0, main_v5, main_v6, main_v7, main_cst_1, main_v8, main_v9]
/-- The buffers the first layer's stretch writes. -/
abbrev wL0 : List (Ref sig .tc) :=
  [main_c, main_v10, main_v11, main_c_2, main_v12, main_v13, main_v14, main_v15, main_v16, main_v17, main_v18, main_v19,
    main_v20, main_v21, main_cst_3, main_v22, main_v23, main_v24, main_v25, main_v26, main_v27]
/-- The buffers the second layer's stretch writes. -/
abbrev wL1 : List (Ref sig .tc) :=
  [main_c_4, main_v28, main_v29, main_c_5, main_v30, main_v31, main_v32, main_v33, main_v34, main_v35, main_v36, main_v37,
    main_v38, main_v39, main_cst_6, main_v40, main_v41, main_v42, main_v43, main_v44, main_v45, main_v46]
/-- The buffers the third layer's stretch writes. -/
abbrev wL2 : List (Ref sig .tc) :=
  [main_c_7, main_v47, main_v48, main_c_8, main_v49, main_v50, main_v51, main_v52, main_v53, main_v54, main_v55, main_v56,
    main_v57, main_v58, main_cst_9, main_v59, main_v60, main_v61, main_v62, main_v63, main_v64, main_v65]

theorem writesP : (opsP (F := Ideal)).Forall fun op => op.writes ⊆ (wP.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)
theorem writesL0 : (opsL0 (F := Ideal)).Forall fun op => op.writes ⊆ (wL0.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)
theorem writesL1 : (opsL1 (F := Ideal)).Forall fun op => op.writes ⊆ (wL1.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)
theorem writesL2 : (opsL2 (F := Ideal)).Forall fun op => op.writes ⊆ (wL2.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

theorem keepP (X : Valuation τ sig (Elt Ideal)) (r : Ref sig .tc) (h : r ∉ wP) :
    after opsP X (Proc.devRef .tc r) = X (Proc.devRef .tc r) := after_of_writes_sub opsP X writesP h
theorem keepL0 (X : Valuation τ sig (Elt Ideal)) (r : Ref sig .tc) (h : r ∉ wL0) :
    after opsL0 X (Proc.devRef .tc r) = X (Proc.devRef .tc r) := after_of_writes_sub opsL0 X writesL0 h
theorem keepL1 (X : Valuation τ sig (Elt Ideal)) (r : Ref sig .tc) (h : r ∉ wL1) :
    after opsL1 X (Proc.devRef .tc r) = X (Proc.devRef .tc r) := after_of_writes_sub opsL1 X writesL1 h
theorem keepL2 (X : Valuation τ sig (Elt Ideal)) (r : Ref sig .tc) (h : r ∉ wL2) :
    after opsL2 X (Proc.devRef .tc r) = X (Proc.devRef .tc r) := after_of_writes_sub opsL2 X writesL2 h

/-! ## What each stretch writes, from what it reads -/

/-- Reads the operations still standing one at a time: after an operation its own buffer holds its function of what it
    read, and every other buffer what it held before. -/
local macro "one_at_a_time" : tactic =>
  `(tactic| repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide)))

section Stretches

variable (X : Valuation τ sig (Elt Ideal)) (x2 : (⟨S2x320000, .i32⟩ : BufTy).Contents (Elt Ideal))

/-- The first stretch leaves the source endpoints, -/
theorem P_v1 : after opsP X (Proc.devRef .tc main_v1) = srcR (X (Proc.devRef .tc main_arg2)) := by
  after_results_simp
  rfl
/-- the target endpoints, -/
theorem P_v3 : after opsP X (Proc.devRef .tc main_v3) = dstR (X (Proc.devRef .tc main_arg2)) := by
  after_results_simp
  rfl
/-- and the floored in-degree. -/
theorem P_v9 : after opsP X (Proc.devRef .tc main_v9) = denR (X (Proc.devRef .tc main_arg2)) := by
  after_results_simp
  rfl

set_option maxHeartbeats 4000000 in
/-- The first layer's stretch, entered with the endpoints and the in-degree in place, leaves the first layer's output
    of the features, attributes, weights and bias it finds. -/
theorem L0_v27 (h1 : X (Proc.devRef .tc main_v1) = srcR x2) (h3 : X (Proc.devRef .tc main_v3) = dstR x2)
    (h9 : X (Proc.devRef .tc main_v9) = denR x2) :
    after opsL0 X (Proc.devRef .tc main_v27)
      = O0R (X (Proc.devRef .tc main_arg0)) (X (Proc.devRef .tc main_arg1)) x2 (X (Proc.devRef .tc main_arg3))
          (X (Proc.devRef .tc main_arg4)) := by
  after_results_simp
  one_at_a_time
  rw [h1, h3, h9]
  rfl

set_option maxHeartbeats 4000000 in
/-- The second layer's stretch leaves that layer's output of the first output it finds, -/
theorem L1_v45 (h1 : X (Proc.devRef .tc main_v1) = srcR x2) (h3 : X (Proc.devRef .tc main_v3) = dstR x2)
    (h9 : X (Proc.devRef .tc main_v9) = denR x2) :
    after opsL1 X (Proc.devRef .tc main_v45)
      = tailR x2 (msgR128 (X (Proc.devRef .tc main_v27)) (X (Proc.devRef .tc main_arg1)) (X (Proc.devRef .tc main_arg5))
          (X (Proc.devRef .tc main_arg6)) (idxR x2)) := by
  after_results_simp
  one_at_a_time
  rw [h1, h3, h9]
  rfl

set_option maxHeartbeats 4000000 in
/-- and the two outputs side by side. -/
theorem L1_v46 (h1 : X (Proc.devRef .tc main_v1) = srcR x2) (h3 : X (Proc.devRef .tc main_v3) = dstR x2)
    (h9 : X (Proc.devRef .tc main_v9) = denR x2) :
    after opsL1 X (Proc.devRef .tc main_v46)
      = concatenate S10000x256 1 [⟨S10000x128, X (Proc.devRef .tc main_v27)⟩,
          ⟨S10000x128, tailR x2 (msgR128 (X (Proc.devRef .tc main_v27)) (X (Proc.devRef .tc main_arg1))
            (X (Proc.devRef .tc main_arg5)) (X (Proc.devRef .tc main_arg6)) (idxR x2))⟩]
          concatenates_S10000x128_S10000x128_S10000x256_d1 := by
  after_results_simp
  one_at_a_time
  rw [h1, h3, h9]
  rfl

set_option maxHeartbeats 4000000 in
/-- The third layer's stretch leaves that layer's output of the 256-column input it finds, -/
theorem L2_v64 (h1 : X (Proc.devRef .tc main_v1) = srcR x2) (h3 : X (Proc.devRef .tc main_v3) = dstR x2)
    (h9 : X (Proc.devRef .tc main_v9) = denR x2) :
    after opsL2 X (Proc.devRef .tc main_v64)
      = tailR x2 (msgR256 (X (Proc.devRef .tc main_v46)) (X (Proc.devRef .tc main_arg1)) (X (Proc.devRef .tc main_arg7))
          (X (Proc.devRef .tc main_arg8)) (idxR x2)) := by
  after_results_simp
  one_at_a_time
  rw [h1, h3, h9]
  rfl

set_option maxHeartbeats 4000000 in
/-- and the three outputs side by side. -/
theorem L2_v65 (h1 : X (Proc.devRef .tc main_v1) = srcR x2) (h3 : X (Proc.devRef .tc main_v3) = dstR x2)
    (h9 : X (Proc.devRef .tc main_v9) = denR x2) :
    after opsL2 X (Proc.devRef .tc main_v65)
      = concatenate S10000x384 1 [⟨S10000x128, X (Proc.devRef .tc main_v27)⟩, ⟨S10000x128, X (Proc.devRef .tc main_v45)⟩,
          ⟨S10000x128, tailR x2 (msgR256 (X (Proc.devRef .tc main_v46)) (X (Proc.devRef .tc main_arg1))
            (X (Proc.devRef .tc main_arg7)) (X (Proc.devRef .tc main_arg8)) (idxR x2))⟩]
          concatenates_S10000x128_S10000x128_S10000x128_S10000x384_d1 := by
  after_results_simp
  dsimp only [Matrix.cons_val]
  one_at_a_time
  rw [h1, h3, h9]
  rfl

set_option maxHeartbeats 4000000 in
/-- The fourth layer's stretch leaves that layer's output of the 384-column input it finds. -/
theorem L3_v83 (h1 : X (Proc.devRef .tc main_v1) = srcR x2) (h3 : X (Proc.devRef .tc main_v3) = dstR x2)
    (h9 : X (Proc.devRef .tc main_v9) = denR x2) :
    after opsL3 X (Proc.devRef .tc main_v83)
      = tailR x2 (msgR384 (X (Proc.devRef .tc main_v65)) (X (Proc.devRef .tc main_arg1)) (X (Proc.devRef .tc main_arg9))
          (X (Proc.devRef .tc main_arg10)) (idxR x2)) := by
  after_results_simp
  one_at_a_time
  rw [h1, h3, h9]
  rfl

end Stretches

/-! ## The stretches in order -/

section InOrder

variable (V : Valuation τ sig (Elt Ideal))

/-- The buffers after the first stretch, after the first layer's, the second's, the third's. -/
abbrev S1 : Valuation τ sig (Elt Ideal) := after opsP V
abbrev S2 : Valuation τ sig (Elt Ideal) := after opsL0 (S1 V)
abbrev S3 : Valuation τ sig (Elt Ideal) := after opsL1 (S2 V)
abbrev S4 : Valuation τ sig (Elt Ideal) := after opsL2 (S3 V)

/-- A buffer no stretch before the fourth layer's writes — every argument — holds its first contents throughout. -/
theorem S_arg (r : Ref sig .tc) (hP : r ∉ wP) (h0 : r ∉ wL0) (h1 : r ∉ wL1) (h2 : r ∉ wL2) :
    S1 V (Proc.devRef .tc r) = V (Proc.devRef .tc r) ∧ S2 V (Proc.devRef .tc r) = V (Proc.devRef .tc r)
    ∧ S3 V (Proc.devRef .tc r) = V (Proc.devRef .tc r) ∧ S4 V (Proc.devRef .tc r) = V (Proc.devRef .tc r) := by
  have e1 : S1 V (Proc.devRef .tc r) = V (Proc.devRef .tc r) := keepP V r hP
  have e2 : S2 V (Proc.devRef .tc r) = V (Proc.devRef .tc r) := (keepL0 (S1 V) r h0).trans e1
  have e3 : S3 V (Proc.devRef .tc r) = V (Proc.devRef .tc r) := (keepL1 (S2 V) r h1).trans e2
  have e4 : S4 V (Proc.devRef .tc r) = V (Proc.devRef .tc r) := (keepL2 (S3 V) r h2).trans e3
  exact ⟨e1, e2, e3, e4⟩

/-- The source endpoints stay where the first stretch put them, -/
theorem S_v1 : S1 V (Proc.devRef .tc main_v1) = srcR (V (Proc.devRef .tc main_arg2))
    ∧ S2 V (Proc.devRef .tc main_v1) = srcR (V (Proc.devRef .tc main_arg2))
    ∧ S3 V (Proc.devRef .tc main_v1) = srcR (V (Proc.devRef .tc main_arg2))
    ∧ S4 V (Proc.devRef .tc main_v1) = srcR (V (Proc.devRef .tc main_arg2)) := by
  have e1 := P_v1 V
  have e2 := (keepL0 (S1 V) main_v1 (by decide)).trans e1
  have e3 := (keepL1 (S2 V) main_v1 (by decide)).trans e2
  have e4 := (keepL2 (S3 V) main_v1 (by decide)).trans e3
  exact ⟨e1, e2, e3, e4⟩
/-- the target endpoints too, -/
theorem S_v3 : S1 V (Proc.devRef .tc main_v3) = dstR (V (Proc.devRef .tc main_arg2))
    ∧ S2 V (Proc.devRef .tc main_v3) = dstR (V (Proc.devRef .tc main_arg2))
    ∧ S3 V (Proc.devRef .tc main_v3) = dstR (V (Proc.devRef .tc main_arg2))
    ∧ S4 V (Proc.devRef .tc main_v3) = dstR (V (Proc.devRef .tc main_arg2)) := by
  have e1 := P_v3 V
  have e2 := (keepL0 (S1 V) main_v3 (by decide)).trans e1
  have e3 := (keepL1 (S2 V) main_v3 (by decide)).trans e2
  have e4 := (keepL2 (S3 V) main_v3 (by decide)).trans e3
  exact ⟨e1, e2, e3, e4⟩
/-- and the floored in-degree. -/
theorem S_v9 : S1 V (Proc.devRef .tc main_v9) = denR (V (Proc.devRef .tc main_arg2))
    ∧ S2 V (Proc.devRef .tc main_v9) = denR (V (Proc.devRef .tc main_arg2))
    ∧ S3 V (Proc.devRef .tc main_v9) = denR (V (Proc.devRef .tc main_arg2))
    ∧ S4 V (Proc.devRef .tc main_v9) = denR (V (Proc.devRef .tc main_arg2)) := by
  have e1 := P_v9 V
  have e2 := (keepL0 (S1 V) main_v9 (by decide)).trans e1
  have e3 := (keepL1 (S2 V) main_v9 (by decide)).trans e2
  have e4 := (keepL2 (S3 V) main_v9 (by decide)).trans e3
  exact ⟨e1, e2, e3, e4⟩

/-- After the first layer's stretch its buffer holds the first layer's output of the arguments, -/
theorem S2_v27 : S2 V (Proc.devRef .tc main_v27)
    = O0R (V (Proc.devRef .tc main_arg0)) (V (Proc.devRef .tc main_arg1)) (V (Proc.devRef .tc main_arg2))
        (V (Proc.devRef .tc main_arg3)) (V (Proc.devRef .tc main_arg4)) := by
  refine (L0_v27 (S1 V) (V (Proc.devRef .tc main_arg2)) (S_v1 V).1 (S_v3 V).1 (S_v9 V).1).trans ?_
  rw [(S_arg V main_arg0 (by decide) (by decide) (by decide) (by decide)).1,
    (S_arg V main_arg1 (by decide) (by decide) (by decide) (by decide)).1,
    (S_arg V main_arg3 (by decide) (by decide) (by decide) (by decide)).1,
    (S_arg V main_arg4 (by decide) (by decide) (by decide) (by decide)).1]
/-- and still does after the second layer's. -/
theorem S3_v27 : S3 V (Proc.devRef .tc main_v27)
    = O0R (V (Proc.devRef .tc main_arg0)) (V (Proc.devRef .tc main_arg1)) (V (Proc.devRef .tc main_arg2))
        (V (Proc.devRef .tc main_arg3)) (V (Proc.devRef .tc main_arg4)) :=
  (keepL1 (S2 V) main_v27 (by decide)).trans (S2_v27 V)

/-- After the second layer's stretch: the second output, -/
theorem S3_v45 : S3 V (Proc.devRef .tc main_v45)
    = O1R (V (Proc.devRef .tc main_arg0)) (V (Proc.devRef .tc main_arg1)) (V (Proc.devRef .tc main_arg2))
        (V (Proc.devRef .tc main_arg3)) (V (Proc.devRef .tc main_arg4)) (V (Proc.devRef .tc main_arg5))
        (V (Proc.devRef .tc main_arg6)) := by
  refine (L1_v45 (S2 V) (V (Proc.devRef .tc main_arg2)) (S_v1 V).2.1 (S_v3 V).2.1 (S_v9 V).2.1).trans ?_
  rw [S2_v27 V, (S_arg V main_arg1 (by decide) (by decide) (by decide) (by decide)).2.1,
    (S_arg V main_arg5 (by decide) (by decide) (by decide) (by decide)).2.1,
    (S_arg V main_arg6 (by decide) (by decide) (by decide) (by decide)).2.1]
  rfl
/-- and the third layer's input. -/
theorem S3_v46 : S3 V (Proc.devRef .tc main_v46)
    = F2R (V (Proc.devRef .tc main_arg0)) (V (Proc.devRef .tc main_arg1)) (V (Proc.devRef .tc main_arg2))
        (V (Proc.devRef .tc main_arg3)) (V (Proc.devRef .tc main_arg4)) (V (Proc.devRef .tc main_arg5))
        (V (Proc.devRef .tc main_arg6)) := by
  refine (L1_v46 (S2 V) (V (Proc.devRef .tc main_arg2)) (S_v1 V).2.1 (S_v3 V).2.1 (S_v9 V).2.1).trans ?_
  rw [S2_v27 V, (S_arg V main_arg1 (by decide) (by decide) (by decide) (by decide)).2.1,
    (S_arg V main_arg5 (by decide) (by decide) (by decide) (by decide)).2.1,
    (S_arg V main_arg6 (by decide) (by decide) (by decide) (by decide)).2.1]
  rfl

/-- After the third layer's stretch: the fourth layer's input. -/
theorem S4_v65 : S4 V (Proc.devRef .tc main_v65)
    = F3R (V (Proc.devRef .tc main_arg0)) (V (Proc.devRef .tc main_arg1)) (V (Proc.devRef .tc main_arg2))
        (V (Proc.devRef .tc main_arg3)) (V (Proc.devRef .tc main_arg4)) (V (Proc.devRef .tc main_arg5))
        (V (Proc.devRef .tc main_arg6)) (V (Proc.devRef .tc main_arg7)) (V (Proc.devRef .tc main_arg8)) := by
  refine (L2_v65 (S3 V) (V (Proc.devRef .tc main_arg2)) (S_v1 V).2.2.1 (S_v3 V).2.2.1 (S_v9 V).2.2.1).trans ?_
  rw [S3_v27 V, S3_v45 V, S3_v46 V, (S_arg V main_arg1 (by decide) (by decide) (by decide) (by decide)).2.2.1,
    (S_arg V main_arg7 (by decide) (by decide) (by decide) (by decide)).2.2.1,
    (S_arg V main_arg8 (by decide) (by decide) (by decide) (by decide)).2.2.1]
  rfl

/-- THE READING.  After all the program's operations the result buffer holds the fourth layer's output of the eleven
    arguments' first contents. -/
theorem result : after ops V (Proc.devRef .tc main_v83)
    = O3R (V (Proc.devRef .tc main_arg0)) (V (Proc.devRef .tc main_arg1)) (V (Proc.devRef .tc main_arg2))
        (V (Proc.devRef .tc main_arg3)) (V (Proc.devRef .tc main_arg4)) (V (Proc.devRef .tc main_arg5))
        (V (Proc.devRef .tc main_arg6)) (V (Proc.devRef .tc main_arg7)) (V (Proc.devRef .tc main_arg8))
        (V (Proc.devRef .tc main_arg9)) (V (Proc.devRef .tc main_arg10)) := by
  show after (opsP ++ opsL0 ++ opsL1 ++ opsL2 ++ opsL3) V (Proc.devRef .tc main_v83) = _
  rw [after_append, after_append, after_append, after_append]
  refine (L3_v83 (S4 V) (V (Proc.devRef .tc main_arg2)) (S_v1 V).2.2.2 (S_v3 V).2.2.2 (S_v9 V).2.2.2).trans ?_
  rw [S4_v65 V, (S_arg V main_arg1 (by decide) (by decide) (by decide) (by decide)).2.2.2,
    (S_arg V main_arg9 (by decide) (by decide) (by decide) (by decide)).2.2.2,
    (S_arg V main_arg10 (by decide) (by decide) (by decide) (by decide)).2.2.2]
  rfl

end InOrder

end Cert.Gcn.RefRun

end
-- ==== Proof.RefRunHand.lean ====
import proofs.«122878_j84842783965681_2_alg».proof.Proof.RefOps
import proofs.«122878_j84842783965681_2_alg».proof.Proof.RefArgs
import proofs.«122878_j84842783965681_2_alg».proof.Proof.RefRead

/-!
# The reference program's run

Every weakly fair execution of the reference's @main terminates; at the end the result buffer holds the fourth
layer's output as a function of the eleven arguments' launch contents (`O3R`: the four layers composed, each the
common ending applied to the concatenated-row message), and the eleven arguments hold what they held at launch.
It is the fold of the 99 operations over the launch contents (`run_raw`), read at the result buffer (`result`) and
at each argument, which no operation writes (`arg_0` … `arg_10`).
-/

noncomputable section

namespace Cert.Gcn.RefRun

open Cert.ReferenceIdeal Cert.ReferenceIdeal.Gen Idealize.ShloMosaic Idealize.ShloMosaic.TcCoe Idealize.SL.Sem Idealize.ShloMosaic.StableHlo

/-- On every device, at the ideal floats, from any memory with zero counters: every weakly fair execution of @main
    terminates with the result at the four composed layers of the arguments' launch contents and the arguments
    unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v83)
          = O3R (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8)) (m ((c.tc : Thread nD τ).loc main_arg9))
              (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
      ⟨(h c main_v83).trans (result (StableHlo.launchContents m c)),
        (h c main_arg0).trans (arg_0 (StableHlo.launchContents m c)),
        (h c main_arg1).trans (arg_1 (StableHlo.launchContents m c)),
        (h c main_arg2).trans (arg_2 (StableHlo.launchContents m c)),
        (h c main_arg3).trans (arg_3 (StableHlo.launchContents m c)),
        (h c main_arg4).trans (arg_4 (StableHlo.launchContents m c)),
        (h c main_arg5).trans (arg_5 (StableHlo.launchContents m c)),
        (h c main_arg6).trans (arg_6 (StableHlo.launchContents m c)),
        (h c main_arg7).trans (arg_7 (StableHlo.launchContents m c)),
        (h c main_arg8).trans (arg_8 (StableHlo.launchContents m c)),
        (h c main_arg9).trans (arg_9 (StableHlo.launchContents m c)),
        (h c main_arg10).trans (arg_10 (StableHlo.launchContents m c))⟩)
    (run_raw m ρ)

end Cert.Gcn.RefRun

end
-- ==== Proof.Frames.lean ====
/-
  The three frame claims.  For the kernel's program, as printed and idealized, the run of @main's eleven segments ends
  with every unscoped buffer at the last boundary's contents; an argument array is written by no stretch of host
  operations and is no region's output, so at the last boundary it still holds its launch contents.  The reference is
  a straight line of host operations, whose run leaves the arguments unchanged.
-/
import proofs.«122878_j84842783965681_2_alg».proof.Defs
import proofs.«122878_j84842783965681_2_alg».proof.Proof.KRun
import proofs.«122878_j84842783965681_2_alg».proof.Proof.KIRun
import proofs.«122878_j84842783965681_2_alg».proof.Proof.RefRunHand
import proofs.«122878_j84842783965681_2_alg».proof.Proof.Gen.Pre_finite_inputs

set_option maxRecDepth 16384

noncomputable section

open Idealize.ShloMosaic Idealize.ShloMosaic.TcCoe Idealize.SL.Sem

namespace Cert.Proof.Frames

/-- In the program as printed: a reference that no stretch of host operations writes and that is no region's output
    ends, in any memory that holds the last boundary's contents, at its launch contents. -/
theorem kept_p (m : (ℓ : Loc Cert.Kernel.nD Cert.Kernel.τ Cert.Kernel.sig) → Buf (Elt Bits) ℓ) (c : Dev Cert.Kernel.nD)
    (mem : (ℓ : Loc Cert.Kernel.nD Cert.Kernel.τ Cert.Kernel.sig) → Buf (Elt Bits) ℓ)
    (h : ∀ b ∈ Pipeline.ucRefs Cert.Kernel.τ Cert.Kernel.sig, mem (((c : Thread Cert.Kernel.nD Cert.Kernel.τ)).1, b) = Cert.Kernel.Fr.W11 m c b)
    (r : Ref Cert.Kernel.sig .tc) (hu : ¬ (Proc.devRef .tc r : DevRef Cert.Kernel.τ Cert.Kernel.sig).isScoped)
    (hw : r ∉ Cert.Kernel.Gen.hostOps0_W ∧ r ∉ Cert.Kernel.Gen.hostOps1_W ∧ r ∉ Cert.Kernel.Gen.hostOps2_W ∧ r ∉ Cert.Kernel.Gen.hostOps3_W
      ∧ r ∉ Cert.Kernel.Gen.hostOps4_W ∧ r ∉ Cert.Kernel.Gen.hostOps5_W ∧ r ≠ Cert.Kernel.main_v15 ∧ r ≠ Cert.Kernel.main_v19
      ∧ r ≠ Cert.Kernel.main_v37 ∧ r ≠ Cert.Kernel.main_v56 ∧ r ≠ Cert.Kernel.main_v75) :
    mem ((c.tc : Thread Cert.Kernel.nD Cert.Kernel.τ).loc r) = m ((c.tc : Thread Cert.Kernel.nD Cert.Kernel.τ).loc r) :=
  (h _ (Cert.Kernel.Fr.mem_uc r hu)).trans
    (Cert.Kernel.Fr.W11_arg m c r hw.1 hw.2.1 hw.2.2.1 hw.2.2.2.1 hw.2.2.2.2.1 hw.2.2.2.2.2.1 hw.2.2.2.2.2.2.1 hw.2.2.2.2.2.2.2.1
      hw.2.2.2.2.2.2.2.2.1 hw.2.2.2.2.2.2.2.2.2.1 hw.2.2.2.2.2.2.2.2.2.2)

/-- The same in the idealized program. -/
theorem kept_pi (m : (ℓ : Loc Cert.KernelIdeal.nD Cert.KernelIdeal.τ Cert.KernelIdeal.sig) → Buf (Elt Ideal) ℓ) (c : Dev Cert.KernelIdeal.nD)
    (mem : (ℓ : Loc Cert.KernelIdeal.nD Cert.KernelIdeal.τ Cert.KernelIdeal.sig) → Buf (Elt Ideal) ℓ)
    (h : ∀ b ∈ Pipeline.ucRefs Cert.KernelIdeal.τ Cert.KernelIdeal.sig, mem (((c : Thread Cert.KernelIdeal.nD Cert.KernelIdeal.τ)).1, b) = Cert.KernelIdeal.Fr.W11 m c b)
    (r : Ref Cert.KernelIdeal.sig .tc) (hu : ¬ (Proc.devRef .tc r : DevRef Cert.KernelIdeal.τ Cert.KernelIdeal.sig).isScoped)
    (hw : r ∉ Cert.KernelIdeal.Gen.hostOps0_W ∧ r ∉ Cert.KernelIdeal.Gen.hostOps1_W ∧ r ∉ Cert.KernelIdeal.Gen.hostOps2_W ∧ r ∉ Cert.KernelIdeal.Gen.hostOps3_W
      ∧ r ∉ Cert.KernelIdeal.Gen.hostOps4_W ∧ r ∉ Cert.KernelIdeal.Gen.hostOps5_W ∧ r ≠ Cert.KernelIdeal.main_v15 ∧ r ≠ Cert.KernelIdeal.main_v19
      ∧ r ≠ Cert.KernelIdeal.main_v37 ∧ r ≠ Cert.KernelIdeal.main_v56 ∧ r ≠ Cert.KernelIdeal.main_v75) :
    mem ((c.tc : Thread Cert.KernelIdeal.nD Cert.KernelIdeal.τ).loc r) = m ((c.tc : Thread Cert.KernelIdeal.nD Cert.KernelIdeal.τ).loc r) :=
  (h _ (Cert.KernelIdeal.Fr.mem_uc r hu)).trans
    (Cert.KernelIdeal.Fr.W11_arg m c r hw.1 hw.2.1 hw.2.2.1 hw.2.2.2.1 hw.2.2.2.2.1 hw.2.2.2.2.2.1 hw.2.2.2.2.2.2.1 hw.2.2.2.2.2.2.2.1
      hw.2.2.2.2.2.2.2.2.1 hw.2.2.2.2.2.2.2.2.2.1 hw.2.2.2.2.2.2.2.2.2.2)

/-- The program as printed runs and leaves its eleven argument arrays as launched. -/
theorem frame_p : Cert.frame_Kernel := fun m ρ _ =>
  (θ_run Cert.Kernel.defs _ _).mono (fun r h c => ⟨
    kept_p m c r.2.mem (h c) Cert.Kernel.main_arg0 (by decide) (by decide),
    kept_p m c r.2.mem (h c) Cert.Kernel.main_arg1 (by decide) (by decide),
    kept_p m c r.2.mem (h c) Cert.Kernel.main_arg2 (by decide) (by decide),
    kept_p m c r.2.mem (h c) Cert.Kernel.main_arg3 (by decide) (by decide),
    kept_p m c r.2.mem (h c) Cert.Kernel.main_arg4 (by decide) (by decide),
    kept_p m c r.2.mem (h c) Cert.Kernel.main_arg5 (by decide) (by decide),
    kept_p m c r.2.mem (h c) Cert.Kernel.main_arg6 (by decide) (by decide),
    kept_p m c r.2.mem (h c) Cert.Kernel.main_arg7 (by decide) (by decide),
    kept_p m c r.2.mem (h c) Cert.Kernel.main_arg8 (by decide) (by decide),
    kept_p m c r.2.mem (h c) Cert.Kernel.main_arg9 (by decide) (by decide),
    kept_p m c r.2.mem (h c) Cert.Kernel.main_arg10 (by decide) (by decide)⟩)
    (Cert.Kernel.Fr.run_all (F := Bits) m ρ)

/-- The idealized program runs and leaves its eleven argument arrays as launched. -/
theorem frame_pi : Cert.frame_KernelIdeal := fun m ρ _ =>
  (θ_run Cert.KernelIdeal.defs _ _).mono (fun r h c => ⟨
    kept_pi m c r.2.mem (h c) Cert.KernelIdeal.main_arg0 (by decide) (by decide),
    kept_pi m c r.2.mem (h c) Cert.KernelIdeal.main_arg1 (by decide) (by decide),
    kept_pi m c r.2.mem (h c) Cert.KernelIdeal.main_arg2 (by decide) (by decide),
    kept_pi m c r.2.mem (h c) Cert.KernelIdeal.main_arg3 (by decide) (by decide),
    kept_pi m c r.2.mem (h c) Cert.KernelIdeal.main_arg4 (by decide) (by decide),
    kept_pi m c r.2.mem (h c) Cert.KernelIdeal.main_arg5 (by decide) (by decide),
    kept_pi m c r.2.mem (h c) Cert.KernelIdeal.main_arg6 (by decide) (by decide),
    kept_pi m c r.2.mem (h c) Cert.KernelIdeal.main_arg7 (by decide) (by decide),
    kept_pi m c r.2.mem (h c) Cert.KernelIdeal.main_arg8 (by decide) (by decide),
    kept_pi m c r.2.mem (h c) Cert.KernelIdeal.main_arg9 (by decide) (by decide),
    kept_pi m c r.2.mem (h c) Cert.KernelIdeal.main_arg10 (by decide) (by decide)⟩)
    (Cert.KernelIdeal.Fr.run_all (F := Ideal) m ρ)

/-- The reference runs and leaves its arguments as launched: its run, the result dropped. -/
theorem frame_ri : Cert.frame_ReferenceIdeal := fun m ρ _ =>
  (θ_run Cert.ReferenceIdeal.defs _ _).mono (fun _ h c => (h c).2) (Cert.Gcn.RefRun.run m ρ)

end Cert.Proof.Frames

end
-- ==== Proof.KIStart.lean ====
/-
  The idealized program's values, read off the boundary contents of its run, at the extended reals.  This module
  names what every layer shares — the source and target endpoint of each edge (the two rows of the edge index), each
  node's in-degree floored at one, the gather's row index (an endpoint, wrapped by the node count when negative), and a
  layer's closing step: the messages summed into their target nodes and divided by the floored in-degree — and reads
  the first stretch of host operations: the endpoints, the floored in-degree, and the four edge-weight slices (the last
  sixteen rows of each layer's weight matrix) laid side by side.
-/
import proofs.«122878_j84842783965681_2_alg».proof.Proof.KIRun
import Idealize.ShloMosaic.PureOps.Ideal
import Idealize.ShloMosaic.Lib.StableHlo.Run
import Idealize.ShloMosaic.Lib.ValueIdx

set_option maxRecDepth 16384

noncomputable section

namespace Cert.KernelIdeal.Bridge

open Idealize.ShloMosaic Idealize.ShloMosaic.TcCoe Idealize.SL.Sem Idealize.ShloMosaic.ValueIdx
open Cert.KernelIdeal Cert.KernelIdeal.Gen Cert.KernelIdeal.Fr

/-! ## What every layer shares -/

/-- Each edge's source node: row 0 of the edge index. -/
def srcK (x2 : (⟨S2x320000, .i32⟩ : BufTy).Contents (Elt Ideal)) : (⟨S320000, .i32⟩ : BufTy).Contents (Elt Ideal) :=
  shapeCast S320000 (extractStridedSlice S1x320000 ![0, 0] x2 slices_S2x320000_S1x320000_0_0) shapeCasts_S1x320000_S320000
/-- Each edge's target node: row 1 of the edge index. -/
def dstK (x2 : (⟨S2x320000, .i32⟩ : BufTy).Contents (Elt Ideal)) : (⟨S320000, .i32⟩ : BufTy).Contents (Elt Ideal) :=
  shapeCast S320000 (extractStridedSlice S1x320000 ![1, 0] x2 slices_S2x320000_S1x320000_1_0) shapeCasts_S1x320000_S320000
/-- Each node's in-degree (a one summed into every edge's target), floored at one. -/
def denK (x2 : (⟨S2x320000, .i32⟩ : BufTy).Contents (Elt Ideal)) : (⟨S10000, .f32⟩ : BufTy).Contents (Elt Ideal) :=
  maximumf (F := Ideal)
    (Host.scatterAdd (F := Ideal) scatter_S10000_S320000x1_S320000_n_0_0_1
      (broadcastInDim S10000 ![] bcast_S_S10000 (constant (F := Ideal) S_ .f32 0x00000000#32))
      (broadcastInDim S320000x1 ![0] bcast_S320000_S320000x1_0 (dstK x2))
      (broadcastInDim S320000 ![] bcast_S_S320000 (constant (F := Ideal) S_ .f32 0x3F800000#32)))
    (broadcastInDim S10000 ![] bcast_S_S10000 (constant (F := Ideal) S_ .f32 0x3F800000#32))
/-- The gather's row index per edge: the source node, plus the node count when the word is negative. -/
def idxK (x2 : (⟨S2x320000, .i32⟩ : BufTy).Contents (Elt Ideal)) : (⟨S320000x1, .i32⟩ : BufTy).Contents (Elt Ideal) :=
  broadcastInDim S320000x1 ![0] bcast_S320000_S320000x1_0
    (select (cmpi .slt (srcK x2) (broadcastInDim S320000 ![] bcast_S_S320000 (constantI S_ 32 0#32)))
      (addi (srcK x2) (broadcastInDim S320000 ![] bcast_S_S320000 (constantI S_ 32 10000#32)))
      (srcK x2))
/-- A layer's closing step: the per-edge messages summed into their target nodes, each node's sum divided by its floored
    in-degree. -/
def tailK (x2 : (⟨S2x320000, .i32⟩ : BufTy).Contents (Elt Ideal)) (msg : (⟨S320000x128, .f32⟩ : BufTy).Contents (Elt Ideal)) :
    (⟨S10000x128, .f32⟩ : BufTy).Contents (Elt Ideal) :=
  Host.divf (F := Ideal)
    (Host.scatterAdd (F := Ideal) scatter_S10000x128_S320000x1_S320000x128_1_0_0_1
      (broadcastInDim S10000x128 ![] bcast_S_S10000x128 (constant (F := Ideal) S_ .f32 0x00000000#32))
      (broadcastInDim S320000x1 ![0] bcast_S320000_S320000x1_0 (dstK x2))
      msg)
    (broadcastInDim S10000x128 ![0, 1] bcast_S10000x1_S10000x128_0_1 (broadcastInDim S10000x1 ![0] bcast_S10000_S10000x1_0 (denK x2)))
/-- A layer's per-edge message: the gathered row of the node-level product plus the layer's slice of the edge
    projection. -/
def msgK (x2 : (⟨S2x320000, .i32⟩ : BufTy).Contents (Elt Ideal)) (y : (⟨S10000x128, .f32⟩ : BufTy).Contents (Elt Ideal))
    (eas : (⟨S320000x128, .f32⟩ : BufTy).Contents (Elt Ideal)) : (⟨S320000x128, .f32⟩ : BufTy).Contents (Elt Ideal) :=
  addf (F := Ideal) (φ := .f32) (Host.gather gather_S10000x128_S320000x1_S320000x128_1_0_n_n_0_1_1128 y (idxK x2)) eas
/-- The four edge-weight slices side by side. -/
def wcatK (w0 w1 : (⟨S144x128, .f32⟩ : BufTy).Contents (Elt Ideal)) (w2 : (⟨S272x128, .f32⟩ : BufTy).Contents (Elt Ideal))
    (w3 : (⟨S400x128, .f32⟩ : BufTy).Contents (Elt Ideal)) : (⟨S16x512, .f32⟩ : BufTy).Contents (Elt Ideal) :=
  concatenate S16x512 1 [⟨S16x128, extractStridedSlice S16x128 ![128, 0] w0 slices_S144x128_S16x128_128_0⟩,
    ⟨S16x128, extractStridedSlice S16x128 ![128, 0] w1 slices_S144x128_S16x128_128_0⟩,
    ⟨S16x128, extractStridedSlice S16x128 ![256, 0] w2 slices_S272x128_S16x128_256_0⟩,
    ⟨S16x128, extractStridedSlice S16x128 ![384, 0] w3 slices_S400x128_S16x128_384_0⟩] concatenates_S16x128_S16x128_S16x128_S16x128_S16x512_d1

variable (m : (ℓ : Loc nD τ sig) → Buf (Elt Ideal) ℓ) (c : Dev nD)

/-! ## The argument arrays -/

abbrev A0 : (⟨S10000x128, .f32⟩ : BufTy).Contents (Elt Ideal) := m ((c.tc : Thread nD τ).loc main_arg0)
abbrev A1 : (⟨S320000x16, .f32⟩ : BufTy).Contents (Elt Ideal) := m ((c.tc : Thread nD τ).loc main_arg1)
abbrev A2 : (⟨S2x320000, .i32⟩ : BufTy).Contents (Elt Ideal) := m ((c.tc : Thread nD τ).loc main_arg2)
abbrev A3 : (⟨S144x128, .f32⟩ : BufTy).Contents (Elt Ideal) := m ((c.tc : Thread nD τ).loc main_arg3)
abbrev A4 : (⟨S128, .f32⟩ : BufTy).Contents (Elt Ideal) := m ((c.tc : Thread nD τ).loc main_arg4)
abbrev A5 : (⟨S144x128, .f32⟩ : BufTy).Contents (Elt Ideal) := m ((c.tc : Thread nD τ).loc main_arg5)
abbrev A6 : (⟨S128, .f32⟩ : BufTy).Contents (Elt Ideal) := m ((c.tc : Thread nD τ).loc main_arg6)
abbrev A7 : (⟨S272x128, .f32⟩ : BufTy).Contents (Elt Ideal) := m ((c.tc : Thread nD τ).loc main_arg7)
abbrev A8 : (⟨S128, .f32⟩ : BufTy).Contents (Elt Ideal) := m ((c.tc : Thread nD τ).loc main_arg8)
abbrev A9 : (⟨S400x128, .f32⟩ : BufTy).Contents (Elt Ideal) := m ((c.tc : Thread nD τ).loc main_arg9)
abbrev A10 : (⟨S128, .f32⟩ : BufTy).Contents (Elt Ideal) := m ((c.tc : Thread nD τ).loc main_arg10)

/-! ## The first stretch -/

theorem W1_v1 : W1 m c (Proc.devRef .tc main_v1) = srcK (A2 m c) := by
  show StableHlo.after hostOps0 (W0 m c) (Proc.devRef .tc main_v1) = _
  after_results
  rfl
theorem W1_v3 : W1 m c (Proc.devRef .tc main_v3) = dstK (A2 m c) := by
  show StableHlo.after hostOps0 (W0 m c) (Proc.devRef .tc main_v3) = _
  after_results
  rfl
theorem W1_v9 : W1 m c (Proc.devRef .tc main_v9) = denK (A2 m c) := by
  show StableHlo.after hostOps0 (W0 m c) (Proc.devRef .tc main_v9) = _
  after_results
  rfl
theorem W1_v14 : W1 m c (Proc.devRef .tc main_v14) = wcatK (A3 m c) (A5 m c) (A7 m c) (A9 m c) := by
  show StableHlo.after hostOps0 (W0 m c) (Proc.devRef .tc main_v14) = _
  after_results
  rfl

/-! ## The same three at every later boundary: no later segment writes them -/

theorem W2_v1 : W2 m c (Proc.devRef .tc main_v1) = srcK (A2 m c) := (W2_keep m c main_v1 (by decide)).trans (W1_v1 m c)
theorem W3_v1 : W3 m c (Proc.devRef .tc main_v1) = srcK (A2 m c) := (W3_keep m c main_v1 (by decide)).trans (W2_v1 m c)
theorem W4_v1 : W4 m c (Proc.devRef .tc main_v1) = srcK (A2 m c) := (W4_keep m c main_v1 (by decide)).trans (W3_v1 m c)
theorem W5_v1 : W5 m c (Proc.devRef .tc main_v1) = srcK (A2 m c) := (W5_keep m c main_v1 (by decide)).trans (W4_v1 m c)
theorem W6_v1 : W6 m c (Proc.devRef .tc main_v1) = srcK (A2 m c) := (W6_keep m c main_v1 (by decide)).trans (W5_v1 m c)
theorem W7_v1 : W7 m c (Proc.devRef .tc main_v1) = srcK (A2 m c) := (W7_keep m c main_v1 (by decide)).trans (W6_v1 m c)
theorem W8_v1 : W8 m c (Proc.devRef .tc main_v1) = srcK (A2 m c) := (W8_keep m c main_v1 (by decide)).trans (W7_v1 m c)
theorem W9_v1 : W9 m c (Proc.devRef .tc main_v1) = srcK (A2 m c) := (W9_keep m c main_v1 (by decide)).trans (W8_v1 m c)
theorem W10_v1 : W10 m c (Proc.devRef .tc main_v1) = srcK (A2 m c) := (W10_keep m c main_v1 (by decide)).trans (W9_v1 m c)

theorem W2_v3 : W2 m c (Proc.devRef .tc main_v3) = dstK (A2 m c) := (W2_keep m c main_v3 (by decide)).trans (W1_v3 m c)
theorem W3_v3 : W3 m c (Proc.devRef .tc main_v3) = dstK (A2 m c) := (W3_keep m c main_v3 (by decide)).trans (W2_v3 m c)
theorem W4_v3 : W4 m c (Proc.devRef .tc main_v3) = dstK (A2 m c) := (W4_keep m c main_v3 (by decide)).trans (W3_v3 m c)
theorem W5_v3 : W5 m c (Proc.devRef .tc main_v3) = dstK (A2 m c) := (W5_keep m c main_v3 (by decide)).trans (W4_v3 m c)
theorem W6_v3 : W6 m c (Proc.devRef .tc main_v3) = dstK (A2 m c) := (W6_keep m c main_v3 (by decide)).trans (W5_v3 m c)
theorem W7_v3 : W7 m c (Proc.devRef .tc main_v3) = dstK (A2 m c) := (W7_keep m c main_v3 (by decide)).trans (W6_v3 m c)
theorem W8_v3 : W8 m c (Proc.devRef .tc main_v3) = dstK (A2 m c) := (W8_keep m c main_v3 (by decide)).trans (W7_v3 m c)
theorem W9_v3 : W9 m c (Proc.devRef .tc main_v3) = dstK (A2 m c) := (W9_keep m c main_v3 (by decide)).trans (W8_v3 m c)
theorem W10_v3 : W10 m c (Proc.devRef .tc main_v3) = dstK (A2 m c) := (W10_keep m c main_v3 (by decide)).trans (W9_v3 m c)

theorem W2_v9 : W2 m c (Proc.devRef .tc main_v9) = denK (A2 m c) := (W2_keep m c main_v9 (by decide)).trans (W1_v9 m c)
theorem W3_v9 : W3 m c (Proc.devRef .tc main_v9) = denK (A2 m c) := (W3_keep m c main_v9 (by decide)).trans (W2_v9 m c)
theorem W4_v9 : W4 m c (Proc.devRef .tc main_v9) = denK (A2 m c) := (W4_keep m c main_v9 (by decide)).trans (W3_v9 m c)
theorem W5_v9 : W5 m c (Proc.devRef .tc main_v9) = denK (A2 m c) := (W5_keep m c main_v9 (by decide)).trans (W4_v9 m c)
theorem W6_v9 : W6 m c (Proc.devRef .tc main_v9) = denK (A2 m c) := (W6_keep m c main_v9 (by decide)).trans (W5_v9 m c)
theorem W7_v9 : W7 m c (Proc.devRef .tc main_v9) = denK (A2 m c) := (W7_keep m c main_v9 (by decide)).trans (W6_v9 m c)
theorem W8_v9 : W8 m c (Proc.devRef .tc main_v9) = denK (A2 m c) := (W8_keep m c main_v9 (by decide)).trans (W7_v9 m c)
theorem W9_v9 : W9 m c (Proc.devRef .tc main_v9) = denK (A2 m c) := (W9_keep m c main_v9 (by decide)).trans (W8_v9 m c)
theorem W10_v9 : W10 m c (Proc.devRef .tc main_v9) = denK (A2 m c) := (W10_keep m c main_v9 (by decide)).trans (W9_v9 m c)

/-! ## An argument array at the boundary before any segment: written by none, it holds its launch contents -/

/-- A reference written by no segment before boundary eight holds its launch contents at every boundary up to it. -/
theorem W_arg (r : Ref sig .tc)
    (h0 : r ∉ hostOps0_W) (h1 : r ∉ hostOps1_W) (h2 : r ∉ hostOps2_W) (h3 : r ∉ hostOps3_W)
    (g0 : r ≠ main_v15) (g1 : r ≠ main_v19) (g2 : r ≠ main_v37) (g3 : r ≠ main_v56) :
    W1 m c (Proc.devRef .tc r) = m ((c.tc : Thread nD τ).loc r) ∧ W2 m c (Proc.devRef .tc r) = m ((c.tc : Thread nD τ).loc r)
    ∧ W3 m c (Proc.devRef .tc r) = m ((c.tc : Thread nD τ).loc r) ∧ W4 m c (Proc.devRef .tc r) = m ((c.tc : Thread nD τ).loc r)
    ∧ W5 m c (Proc.devRef .tc r) = m ((c.tc : Thread nD τ).loc r) ∧ W6 m c (Proc.devRef .tc r) = m ((c.tc : Thread nD τ).loc r)
    ∧ W7 m c (Proc.devRef .tc r) = m ((c.tc : Thread nD τ).loc r) ∧ W8 m c (Proc.devRef .tc r) = m ((c.tc : Thread nD τ).loc r) := by
  have e1 : W1 m c (Proc.devRef .tc r) = m ((c.tc : Thread nD τ).loc r) := (W1_keep m c r h0).trans rfl
  have e2 := (W2_keep m c r g0).trans e1
  have e3 := (W3_keep m c r h1).trans e2
  have e4 := (W4_keep m c r g1).trans e3
  have e5 := (W5_keep m c r h2).trans e4
  have e6 := (W6_keep m c r g2).trans e5
  have e7 := (W7_keep m c r h3).trans e6
  have e8 := (W8_keep m c r g3).trans e7
  exact ⟨e1, e2, e3, e4, e5, e6, e7, e8⟩

end Cert.KernelIdeal.Bridge

end
-- ==== Proof.KIVal0.lean ====
/-
  What region 0 leaves in its output array, at the extended reals.  The region projects the edge attributes: the
  320000 edge rows, 16 attributes each, are cut into forty blocks of 8000 rows; at each block the body multiplies the
  8000 x 16 block by the whole 16 x 512 matrix of the four layers' edge weights set side by side, into a zero
  accumulator, and stores the product.  Row e of the array lies in block e / 8000 at local row e % 8000, every block
  is written back, and a matrix product's row depends only on the same row of the left factor, so the array ends
  holding, at (e, q), the sum over the 16 attributes k of attr[e, k] * W[k, q] of the arrays as the region finds them.
-/
import proofs.«122878_j84842783965681_2_alg».proof.Proof.KIReg0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

/-! ## The body's stored value at one entry -/

/-- The two zero offsets of a whole-buffer access, as the constant function. -/
theorem zero_offsets0 : (![0, 0] : Fin 2 → Nat) = fun _ => 0 := funext fun a => by fin_cases a <;> rfl

/-- In the product's dimension numbers the left factor is read at the output's row … -/
theorem dot0_lhs_row (i : S8000x512.Idx) (q : dot_S8000x16_S16x512_S8000x512_1_0_0_1_n_n.contr.Idx) :
    (dot_S8000x16_S16x512_S8000x512_1_0_0_1_n_n.lhsIdx i q 0).val = (i 0).val := by
  unfold DotDims.lhsIdx
  rw [dif_neg (show ¬(0 : Fin S8000x16.rank) ∈ dot_S8000x16_S16x512_S8000x512_1_0_0_1_n_n.lhsBatch by decide),
    dif_pos (show (0 : Fin S8000x16.rank) ∈ dot_S8000x16_S16x512_S8000x512_1_0_0_1_n_n.lhsNonContracting by decide)]
  rfl
/-- … and the contraction position's column, -/
theorem dot0_lhs_col (i : S8000x512.Idx) (q : dot_S8000x16_S16x512_S8000x512_1_0_0_1_n_n.contr.Idx) :
    (dot_S8000x16_S16x512_S8000x512_1_0_0_1_n_n.lhsIdx i q 1).val = (q ⟨0, by decide⟩).val :=
  dot_S8000x16_S16x512_S8000x512_1_0_0_1_n_n.lhsIdx_val_of_single rfl i q
/-- the right factor at the contraction position's row … -/
theorem dot0_rhs_row (i : S8000x512.Idx) (q : dot_S8000x16_S16x512_S8000x512_1_0_0_1_n_n.contr.Idx) :
    (dot_S8000x16_S16x512_S8000x512_1_0_0_1_n_n.rhsIdx i q 0).val = (q ⟨0, by decide⟩).val :=
  dot_S8000x16_S16x512_S8000x512_1_0_0_1_n_n.rhsIdx_val_of_single rfl i q
/-- … and the output's column. -/
theorem dot0_rhs_col (i : S8000x512.Idx) (q : dot_S8000x16_S16x512_S8000x512_1_0_0_1_n_n.contr.Idx) :
    (dot_S8000x16_S16x512_S8000x512_1_0_0_1_n_n.rhsIdx i q 1).val = (i 1).val := by
  unfold DotDims.rhsIdx
  rw [dif_neg (show ¬(1 : Fin S16x512.rank) ∈ dot_S8000x16_S16x512_S8000x512_1_0_0_1_n_n.rhsBatch by decide),
    dif_pos (show (1 : Fin S16x512.rank) ∈ dot_S8000x16_S16x512_S8000x512_1_0_0_1_n_n.rhsNonContracting by decide)]
  rfl

/-- The product of an 8000 x 16 block with the 16 x 512 weights, accumulated into zero, at entry (p, q): the sum over
    the 16 contraction positions of the block's row p times the weights' column q. -/
theorem matmul0_apply (x0 : FVec Ideal S8000x16 .f32) (x1 : FVec Ideal S16x512 .f32) (p : Fin 8000) (q : Fin 512) :
    matmul dot_S8000x16_S16x512_S8000x512_1_0_0_1_n_n none x0 x1 (constant (F := Ideal) S8000x512 .f32 0x00000000#32) (ix2 p q)
      = ∑ k : Fin 16, x0 (ix2 p k) * x1 (ix2 k q) := by
  refine (Ideal.matmul_constant_zero_apply dot_S8000x16_S16x512_S8000x512_1_0_0_1_n_n none x0 x1 (ix2 p q)).trans ?_
  rw [← Equiv.sum_comp (contrEquiv1 dot_S8000x16_S16x512_S8000x512_1_0_0_1_n_n 16 rfl rfl).symm]
  refine Finset.sum_congr rfl fun k _ => ?_
  have hk := contrEquiv1_symm_val dot_S8000x16_S16x512_S8000x512_1_0_0_1_n_n 16 rfl rfl k
  have el : dot_S8000x16_S16x512_S8000x512_1_0_0_1_n_n.lhsIdx (ix2 p q)
      ((contrEquiv1 dot_S8000x16_S16x512_S8000x512_1_0_0_1_n_n 16 rfl rfl).symm k) = ix2 p k := funext fun a => Fin.ext (by
    match a with
    | ⟨0, _⟩ => exact dot0_lhs_row _ _
    | ⟨1, _⟩ => exact (dot0_lhs_col _ _).trans hk)
  have er : dot_S8000x16_S16x512_S8000x512_1_0_0_1_n_n.rhsIdx (ix2 p q)
      ((contrEquiv1 dot_S8000x16_S16x512_S8000x512_1_0_0_1_n_n 16 rfl rfl).symm k) = ix2 k q := funext fun a => Fin.ext (by
    match a with
    | ⟨0, _⟩ => exact (dot0_rhs_row _ _).trans hk
    | ⟨1, _⟩ => exact dot0_rhs_col _ _)
  rw [el, er]

/-- The value the body stores, at entry (p, q) of the block: row p of the block of edge attributes against column q
    of the weights (the cast to the same shape changes nothing). -/
theorem pay0_apply (x0 : Vec Ideal S8000x16 .f32) (x1 : Vec Ideal S16x512 .f32) (p : Fin 8000) (q : Fin 512) :
    k0_pay1 (F := Ideal) x0 x1 (ix2 p q) = ∑ k : Fin 16, x0 (ix2 p k) * x1 (ix2 k q) := by
  unfold k0_pay1
  simp only [shapeCast_self]
  exact matmul0_apply x0 x1 p q

/-! ## From the blocks to the array -/

variable (V : (c : Dev nD) → (b : Ref sig .tc) → Buf (Elt Ideal) ((c : Thread nD τ).loc b))

/-- One entry of the projection from the whole arrays: row e of the edge attributes against column q of the weights. -/
def lin0 (a : S320000x16.Idx → EReal) (w : S16x512.Idx → EReal) (e : Fin 320000) (q : Fin 512) : EReal :=
  ∑ k : Fin 16, a (ix2 e k) * w (ix2 k q)

/-- The whole output array as one function of the two input arrays. -/
def layer0 (a : S320000x16.Idx → EReal) (w : S16x512.Idx → EReal) : S320000x512.Idx → EReal :=
  fun i => lin0 a w (i 0) (i 1)

/-- The index maps over the forty grid points: the attribute and output windows sit at row block t, column block 0;
    the weights at block (0, 0) throughout. -/
theorem block_indices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The attribute block at point t, at local (p, k), is the attribute array at row 8000 t + p. -/
theorem blk0_0_apply (c : Dev nD) (t : Fin cfg0.N) (p : Fin 8000) (k : Fin 16) (e : Fin 320000)
    (he : e.val = 8000 * t.val + p.val) : iblk0 V c 0 t (ix2 p k) = V c main_arg1 (ix2 e k) := by
  obtain ⟨e0, e1, -⟩ := block_indices0 t
  unfold iblk0
  rw [View.read_apply]
  show V c main_arg1 (((cfg0.win 0).blk t).view.emb (ix2 p k)) = V c main_arg1 (ix2 e k)
  refine congrArg (V c main_arg1) (funext fun a => Fin.ext ?_)
  match a with
  | ⟨0, _⟩ => show win0_0.index t (0 : Fin 2) * 8000 + 1 * p.val = e.val; rw [e0, he]; omega
  | ⟨1, _⟩ => show win0_0.index t (1 : Fin 2) * 16 + 1 * k.val = k.val; rw [e1]; omega

/-- The weight block at any point is the weight array. -/
theorem blk0_1_apply (c : Dev nD) (t : Fin cfg0.N) (k : Fin 16) (q : Fin 512) :
    iblk0 V c 1 t (ix2 k q) = V c main_v14 (ix2 k q) := by
  obtain ⟨-, -, e2, e3, -⟩ := block_indices0 t
  unfold iblk0
  rw [View.read_apply]
  show V c main_v14 (((cfg0.win 1).blk t).view.emb (ix2 k q)) = V c main_v14 (ix2 k q)
  refine congrArg (V c main_v14) (funext fun a => Fin.ext ?_)
  match a with
  | ⟨0, _⟩ => show win0_1.index t (0 : Fin 2) * 16 + 1 * k.val = k.val; rw [e2]; omega
  | ⟨1, _⟩ => show win0_1.index t (1 : Fin 2) * 512 + 1 * q.val = q.val; rw [e3]; omega

/-- Local entry (p, q) of the output's block at point t is the array's entry (8000 t + p, q). -/
theorem emb0_2 (t : Fin cfg0.N) (p : Fin 8000) (q : Fin 512) (e : Fin 320000) (he : e.val = 8000 * t.val + p.val) :
    ((cfg0.win 2).blk t).view.emb (ix2 p q) = ix2 e q := by
  obtain ⟨-, -, -, -, e4, e5⟩ := block_indices0 t
  funext a; apply Fin.ext
  match a with
  | ⟨0, _⟩ => show win0_2.index t (0 : Fin 2) * 8000 + 1 * p.val = e.val; rw [e4, he]; omega
  | ⟨1, _⟩ => show win0_2.index t (1 : Fin 2) * 512 + 1 * q.val = q.val; rw [e5]; omega

/-- What point t writes back is block t of the projection computed from the whole arrays. -/
theorem flushed0_eq (c : Dev nD) (t : Fin cfg0.N) :
    (dat0 V c).flushed 2 t
      = ((cfg0.win 2).blk t).view.read (Elt Ideal) (layer0 (V c main_arg1) (V c main_v14)) := by
  show (cfg0.win 2).cut (grid0.coords t) ((dat0 V c).after 2 t) = _
  rw [after0_2]
  unfold out0_2
  rw [View.canon_unit_zero zero_offsets0]
  simp only [View.ld_unit_zero (S := S8000x16) zero_offsets0, View.ld_unit_zero (S := S16x512) zero_offsets0]
  funext y
  obtain ⟨p, q, rfl⟩ : ∃ (p : Fin 8000) (q : Fin 512), y = ix2 p q := ⟨y 0, y 1, eq_ix2 y⟩
  have hN : cfg0.N = 40 := N_0
  have he : 8000 * t.val + p.val < 320000 := by have := t.isLt; have := p.isLt; omega
  show k0_pay1 (F := Ideal) (iblk0 V c 0 t) (iblk0 V c 1 t) (ix2 p q)
    = layer0 (V c main_arg1) (V c main_v14) (((cfg0.win 2).blk t).view.emb (ix2 p q))
  refine Eq.trans ?_ (congrArg (layer0 (V c main_arg1) (V c main_v14)) (emb0_2 t p q ⟨_, he⟩ rfl)).symm
  refine (pay0_apply (iblk0 V c 0 t) (iblk0 V c 1 t) p q).trans ?_
  show _ = lin0 (V c main_arg1) (V c main_v14) ⟨_, he⟩ q
  unfold lin0
  refine Finset.sum_congr rfl fun k _ => ?_
  rw [blk0_0_apply V c t p k ⟨_, he⟩ rfl, blk0_1_apply V c t k q]

/-- Row r of the array is in the block of point r / 8000, and every point writes its block back. -/
theorem cover0 (i : S320000x512.Idx) :
    ∃ t : Fin cfg0.N, (cfg0.win 2).flush t = true ∧ i ∈ ((cfg0.win 2).blk t).view.set := by
  have hN : cfg0.N = 40 := N_0
  have h0 : (i 0).val < 320000 := idx2_lt0 i
  have h1 : (i 1).val < 512 := idx2_lt1 i
  obtain ⟨t, ht⟩ : ∃ t : Fin cfg0.N, t.val = (i 0).val / 8000 := ⟨⟨(i 0).val / 8000, by rw [hN]; omega⟩, rfl⟩
  obtain ⟨-, -, -, -, e4, e5⟩ := block_indices0 t
  refine ⟨t, flush0_2 t, ?_⟩
  show i ∈ ((View.whole main_v15).slice (win0_2.rect t)).set
  rw [View.set_slice_whole, Rect.mem_set_unit]
  intro a
  match a with
  | ⟨0, _⟩ =>
    show win0_2.index t (0 : Fin 2) * 8000 ≤ (i 0).val ∧ (i 0).val < win0_2.index t (0 : Fin 2) * 8000 + 8000
    rw [e4, ht]; omega
  | ⟨1, _⟩ =>
    show win0_2.index t (1 : Fin 2) * 512 ≤ (i 1).val ∧ (i 1).val < win0_2.index t (1 : Fin 2) * 512 + 512
    rw [e5]; omega

/-- The output array after the region is the projection of the arrays as the region finds them. -/
theorem array0 (c : Dev nD) :
    (dat0 V c).arrAt 2 cfg0.N = layer0 (V c main_arg1) (V c main_v14) :=
  (dat0 V c).arrAt_eq_of_cover 2 (layer0 (V c main_arg1) (V c main_v14)) (fun t _ => flushed0_eq V c t) cover0

/-- Entry (e, q) of region 0's output array: row e of the edge attributes against column q of the weights. -/
theorem final0 (c : Dev nD) (e : Fin 320000) (q : Fin 512) :
    (dat0 (F := Ideal) V c).arrAt 2 cfg0.N (ix2 e q) = lin0 (V c main_arg1) (V c main_v14) e q :=
  congrFun (array0 V c) (ix2 e q)

/-- That entry written out. -/
theorem lin0_def (a : S320000x16.Idx → EReal) (w : S16x512.Idx → EReal) (e : Fin 320000) (q : Fin 512) :
    lin0 a w e q = ∑ k : Fin 16, a (ix2 e k) * w (ix2 k q) := rfl

end Cert.KernelIdeal.Val

end
-- ==== Proof.KIEdge.lean ====
/-
  Names for the arrays the idealized program's run passes from one layer to the next — the edge projection, each
  layer's node-level product, its block of the edge projection, its output, and the outputs laid side by side as the
  next layer's features — and the edge projection itself: region 0's output is edge_attr times the four edge-weight
  slices side by side, and only region 0 writes it, so every later boundary still holds it.
-/
import proofs.«122878_j84842783965681_2_alg».proof.Proof.KIStart
import proofs.«122878_j84842783965681_2_alg».proof.Proof.KIVal0

set_option maxRecDepth 16384

noncomputable section

namespace Cert.KernelIdeal.Bridge

open Idealize.ShloMosaic Idealize.ShloMosaic.TcCoe Idealize.SL.Sem Idealize.ShloMosaic.ValueIdx
open Cert.KernelIdeal Cert.KernelIdeal.Gen Cert.KernelIdeal.Fr

variable (m : (ℓ : Loc nD τ sig) → Buf (Elt Ideal) ℓ) (c : Dev nD)

/-! ## Names -/

/-- Region 0's output array: the edge projection. -/
abbrev EAK : FVec Ideal S320000x512 .f32 := W2 m c (Proc.devRef .tc main_v15)
/-- Each layer's node-level product: the output array of regions 1 to 4. -/
abbrev Y0K : FVec Ideal S10000x128 .f32 := W4 m c (Proc.devRef .tc main_v19)
abbrev Y1K : FVec Ideal S10000x128 .f32 := W6 m c (Proc.devRef .tc main_v37)
abbrev Y2K : FVec Ideal S10000x128 .f32 := W8 m c (Proc.devRef .tc main_v56)
abbrev Y3K : FVec Ideal S10000x128 .f32 := W10 m c (Proc.devRef .tc main_v75)
/-- Each layer's block of the edge projection, as the stretch that uses it finds it. -/
abbrev E0K : FVec Ideal S320000x128 .f32 := W4 m c (Proc.devRef .tc main_v16)
abbrev E1K : FVec Ideal S320000x128 .f32 := W6 m c (Proc.devRef .tc main_v34)
abbrev E2K : FVec Ideal S320000x128 .f32 := W8 m c (Proc.devRef .tc main_v53)
abbrev E3K : FVec Ideal S320000x128 .f32 := W10 m c (Proc.devRef .tc main_v72)
/-- Each layer's output. -/
abbrev O0K : FVec Ideal S10000x128 .f32 := W5 m c (Proc.devRef .tc main_v33)
abbrev O1K : FVec Ideal S10000x128 .f32 := W7 m c (Proc.devRef .tc main_v51)
abbrev O2K : FVec Ideal S10000x128 .f32 := W9 m c (Proc.devRef .tc main_v70)
abbrev O3K : FVec Ideal S10000x128 .f32 := W11 m c (Proc.devRef .tc main_v89)
/-- The third layer's features (two outputs side by side) and the fourth's (three). -/
abbrev F2K : FVec Ideal S10000x256 .f32 := W7 m c (Proc.devRef .tc main_v52)
abbrev F3K : FVec Ideal S10000x384 .f32 := W9 m c (Proc.devRef .tc main_v71)

/-! ## The edge projection -/

/-- Entry (e, q) of the edge projection: row e of edge_attr against column q of the four slices side by side. -/
theorem EAK_apply (e : Fin 320000) (q : Fin 512) :
    EAK m c (ix2 e q) = ∑ k : Fin 16, A1 m c (ix2 e k) * wcatK (A3 m c) (A5 m c) (A7 m c) (A9 m c) (ix2 k q) := by
  have h1 : (Fr.V1 m c main_arg1 : FVec Ideal S320000x16 .f32) = A1 m c := (W1_keep m c main_arg1 (by decide)).trans rfl
  have h2 : (Fr.V1 m c main_v14 : FVec Ideal S16x512 .f32) = wcatK (A3 m c) (A5 m c) (A7 m c) (A9 m c) := W1_v14 m c
  refine ((congrFun (W2_arr m c 2) (ix2 e q)).trans (Val.final0 (Fr.V1 m) c e q)).trans ?_
  rw [Val.lin0_def, h1, h2]

/-- The edge projection is still there at the later boundaries: only region 0 writes it. -/
theorem W4_v15 : W4 m c (Proc.devRef .tc main_v15) = EAK m c :=
  (W4_keep m c main_v15 (by decide)).trans (W3_keep m c main_v15 (by decide))
theorem W6_v15 : W6 m c (Proc.devRef .tc main_v15) = EAK m c :=
  (W6_keep m c main_v15 (by decide)).trans ((W5_keep m c main_v15 (by decide)).trans (W4_v15 m c))
theorem W8_v15 : W8 m c (Proc.devRef .tc main_v15) = EAK m c :=
  (W8_keep m c main_v15 (by decide)).trans ((W7_keep m c main_v15 (by decide)).trans (W6_v15 m c))

end Cert.KernelIdeal.Bridge

end
-- ==== Proof.KIVal1.lean ====
/-
  What region 1 leaves in its output array, at the extended reals.  The region is the node-level linear layer of the
  first graph-convolution layer: the 10000 node rows are cut into five blocks of 2000 rows; at each block the body
  multiplies the block of features by the whole 128 x 128 weight matrix and adds the bias row to every row of the
  product.  Row n of the array lies in block n / 2000 at local row n % 2000, every block is written back, and a matrix
  product's row depends only on the same row of the left factor, so the array ends holding, at (n, j),
  sum over k of x[n, k] * W[k, j], plus b[0, j], of the arrays as the region finds them.
-/
import proofs.«122878_j84842783965681_2_alg».proof.Proof.KIReg1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

/-! ## The body's stored value at one entry -/

/-- The two zero offsets of a whole-buffer access, as the constant function. -/
theorem zero_offsets1 : (![0, 0] : Fin 2 → Nat) = fun _ => 0 := funext fun a => by fin_cases a <;> rfl

/-- In the product's dimension numbers the left factor is read at the output's row … -/
theorem dot1_lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
/-- … and the contraction position's column, -/
theorem dot1_lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right factor at the contraction position's row … -/
theorem dot1_rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- … and the output's column. -/
theorem dot1_rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The product of a 2000 x 128 block with the 128 x 128 weights, accumulated into zero, at entry (p, j): the sum over
    the 128 contraction positions of the block's row p times the weights' column j. -/
theorem matmul1_apply (x0 : FVec Ideal S2000x128 .f32) (x1 : FVec Ideal S128x128 .f32) (p : Fin 2000) (j : Fin 128) :
    matmul dot_S2000x128_S128x128_S2000x128_1_0_0_1_n_n none x0 x1 (constant (F := Ideal) S2000x128 .f32 0x00000000#32) (ix2 p j)
      = ∑ k : Fin 128, x0 (ix2 p k) * x1 (ix2 k j) := by
  refine (Ideal.matmul_constant_zero_apply dot_S2000x128_S128x128_S2000x128_1_0_0_1_n_n none x0 x1 (ix2 p j)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p j)
      ((contrEquiv1 dot_S2000x128_S128x128_S2000x128_1_0_0_1_n_n 128 rfl rfl).symm k) = ix2 p k := funext fun a => Fin.ext (by
    match a with
    | ⟨0, _⟩ => exact dot1_lhs_row _ _
    | ⟨1, _⟩ => exact (dot1_lhs_col _ _).trans hk)
  have er : dot_S2000x128_S128x128_S2000x128_1_0_0_1_n_n.rhsIdx (ix2 p j)
      ((contrEquiv1 dot_S2000x128_S128x128_S2000x128_1_0_0_1_n_n 128 rfl rfl).symm k) = ix2 k j := funext fun a => Fin.ext (by
    match a with
    | ⟨0, _⟩ => exact (dot1_rhs_row _ _).trans hk
    | ⟨1, _⟩ => exact dot1_rhs_col _ _)
  rw [el, er]

/-- The value the body stores, at entry (p, j) of the block: row p of the feature block against column j of the
    weights, plus the bias row's entry j (the casts to the same shape change nothing; the broadcast repeats the one
    bias row down the 2000 rows). -/
theorem pay1_apply (x0 : Vec Ideal S2000x128 .f32) (x1 : Vec Ideal S128x128 .f32) (x2 : Vec Ideal S1x128 .f32)
    (p : Fin 2000) (j : Fin 128) :
    k1_pay1 (F := Ideal) x0 x1 x2 (ix2 p j) = (∑ k : Fin 128, x0 (ix2 p k) * x1 (ix2 k j)) + x2 (ix2 (0 : Fin 1) j) := by
  unfold k1_pay1
  simp only [shapeCast_self]
  refine (addf_apply _ _ (ix2 p j)).trans ?_
  refine congrArg₂ (· + ·) (matmul1_apply x0 x1 p j) ?_
  exact broadcastTo_1b_ab_apply x2 broadcasts_S1x128_S2000x128 p j

/-! ## From the blocks to the array -/

variable (V : (c : Dev nD) → (b : Ref sig .tc) → Buf (Elt Ideal) ((c : Thread nD τ).loc b))

/-- One entry of the layer's output from the whole arrays: row n of the features against column j of the weights,
    plus the bias at j. -/
def lin1 (a : S10000x128.Idx → EReal) (w : S128x128.Idx → EReal) (b : S1x128.Idx → EReal) (n : Fin 10000) (j : Fin 128) : EReal :=
  (∑ k : Fin 128, a (ix2 n k) * w (ix2 k j)) + b (ix2 (0 : Fin 1) j)

/-- The whole output array as one function of the three input arrays. -/
def layer1 (a : S10000x128.Idx → EReal) (w : S128x128.Idx → EReal) (b : S1x128.Idx → EReal) : S10000x128.Idx → EReal :=
  fun i => lin1 a w b (i 0) (i 1)

/-- The index maps over the five grid points: the feature and output windows sit at row block t, column block 0; the
    weights and the bias at block (0, 0) throughout. -/
theorem block_indices1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The feature block at point t, at local (p, k), is the feature array at row 2000 t + p. -/
theorem blk1_0_apply (c : Dev nD) (t : Fin cfg1.N) (p : Fin 2000) (k : Fin 128) (n : Fin 10000)
    (hn : n.val = 2000 * t.val + p.val) : iblk1 V c 0 t (ix2 p k) = V c main_arg0 (ix2 n k) := by
  obtain ⟨e0, e1, -⟩ := block_indices1 t
  unfold iblk1
  rw [View.read_apply]
  show V c main_arg0 (((cfg1.win 0).blk t).view.emb (ix2 p k)) = V c main_arg0 (ix2 n k)
  refine congrArg (V c main_arg0) (funext fun a => Fin.ext ?_)
  match a with
  | ⟨0, _⟩ => show win1_0.index t (0 : Fin 2) * 2000 + 1 * p.val = n.val; rw [e0, hn]; omega
  | ⟨1, _⟩ => show win1_0.index t (1 : Fin 2) * 128 + 1 * k.val = k.val; rw [e1]; omega

/-- The weight block at any point is the weight array. -/
theorem blk1_1_apply (c : Dev nD) (t : Fin cfg1.N) (k : Fin 128) (j : Fin 128) :
    iblk1 V c 1 t (ix2 k j) = V c main_v17 (ix2 k j) := by
  obtain ⟨-, -, e2, e3, -⟩ := block_indices1 t
  unfold iblk1
  rw [View.read_apply]
  show V c main_v17 (((cfg1.win 1).blk t).view.emb (ix2 k j)) = V c main_v17 (ix2 k j)
  refine congrArg (V c main_v17) (funext fun a => Fin.ext ?_)
  match a with
  | ⟨0, _⟩ => show win1_1.index t (0 : Fin 2) * 128 + 1 * k.val = k.val; rw [e2]; omega
  | ⟨1, _⟩ => show win1_1.index t (1 : Fin 2) * 128 + 1 * j.val = j.val; rw [e3]; omega

/-- The bias block at any point is the bias row. -/
theorem blk1_2_apply (c : Dev nD) (t : Fin cfg1.N) (j : Fin 128) :
    iblk1 V c 2 t (ix2 (0 : Fin 1) j) = V c main_v18 (ix2 (0 : Fin 1) j) := by
  obtain ⟨-, -, -, -, e4, e5, -⟩ := block_indices1 t
  unfold iblk1
  rw [View.read_apply]
  show V c main_v18 (((cfg1.win 2).blk t).view.emb (ix2 (0 : Fin 1) j)) = V c main_v18 (ix2 (0 : Fin 1) j)
  refine congrArg (V c main_v18) (funext fun a => Fin.ext ?_)
  match a with
  | ⟨0, _⟩ => show win1_2.index t (0 : Fin 2) * 1 + 1 * 0 = 0; rw [e4]
  | ⟨1, _⟩ => show win1_2.index t (1 : Fin 2) * 128 + 1 * j.val = j.val; rw [e5]; omega

/-- Local entry (p, q) of the output's block at point t is the array's entry (2000 t + p, q). -/
theorem emb1_3 (t : Fin cfg1.N) (p : Fin 2000) (q : Fin 128) (n : Fin 10000) (hn : n.val = 2000 * t.val + p.val) :
    ((cfg1.win 3).blk t).view.emb (ix2 p q) = ix2 n q := by
  obtain ⟨-, -, -, -, -, -, e6, e7⟩ := block_indices1 t
  funext a; apply Fin.ext
  match a with
  | ⟨0, _⟩ => show win1_3.index t (0 : Fin 2) * 2000 + 1 * p.val = n.val; rw [e6, hn]; omega
  | ⟨1, _⟩ => show win1_3.index t (1 : Fin 2) * 128 + 1 * q.val = q.val; rw [e7]; omega

/-- What point t writes back is block t of the layer's output computed from the whole arrays. -/
theorem flushed1_eq (c : Dev nD) (t : Fin cfg1.N) :
    (dat1 V c).flushed 3 t
      = ((cfg1.win 3).blk t).view.read (Elt Ideal) (layer1 (V c main_arg0) (V c main_v17) (V c main_v18)) := by
  show (cfg1.win 3).cut (grid1.coords t) ((dat1 V c).after 3 t) = _
  rw [after1_3]
  unfold out1_3
  rw [View.canon_unit_zero zero_offsets1]
  simp only [View.ld_unit_zero (S := S2000x128) zero_offsets1, View.ld_unit_zero (S := S128x128) zero_offsets1,
    View.ld_unit_zero (S := S1x128) zero_offsets1]
  funext y
  obtain ⟨p, q, rfl⟩ : ∃ (p : Fin 2000) (q : Fin 128), y = ix2 p q := ⟨y 0, y 1, eq_ix2 y⟩
  have hN : cfg1.N = 5 := N_1
  have hn : 2000 * t.val + p.val < 10000 := by have := t.isLt; have := p.isLt; omega
  show k1_pay1 (F := Ideal) (iblk1 V c 0 t) (iblk1 V c 1 t) (iblk1 V c 2 t) (ix2 p q)
    = layer1 (V c main_arg0) (V c main_v17) (V c main_v18) (((cfg1.win 3).blk t).view.emb (ix2 p q))
  refine Eq.trans ?_ (congrArg (layer1 (V c main_arg0) (V c main_v17) (V c main_v18)) (emb1_3 t p q ⟨_, hn⟩ rfl)).symm
  refine (pay1_apply (iblk1 V c 0 t) (iblk1 V c 1 t) (iblk1 V c 2 t) p q).trans ?_
  show _ = lin1 (V c main_arg0) (V c main_v17) (V c main_v18) ⟨_, hn⟩ q
  unfold lin1
  rw [blk1_2_apply V c t q]
  refine congrArg (· + _) (Finset.sum_congr rfl fun k _ => ?_)
  rw [blk1_0_apply V c t p k ⟨_, hn⟩ rfl, blk1_1_apply V c t k q]

/-- Row r of the array is in the block of point r / 2000, and every point writes its block back. -/
theorem cover1 (i : S10000x128.Idx) :
    ∃ t : Fin cfg1.N, (cfg1.win 3).flush t = true ∧ i ∈ ((cfg1.win 3).blk t).view.set := by
  have hN : cfg1.N = 5 := N_1
  have h0 : (i 0).val < 10000 := idx2_lt0 i
  have h1 : (i 1).val < 128 := idx2_lt1 i
  obtain ⟨t, ht⟩ : ∃ t : Fin cfg1.N, t.val = (i 0).val / 2000 := ⟨⟨(i 0).val / 2000, by rw [hN]; omega⟩, rfl⟩
  obtain ⟨-, -, -, -, -, -, e6, e7⟩ := block_indices1 t
  refine ⟨t, flush1_3 t, ?_⟩
  show i ∈ ((View.whole main_v19).slice (win1_3.rect t)).set
  rw [View.set_slice_whole, Rect.mem_set_unit]
  intro a
  match a with
  | ⟨0, _⟩ =>
    show win1_3.index t (0 : Fin 2) * 2000 ≤ (i 0).val ∧ (i 0).val < win1_3.index t (0 : Fin 2) * 2000 + 2000
    rw [e6, ht]; omega
  | ⟨1, _⟩ =>
    show win1_3.index t (1 : Fin 2) * 128 ≤ (i 1).val ∧ (i 1).val < win1_3.index t (1 : Fin 2) * 128 + 128
    rw [e7]; omega

/-- The output array after the region is the layer's output of the arrays as the region finds them. -/
theorem array1 (c : Dev nD) :
    (dat1 V c).arrAt 3 cfg1.N = layer1 (V c main_arg0) (V c main_v17) (V c main_v18) :=
  (dat1 V c).arrAt_eq_of_cover 3 (layer1 (V c main_arg0) (V c main_v17) (V c main_v18)) (fun t _ => flushed1_eq V c t) cover1

/-- Entry (n, j) of region 1's output array: row n of the node features against column j of the weights, plus the
    bias at j. -/
theorem final1 (c : Dev nD) (n : Fin 10000) (j : Fin 128) :
    (dat1 (F := Ideal) V c).arrAt 3 cfg1.N (ix2 n j) = lin1 (V c main_arg0) (V c main_v17) (V c main_v18) n j :=
  congrFun (array1 V c) (ix2 n j)

/-- That entry written out. -/
theorem lin1_def (a : S10000x128.Idx → EReal) (w : S128x128.Idx → EReal) (b : S1x128.Idx → EReal) (n : Fin 10000) (j : Fin 128) :
    lin1 a w b n j = (∑ k : Fin 128, a (ix2 n k) * w (ix2 k j)) + b (ix2 (0 : Fin 1) j) := rfl

end Cert.KernelIdeal.Val

end
-- ==== Proof.KIHostIdx.lean ====
/-
  The host operations around the regions, read at an index, at the ideal instance (a float is an extended real).
  The program cuts the last 16 rows out of each layer's weight matrix, sets the four 16 × 128 cuts side by side into
  one 16 × 512 matrix, multiplies the edge attributes by it once, and gives layer l the column block
  128·l … 128·l + 127 of that product: that block is the edge attributes times the last 16 rows of layer l's own
  weights.  For the node-level product it cuts the first C rows of the weights and turns the bias vector into a one-row
  matrix: read at an index these are the weights' own entries and the bias's own entry.
-/
import proofs.«122878_j84842783965681_2_alg».proof.Proof.Gen.KernelIdeal
import Idealize.ShloMosaic.PureOps.Ideal
import Idealize.ShloMosaic.Lib.ValueIdx
import Idealize.ShloMosaic.Lib.Pipeline.Value

noncomputable section

namespace Cert.KernelIdeal.HostIdx

open scoped BigOperators
open Idealize.ShloMosaic Idealize.ShloMosaic.ValueIdx Cert.KernelIdeal Cert.KernelIdeal.Gen

/-- Column block 0 of the shared product is the edge attributes times rows 128 … 143 of the first layer's weights. -/
theorem heas_0 (ea : FVec Ideal S320000x16 .f32) (w0 w1 : FVec Ideal S144x128 .f32) (w2 : FVec Ideal S272x128 .f32)
    (w3 : FVec Ideal S400x128 .f32) (EA : FVec Ideal S320000x512 .f32)
    (hEA : ∀ (e : Fin 320000) (q : Fin 512), EA (ix2 e q) = ∑ k : Fin 16, ea (ix2 e k) *
      (concatenate S16x512 1 [⟨S16x128, extractStridedSlice S16x128 ![128, 0] w0 slices_S144x128_S16x128_128_0⟩,
        ⟨S16x128, extractStridedSlice S16x128 ![128, 0] w1 slices_S144x128_S16x128_128_0⟩,
        ⟨S16x128, extractStridedSlice S16x128 ![256, 0] w2 slices_S272x128_S16x128_256_0⟩,
        ⟨S16x128, extractStridedSlice S16x128 ![384, 0] w3 slices_S400x128_S16x128_384_0⟩]
        concatenates_S16x128_S16x128_S16x128_S16x128_S16x512_d1) (ix2 k q))
    (e : Fin 320000) (j : Fin 128) :
    extractStridedSlice S320000x128 ![0, 0] EA slices_S320000x512_S320000x128_0_0 (ix2 e j)
      = ∑ k : Fin 16, ea (ix2 e k) * w0 (ix2 ⟨128 + k.val, by omega⟩ j) := by
  rw [extractStridedSlice_apply ![0, 0] EA slices_S320000x512_S320000x128_0_0 (ix2 e j) (ix2 e ⟨0 + j.val, by omega⟩)
    (fun a => match a with
      | ⟨0, _⟩ => by show e.val = 0 + e.val; omega
      | ⟨1, _⟩ => by show 0 + j.val = 0 + j.val; rfl)]
  rw [hEA]
  refine Finset.sum_congr rfl fun k _ => ?_
  congr 1
  refine (concatenate_apply_piece (1 : Fin S16x512.rank)
    [⟨S16x128, extractStridedSlice S16x128 ![128, 0] w0 slices_S144x128_S16x128_128_0⟩,
      ⟨S16x128, extractStridedSlice S16x128 ![128, 0] w1 slices_S144x128_S16x128_128_0⟩,
      ⟨S16x128, extractStridedSlice S16x128 ![256, 0] w2 slices_S272x128_S16x128_256_0⟩,
      ⟨S16x128, extractStridedSlice S16x128 ![384, 0] w3 slices_S400x128_S16x128_384_0⟩]
    concatenates_S16x128_S16x128_S16x128_S16x128_S16x512_d1
    (ix2 k ⟨0 + j.val, by omega⟩) 0 (by show 0 < 4; omega) S16x128
    (extractStridedSlice S16x128 ![128, 0] w0 slices_S144x128_S16x128_128_0)
    rfl rfl 0 rfl (ix2 k j)
    (fun b => match b with
      | ⟨0, _⟩ => fun _ => rfl
      | ⟨1, _⟩ => fun hb => absurd rfl hb)
    (by show 0 + j.val = 0 + j.val; rfl)).trans ?_
  exact extractStridedSlice_apply ![128, 0] w0 slices_S144x128_S16x128_128_0 (ix2 k j) (ix2 ⟨128 + k.val, by omega⟩ j)
    (fun a => match a with
      | ⟨0, _⟩ => by show 128 + k.val = 128 + k.val; rfl
      | ⟨1, _⟩ => by show j.val = 0 + j.val; omega)

/-- Column block 1 of the shared product is the edge attributes times rows 128 … 143 of the second layer's weights. -/
theorem heas_1 (ea : FVec Ideal S320000x16 .f32) (w0 w1 : FVec Ideal S144x128 .f32) (w2 : FVec Ideal S272x128 .f32)
    (w3 : FVec Ideal S400x128 .f32) (EA : FVec Ideal S320000x512 .f32)
    (hEA : ∀ (e : Fin 320000) (q : Fin 512), EA (ix2 e q) = ∑ k : Fin 16, ea (ix2 e k) *
      (concatenate S16x512 1 [⟨S16x128, extractStridedSlice S16x128 ![128, 0] w0 slices_S144x128_S16x128_128_0⟩,
        ⟨S16x128, extractStridedSlice S16x128 ![128, 0] w1 slices_S144x128_S16x128_128_0⟩,
        ⟨S16x128, extractStridedSlice S16x128 ![256, 0] w2 slices_S272x128_S16x128_256_0⟩,
        ⟨S16x128, extractStridedSlice S16x128 ![384, 0] w3 slices_S400x128_S16x128_384_0⟩]
        concatenates_S16x128_S16x128_S16x128_S16x128_S16x512_d1) (ix2 k q))
    (e : Fin 320000) (j : Fin 128) :
    extractStridedSlice S320000x128 ![0, 128] EA slices_S320000x512_S320000x128_0_128 (ix2 e j)
      = ∑ k : Fin 16, ea (ix2 e k) * w1 (ix2 ⟨128 + k.val, by omega⟩ j) := by
  rw [extractStridedSlice_apply ![0, 128] EA slices_S320000x512_S320000x128_0_128 (ix2 e j) (ix2 e ⟨128 + j.val, by omega⟩)
    (fun a => match a with
      | ⟨0, _⟩ => by show e.val = 0 + e.val; omega
      | ⟨1, _⟩ => by show 128 + j.val = 128 + j.val; rfl)]
  rw [hEA]
  refine Finset.sum_congr rfl fun k _ => ?_
  congr 1
  refine (concatenate_apply_piece (1 : Fin S16x512.rank)
    [⟨S16x128, extractStridedSlice S16x128 ![128, 0] w0 slices_S144x128_S16x128_128_0⟩,
      ⟨S16x128, extractStridedSlice S16x128 ![128, 0] w1 slices_S144x128_S16x128_128_0⟩,
      ⟨S16x128, extractStridedSlice S16x128 ![256, 0] w2 slices_S272x128_S16x128_256_0⟩,
      ⟨S16x128, extractStridedSlice S16x128 ![384, 0] w3 slices_S400x128_S16x128_384_0⟩]
    concatenates_S16x128_S16x128_S16x128_S16x128_S16x512_d1
    (ix2 k ⟨128 + j.val, by omega⟩) 1 (by show 1 < 4; omega) S16x128
    (extractStridedSlice S16x128 ![128, 0] w1 slices_S144x128_S16x128_128_0)
    rfl rfl 128 rfl (ix2 k j)
    (fun b => match b with
      | ⟨0, _⟩ => fun _ => rfl
      | ⟨1, _⟩ => fun hb => absurd rfl hb)
    (by show 128 + j.val = 128 + j.val; rfl)).trans ?_
  exact extractStridedSlice_apply ![128, 0] w1 slices_S144x128_S16x128_128_0 (ix2 k j) (ix2 ⟨128 + k.val, by omega⟩ j)
    (fun a => match a with
      | ⟨0, _⟩ => by show 128 + k.val = 128 + k.val; rfl
      | ⟨1, _⟩ => by show j.val = 0 + j.val; omega)

/-- Column block 2 of the shared product is the edge attributes times rows 256 … 271 of the third layer's weights. -/
theorem heas_2 (ea : FVec Ideal S320000x16 .f32) (w0 w1 : FVec Ideal S144x128 .f32) (w2 : FVec Ideal S272x128 .f32)
    (w3 : FVec Ideal S400x128 .f32) (EA : FVec Ideal S320000x512 .f32)
    (hEA : ∀ (e : Fin 320000) (q : Fin 512), EA (ix2 e q) = ∑ k : Fin 16, ea (ix2 e k) *
      (concatenate S16x512 1 [⟨S16x128, extractStridedSlice S16x128 ![128, 0] w0 slices_S144x128_S16x128_128_0⟩,
        ⟨S16x128, extractStridedSlice S16x128 ![128, 0] w1 slices_S144x128_S16x128_128_0⟩,
        ⟨S16x128, extractStridedSlice S16x128 ![256, 0] w2 slices_S272x128_S16x128_256_0⟩,
        ⟨S16x128, extractStridedSlice S16x128 ![384, 0] w3 slices_S400x128_S16x128_384_0⟩]
        concatenates_S16x128_S16x128_S16x128_S16x128_S16x512_d1) (ix2 k q))
    (e : Fin 320000) (j : Fin 128) :
    extractStridedSlice S320000x128 ![0, 256] EA slices_S320000x512_S320000x128_0_256 (ix2 e j)
      = ∑ k : Fin 16, ea (ix2 e k) * w2 (ix2 ⟨256 + k.val, by omega⟩ j) := by
  rw [extractStridedSlice_apply ![0, 256] EA slices_S320000x512_S320000x128_0_256 (ix2 e j) (ix2 e ⟨256 + j.val, by omega⟩)
    (fun a => match a with
      | ⟨0, _⟩ => by show e.val = 0 + e.val; omega
      | ⟨1, _⟩ => by show 256 + j.val = 256 + j.val; rfl)]
  rw [hEA]
  refine Finset.sum_congr rfl fun k _ => ?_
  congr 1
  refine (concatenate_apply_piece (1 : Fin S16x512.rank)
    [⟨S16x128, extractStridedSlice S16x128 ![128, 0] w0 slices_S144x128_S16x128_128_0⟩,
      ⟨S16x128, extractStridedSlice S16x128 ![128, 0] w1 slices_S144x128_S16x128_128_0⟩,
      ⟨S16x128, extractStridedSlice S16x128 ![256, 0] w2 slices_S272x128_S16x128_256_0⟩,
      ⟨S16x128, extractStridedSlice S16x128 ![384, 0] w3 slices_S400x128_S16x128_384_0⟩]
    concatenates_S16x128_S16x128_S16x128_S16x128_S16x512_d1
    (ix2 k ⟨256 + j.val, by omega⟩) 2 (by show 2 < 4; omega) S16x128
    (extractStridedSlice S16x128 ![256, 0] w2 slices_S272x128_S16x128_256_0)
    rfl rfl 256 rfl (ix2 k j)
    (fun b => match b with
      | ⟨0, _⟩ => fun _ => rfl
      | ⟨1, _⟩ => fun hb => absurd rfl hb)
    (by show 256 + j.val = 256 + j.val; rfl)).trans ?_
  exact extractStridedSlice_apply ![256, 0] w2 slices_S272x128_S16x128_256_0 (ix2 k j) (ix2 ⟨256 + k.val, by omega⟩ j)
    (fun a => match a with
      | ⟨0, _⟩ => by show 256 + k.val = 256 + k.val; rfl
      | ⟨1, _⟩ => by show j.val = 0 + j.val; omega)

/-- Column block 3 of the shared product is the edge attributes times rows 384 … 399 of the fourth layer's weights. -/
theorem heas_3 (ea : FVec Ideal S320000x16 .f32) (w0 w1 : FVec Ideal S144x128 .f32) (w2 : FVec Ideal S272x128 .f32)
    (w3 : FVec Ideal S400x128 .f32) (EA : FVec Ideal S320000x512 .f32)
    (hEA : ∀ (e : Fin 320000) (q : Fin 512), EA (ix2 e q) = ∑ k : Fin 16, ea (ix2 e k) *
      (concatenate S16x512 1 [⟨S16x128, extractStridedSlice S16x128 ![128, 0] w0 slices_S144x128_S16x128_128_0⟩,
        ⟨S16x128, extractStridedSlice S16x128 ![128, 0] w1 slices_S144x128_S16x128_128_0⟩,
        ⟨S16x128, extractStridedSlice S16x128 ![256, 0] w2 slices_S272x128_S16x128_256_0⟩,
        ⟨S16x128, extractStridedSlice S16x128 ![384, 0] w3 slices_S400x128_S16x128_384_0⟩]
        concatenates_S16x128_S16x128_S16x128_S16x128_S16x512_d1) (ix2 k q))
    (e : Fin 320000) (j : Fin 128) :
    extractStridedSlice S320000x128 ![0, 384] EA slices_S320000x512_S320000x128_0_384 (ix2 e j)
      = ∑ k : Fin 16, ea (ix2 e k) * w3 (ix2 ⟨384 + k.val, by omega⟩ j) := by
  rw [extractStridedSlice_apply ![0, 384] EA slices_S320000x512_S320000x128_0_384 (ix2 e j) (ix2 e ⟨384 + j.val, by omega⟩)
    (fun a => match a with
      | ⟨0, _⟩ => by show e.val = 0 + e.val; omega
      | ⟨1, _⟩ => by show 384 + j.val = 384 + j.val; rfl)]
  rw [hEA]
  refine Finset.sum_congr rfl fun k _ => ?_
  congr 1
  refine (concatenate_apply_piece (1 : Fin S16x512.rank)
    [⟨S16x128, extractStridedSlice S16x128 ![128, 0] w0 slices_S144x128_S16x128_128_0⟩,
      ⟨S16x128, extractStridedSlice S16x128 ![128, 0] w1 slices_S144x128_S16x128_128_0⟩,
      ⟨S16x128, extractStridedSlice S16x128 ![256, 0] w2 slices_S272x128_S16x128_256_0⟩,
      ⟨S16x128, extractStridedSlice S16x128 ![384, 0] w3 slices_S400x128_S16x128_384_0⟩]
    concatenates_S16x128_S16x128_S16x128_S16x128_S16x512_d1
    (ix2 k ⟨384 + j.val, by omega⟩) 3 (by show 3 < 4; omega) S16x128
    (extractStridedSlice S16x128 ![384, 0] w3 slices_S400x128_S16x128_384_0)
    rfl rfl 384 rfl (ix2 k j)
    (fun b => match b with
      | ⟨0, _⟩ => fun _ => rfl
      | ⟨1, _⟩ => fun hb => absurd rfl hb)
    (by show 384 + j.val = 384 + j.val; rfl)).trans ?_
  exact extractStridedSlice_apply ![384, 0] w3 slices_S400x128_S16x128_384_0 (ix2 k j) (ix2 ⟨384 + k.val, by omega⟩ j)
    (fun a => match a with
      | ⟨0, _⟩ => by show 384 + k.val = 384 + k.val; rfl
      | ⟨1, _⟩ => by show j.val = 0 + j.val; omega)

/-- The first 128 rows of a 144 × 128 weight matrix and the bias as a row, at an index: the node-level product of a
    128-column feature block is the sum over the weights' own first 128 rows, plus the bias's own entry. -/
theorem hy_128 (feat : FVec Ideal S10000x128 .f32) (w : FVec Ideal S144x128 .f32) (b : FVec Ideal S128 .f32)
    (Y : FVec Ideal S10000x128 .f32)
    (hY : ∀ (n : Fin 10000) (j : Fin 128), Y (ix2 n j)
      = (∑ k : Fin 128, feat (ix2 n k) * (extractStridedSlice S128x128 ![0, 0] w slices_S144x128_S128x128_0_0) (ix2 k j))
        + (shapeCast S1x128 b shapeCasts_S128_S1x128) (ix2 (0 : Fin 1) j))
    (n : Fin 10000) (j : Fin 128) :
    Y (ix2 n j) = (∑ k : Fin 128, feat (ix2 n k) * w (ix2 ⟨k.val, by omega⟩ j)) + b (ix1 j) := by
  rw [hY]
  congr 1
  · refine Finset.sum_congr rfl fun k _ => ?_
    congr 1
    exact extractStridedSlice_apply ![0, 0] w slices_S144x128_S128x128_0_0 (ix2 k j) (ix2 ⟨k.val, by omega⟩ j)
      (fun a => match a with
        | ⟨0, _⟩ => by show k.val = 0 + k.val; omega
        | ⟨1, _⟩ => by show j.val = 0 + j.val; omega)
  · exact shapeCast_apply b shapeCasts_S128_S1x128 (ix2 (0 : Fin 1) j) (ix1 j)
      (by rewrite [Shape.rowMajor_val_two, Shape.rowMajor_val_one]; show j.val = 0 * 128 + j.val; omega)

/-- The same for the third layer: the first 256 rows of a 272 × 128 weight matrix, a 256-column feature block. -/
theorem hy_256 (feat : FVec Ideal S10000x256 .f32) (w : FVec Ideal S272x128 .f32) (b : FVec Ideal S128 .f32)
    (Y : FVec Ideal S10000x128 .f32)
    (hY : ∀ (n : Fin 10000) (j : Fin 128), Y (ix2 n j)
      = (∑ k : Fin 256, feat (ix2 n k) * (extractStridedSlice S256x128 ![0, 0] w slices_S272x128_S256x128_0_0) (ix2 k j))
        + (shapeCast S1x128 b shapeCasts_S128_S1x128) (ix2 (0 : Fin 1) j))
    (n : Fin 10000) (j : Fin 128) :
    Y (ix2 n j) = (∑ k : Fin 256, feat (ix2 n k) * w (ix2 ⟨k.val, by omega⟩ j)) + b (ix1 j) := by
  rw [hY]
  congr 1
  · refine Finset.sum_congr rfl fun k _ => ?_
    congr 1
    exact extractStridedSlice_apply ![0, 0] w slices_S272x128_S256x128_0_0 (ix2 k j) (ix2 ⟨k.val, by omega⟩ j)
      (fun a => match a with
        | ⟨0, _⟩ => by show k.val = 0 + k.val; omega
        | ⟨1, _⟩ => by show j.val = 0 + j.val; omega)
  · exact shapeCast_apply b shapeCasts_S128_S1x128 (ix2 (0 : Fin 1) j) (ix1 j)
      (by rewrite [Shape.rowMajor_val_two, Shape.rowMajor_val_one]; show j.val = 0 * 128 + j.val; omega)

/-- The same for the fourth layer: the first 384 rows of a 400 × 128 weight matrix, a 384-column feature block. -/
theorem hy_384 (feat : FVec Ideal S10000x384 .f32) (w : FVec Ideal S400x128 .f32) (b : FVec Ideal S128 .f32)
    (Y : FVec Ideal S10000x128 .f32)
    (hY : ∀ (n : Fin 10000) (j : Fin 128), Y (ix2 n j)
      = (∑ k : Fin 384, feat (ix2 n k) * (extractStridedSlice S384x128 ![0, 0] w slices_S400x128_S384x128_0_0) (ix2 k j))
        + (shapeCast S1x128 b shapeCasts_S128_S1x128) (ix2 (0 : Fin 1) j))
    (n : Fin 10000) (j : Fin 128) :
    Y (ix2 n j) = (∑ k : Fin 384, feat (ix2 n k) * w (ix2 ⟨k.val, by omega⟩ j)) + b (ix1 j) := by
  rw [hY]
  congr 1
  · refine Finset.sum_congr rfl fun k _ => ?_
    congr 1
    exact extractStridedSlice_apply ![0, 0] w slices_S400x128_S384x128_0_0 (ix2 k j) (ix2 ⟨k.val, by omega⟩ j)
      (fun a => match a with
        | ⟨0, _⟩ => by show k.val = 0 + k.val; omega
        | ⟨1, _⟩ => by show j.val = 0 + j.val; omega)
  · exact shapeCast_apply b shapeCasts_S128_S1x128 (ix2 (0 : Fin 1) j) (ix1 j)
      (by rewrite [Shape.rowMajor_val_two, Shape.rowMajor_val_one]; show j.val = 0 * 128 + j.val; omega)

end Cert.KernelIdeal.HostIdx

end
-- ==== Proof.KILayer0.lean ====
/-
  The first graph-convolution layer of the idealized program, read off the run's boundary contents.  The edge
  projection (region 0) is edge_attr times the four edge-weight slices side by side; its first column block is
  edge_attr times the last sixteen rows of W₀.  The node-level product (region 1) is x times the first 128 rows of W₀
  plus b₀.  The layer's output is the closing step (sum into target nodes, divide by the floored in-degree) of the
  message "gathered row of the node-level product plus the edge projection's block".
-/
import proofs.«122878_j84842783965681_2_alg».proof.Proof.KIEdge
import proofs.«122878_j84842783965681_2_alg».proof.Proof.KIVal1
import proofs.«122878_j84842783965681_2_alg».proof.Proof.KIHostIdx

set_option maxRecDepth 16384

noncomputable section

namespace Cert.KernelIdeal.Bridge

open Idealize.ShloMosaic Idealize.ShloMosaic.TcCoe Idealize.SL.Sem Idealize.ShloMosaic.ValueIdx
open Cert.KernelIdeal Cert.KernelIdeal.Gen Cert.KernelIdeal.Fr

variable (m : (ℓ : Loc nD τ sig) → Buf (Elt Ideal) ℓ) (c : Dev nD)

/-! ## The second stretch: the first layer's operands -/

theorem W3_v16 : W3 m c (Proc.devRef .tc main_v16)
    = extractStridedSlice S320000x128 ![0, 0] (EAK m c) slices_S320000x512_S320000x128_0_0 := by
  show StableHlo.after hostOps1 (W2 m c) (Proc.devRef .tc main_v16) = _
  after_results
theorem W3_v17 : W3 m c (Proc.devRef .tc main_v17)
    = extractStridedSlice S128x128 ![0, 0] (A3 m c) slices_S144x128_S128x128_0_0 := by
  show StableHlo.after hostOps1 (W2 m c) (Proc.devRef .tc main_v17) = _
  after_results
  rw [(W_arg m c main_arg3 (by decide) (by decide) (by decide) (by decide) (by decide) (by decide) (by decide) (by decide)).2.1]
theorem W3_v18 : W3 m c (Proc.devRef .tc main_v18) = shapeCast S1x128 (A4 m c) shapeCasts_S128_S1x128 := by
  show StableHlo.after hostOps1 (W2 m c) (Proc.devRef .tc main_v18) = _
  after_results
  rw [(W_arg m c main_arg4 (by decide) (by decide) (by decide) (by decide) (by decide) (by decide) (by decide) (by decide)).2.1]
  rfl

/-! ## The node-level product and the layer -/

/-- Entry (n, j) of the node-level product: row n of x against column j of W₀'s first 128 rows, plus b₀ at j. -/
theorem Y0K_apply (n : Fin 10000) (j : Fin 128) :
    Y0K m c (ix2 n j) = (∑ k : Fin 128, A0 m c (ix2 n k) * A3 m c (ix2 ⟨k.val, by omega⟩ j)) + A4 m c (ix1 j) := by
  refine HostIdx.hy_128 (A0 m c) (A3 m c) (A4 m c) (Y0K m c) (fun n j => ?_) n j
  have h0 : (Fr.V3 m c main_arg0 : FVec Ideal S10000x128 .f32) = A0 m c :=
    (W_arg m c main_arg0 (by decide) (by decide) (by decide) (by decide) (by decide) (by decide) (by decide) (by decide)).2.2.1
  have h1 : (Fr.V3 m c main_v17 : FVec Ideal S128x128 .f32) = _ := W3_v17 m c
  have h2 : (Fr.V3 m c main_v18 : FVec Ideal S1x128 .f32) = _ := W3_v18 m c
  refine ((congrFun (W4_arr m c 3) (ix2 n j)).trans (Val.final1 (Fr.V3 m) c n j)).trans ?_
  rw [Val.lin1_def, h0, h1, h2]

/-- Entry (e, j) of that block: row e of edge_attr against column j of W₀'s last sixteen rows. -/
theorem E0K_apply (e : Fin 320000) (j : Fin 128) :
    E0K m c (ix2 e j) = ∑ k : Fin 16, A1 m c (ix2 e k) * A3 m c (ix2 ⟨128 + k.val, by omega⟩ j) := by
  have h : E0K m c = extractStridedSlice S320000x128 ![0, 0] (EAK m c) slices_S320000x512_S320000x128_0_0 :=
    (W4_keep m c main_v16 (by decide)).trans (W3_v16 m c)
  rw [h]
  exact HostIdx.heas_0 (A1 m c) (A3 m c) (A5 m c) (A7 m c) (A9 m c) (EAK m c) (fun e q => EAK_apply m c e q) e j

set_option maxHeartbeats 4000000 in
/-- The first layer's output is the closing step of its message. -/
theorem O0K_eq : O0K m c = tailK (A2 m c) (msgK (A2 m c) (Y0K m c) (E0K m c)) := by
  show StableHlo.after hostOps2 (W4 m c) (Proc.devRef .tc main_v33) = _
  after_results_simp
  rw [W4_v1 m c, W4_v3 m c, W4_v9 m c]
  rfl

end Cert.KernelIdeal.Bridge

end
-- ==== Proof.KIVal2.lean ====
/-
  What region 2 leaves in its output array, at the extended reals.  The region is the node-level linear layer of the
  second graph-convolution layer: the 10000 rows of the layer's input features are cut into five blocks of 2000 rows;
  at each block the body multiplies the block by the whole 128 x 128 weight matrix and adds the bias row to every row
  of the product.  Row n of the array lies in block n / 2000 at local row n % 2000, every block is written back, and a
  matrix product's row depends only on the same row of the left factor, so the array ends holding, at (n, j),
  sum over k of x[n, k] * W[k, j], plus b[0, j], of the arrays as the region finds them.
-/
import proofs.«122878_j84842783965681_2_alg».proof.Proof.KIReg2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

/-! ## The body's stored value at one entry -/

/-- The two zero offsets of a whole-buffer access, as the constant function. -/
theorem zero_offsets2 : (![0, 0] : Fin 2 → Nat) = fun _ => 0 := funext fun a => by fin_cases a <;> rfl

/-- In the product's dimension numbers the left factor is read at the output's row … -/
theorem dot2_lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
/-- … and the contraction position's column, -/
theorem dot2_lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right factor at the contraction position's row … -/
theorem dot2_rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- … and the output's column. -/
theorem dot2_rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The product of a 2000 x 128 block with the 128 x 128 weights, accumulated into zero, at entry (p, j): the sum over
    the 128 contraction positions of the block's row p times the weights' column j. -/
theorem matmul2_apply (x0 : FVec Ideal S2000x128 .f32) (x1 : FVec Ideal S128x128 .f32) (p : Fin 2000) (j : Fin 128) :
    matmul dot_S2000x128_S128x128_S2000x128_1_0_0_1_n_n none x0 x1 (constant (F := Ideal) S2000x128 .f32 0x00000000#32) (ix2 p j)
      = ∑ k : Fin 128, x0 (ix2 p k) * x1 (ix2 k j) := by
  refine (Ideal.matmul_constant_zero_apply dot_S2000x128_S128x128_S2000x128_1_0_0_1_n_n none x0 x1 (ix2 p j)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p j)
      ((contrEquiv1 dot_S2000x128_S128x128_S2000x128_1_0_0_1_n_n 128 rfl rfl).symm k) = ix2 p k := funext fun a => Fin.ext (by
    match a with
    | ⟨0, _⟩ => exact dot2_lhs_row _ _
    | ⟨1, _⟩ => exact (dot2_lhs_col _ _).trans hk)
  have er : dot_S2000x128_S128x128_S2000x128_1_0_0_1_n_n.rhsIdx (ix2 p j)
      ((contrEquiv1 dot_S2000x128_S128x128_S2000x128_1_0_0_1_n_n 128 rfl rfl).symm k) = ix2 k j := funext fun a => Fin.ext (by
    match a with
    | ⟨0, _⟩ => exact (dot2_rhs_row _ _).trans hk
    | ⟨1, _⟩ => exact dot2_rhs_col _ _)
  rw [el, er]

/-- The value the body stores, at entry (p, j) of the block: row p of the feature block against column j of the
    weights, plus the bias row's entry j (the casts to the same shape change nothing; the broadcast repeats the one
    bias row down the 2000 rows). -/
theorem pay2_apply (x0 : Vec Ideal S2000x128 .f32) (x1 : Vec Ideal S128x128 .f32) (x2 : Vec Ideal S1x128 .f32)
    (p : Fin 2000) (j : Fin 128) :
    k2_pay1 (F := Ideal) x0 x1 x2 (ix2 p j) = (∑ k : Fin 128, x0 (ix2 p k) * x1 (ix2 k j)) + x2 (ix2 (0 : Fin 1) j) := by
  unfold k2_pay1
  simp only [shapeCast_self]
  refine (addf_apply _ _ (ix2 p j)).trans ?_
  refine congrArg₂ (· + ·) (matmul2_apply x0 x1 p j) ?_
  exact broadcastTo_1b_ab_apply x2 broadcasts_S1x128_S2000x128 p j

/-! ## From the blocks to the array -/

variable (V : (c : Dev nD) → (b : Ref sig .tc) → Buf (Elt Ideal) ((c : Thread nD τ).loc b))

/-- One entry of the layer's output from the whole arrays: row n of the features against column j of the weights,
    plus the bias at j. -/
def lin2 (a : S10000x128.Idx → EReal) (w : S128x128.Idx → EReal) (b : S1x128.Idx → EReal) (n : Fin 10000) (j : Fin 128) : EReal :=
  (∑ k : Fin 128, a (ix2 n k) * w (ix2 k j)) + b (ix2 (0 : Fin 1) j)

/-- The whole output array as one function of the three input arrays. -/
def layer2 (a : S10000x128.Idx → EReal) (w : S128x128.Idx → EReal) (b : S1x128.Idx → EReal) : S10000x128.Idx → EReal :=
  fun i => lin2 a w b (i 0) (i 1)

/-- The index maps over the five grid points: the feature and output windows sit at row block t, column block 0; the
    weights and the bias at block (0, 0) throughout. -/
theorem block_indices2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The feature block at point t, at local (p, k), is the feature array at row 2000 t + p. -/
theorem blk2_0_apply (c : Dev nD) (t : Fin cfg2.N) (p : Fin 2000) (k : Fin 128) (n : Fin 10000)
    (hn : n.val = 2000 * t.val + p.val) : iblk2 V c 0 t (ix2 p k) = V c main_v33 (ix2 n k) := by
  obtain ⟨e0, e1, -⟩ := block_indices2 t
  unfold iblk2
  rw [View.read_apply]
  show V c main_v33 (((cfg2.win 0).blk t).view.emb (ix2 p k)) = V c main_v33 (ix2 n k)
  refine congrArg (V c main_v33) (funext fun a => Fin.ext ?_)
  match a with
  | ⟨0, _⟩ => show win2_0.index t (0 : Fin 2) * 2000 + 1 * p.val = n.val; rw [e0, hn]; omega
  | ⟨1, _⟩ => show win2_0.index t (1 : Fin 2) * 128 + 1 * k.val = k.val; rw [e1]; omega

/-- The weight block at any point is the weight array. -/
theorem blk2_1_apply (c : Dev nD) (t : Fin cfg2.N) (k : Fin 128) (j : Fin 128) :
    iblk2 V c 1 t (ix2 k j) = V c main_v35 (ix2 k j) := by
  obtain ⟨-, -, e2, e3, -⟩ := block_indices2 t
  unfold iblk2
  rw [View.read_apply]
  show V c main_v35 (((cfg2.win 1).blk t).view.emb (ix2 k j)) = V c main_v35 (ix2 k j)
  refine congrArg (V c main_v35) (funext fun a => Fin.ext ?_)
  match a with
  | ⟨0, _⟩ => show win2_1.index t (0 : Fin 2) * 128 + 1 * k.val = k.val; rw [e2]; omega
  | ⟨1, _⟩ => show win2_1.index t (1 : Fin 2) * 128 + 1 * j.val = j.val; rw [e3]; omega

/-- The bias block at any point is the bias row. -/
theorem blk2_2_apply (c : Dev nD) (t : Fin cfg2.N) (j : Fin 128) :
    iblk2 V c 2 t (ix2 (0 : Fin 1) j) = V c main_v36 (ix2 (0 : Fin 1) j) := by
  obtain ⟨-, -, -, -, e4, e5, -⟩ := block_indices2 t
  unfold iblk2
  rw [View.read_apply]
  show V c main_v36 (((cfg2.win 2).blk t).view.emb (ix2 (0 : Fin 1) j)) = V c main_v36 (ix2 (0 : Fin 1) j)
  refine congrArg (V c main_v36) (funext fun a => Fin.ext ?_)
  match a with
  | ⟨0, _⟩ => show win2_2.index t (0 : Fin 2) * 1 + 1 * 0 = 0; rw [e4]
  | ⟨1, _⟩ => show win2_2.index t (1 : Fin 2) * 128 + 1 * j.val = j.val; rw [e5]; omega

/-- Local entry (p, q) of the output's block at point t is the array's entry (2000 t + p, q). -/
theorem emb2_3 (t : Fin cfg2.N) (p : Fin 2000) (q : Fin 128) (n : Fin 10000) (hn : n.val = 2000 * t.val + p.val) :
    ((cfg2.win 3).blk t).view.emb (ix2 p q) = ix2 n q := by
  obtain ⟨-, -, -, -, -, -, e6, e7⟩ := block_indices2 t
  funext a; apply Fin.ext
  match a with
  | ⟨0, _⟩ => show win2_3.index t (0 : Fin 2) * 2000 + 1 * p.val = n.val; rw [e6, hn]; omega
  | ⟨1, _⟩ => show win2_3.index t (1 : Fin 2) * 128 + 1 * q.val = q.val; rw [e7]; omega

/-- What point t writes back is block t of the layer's output computed from the whole arrays. -/
theorem flushed2_eq (c : Dev nD) (t : Fin cfg2.N) :
    (dat2 V c).flushed 3 t
      = ((cfg2.win 3).blk t).view.read (Elt Ideal) (layer2 (V c main_v33) (V c main_v35) (V c main_v36)) := by
  show (cfg2.win 3).cut (grid2.coords t) ((dat2 V c).after 3 t) = _
  rw [after2_3]
  unfold out2_3
  rw [View.canon_unit_zero zero_offsets2]
  simp only [View.ld_unit_zero (S := S2000x128) zero_offsets2, View.ld_unit_zero (S := S128x128) zero_offsets2,
    View.ld_unit_zero (S := S1x128) zero_offsets2]
  funext y
  obtain ⟨p, q, rfl⟩ : ∃ (p : Fin 2000) (q : Fin 128), y = ix2 p q := ⟨y 0, y 1, eq_ix2 y⟩
  have hN : cfg2.N = 5 := N_2
  have hn : 2000 * t.val + p.val < 10000 := by have := t.isLt; have := p.isLt; omega
  show k2_pay1 (F := Ideal) (iblk2 V c 0 t) (iblk2 V c 1 t) (iblk2 V c 2 t) (ix2 p q)
    = layer2 (V c main_v33) (V c main_v35) (V c main_v36) (((cfg2.win 3).blk t).view.emb (ix2 p q))
  refine Eq.trans ?_ (congrArg (layer2 (V c main_v33) (V c main_v35) (V c main_v36)) (emb2_3 t p q ⟨_, hn⟩ rfl)).symm
  refine (pay2_apply (iblk2 V c 0 t) (iblk2 V c 1 t) (iblk2 V c 2 t) p q).trans ?_
  show _ = lin2 (V c main_v33) (V c main_v35) (V c main_v36) ⟨_, hn⟩ q
  unfold lin2
  rw [blk2_2_apply V c t q]
  refine congrArg (· + _) (Finset.sum_congr rfl fun k _ => ?_)
  rw [blk2_0_apply V c t p k ⟨_, hn⟩ rfl, blk2_1_apply V c t k q]

/-- Row r of the array is in the block of point r / 2000, and every point writes its block back. -/
theorem cover2 (i : S10000x128.Idx) :
    ∃ t : Fin cfg2.N, (cfg2.win 3).flush t = true ∧ i ∈ ((cfg2.win 3).blk t).view.set := by
  have hN : cfg2.N = 5 := N_2
  have h0 : (i 0).val < 10000 := idx2_lt0 i
  have h1 : (i 1).val < 128 := idx2_lt1 i
  obtain ⟨t, ht⟩ : ∃ t : Fin cfg2.N, t.val = (i 0).val / 2000 := ⟨⟨(i 0).val / 2000, by rw [hN]; omega⟩, rfl⟩
  obtain ⟨-, -, -, -, -, -, e6, e7⟩ := block_indices2 t
  refine ⟨t, flush2_3 t, ?_⟩
  show i ∈ ((View.whole main_v37).slice (win2_3.rect t)).set
  rw [View.set_slice_whole, Rect.mem_set_unit]
  intro a
  match a with
  | ⟨0, _⟩ =>
    show win2_3.index t (0 : Fin 2) * 2000 ≤ (i 0).val ∧ (i 0).val < win2_3.index t (0 : Fin 2) * 2000 + 2000
    rw [e6, ht]; omega
  | ⟨1, _⟩ =>
    show win2_3.index t (1 : Fin 2) * 128 ≤ (i 1).val ∧ (i 1).val < win2_3.index t (1 : Fin 2) * 128 + 128
    rw [e7]; omega

/-- The output array after the region is the layer's output of the arrays as the region finds them. -/
theorem array2 (c : Dev nD) :
    (dat2 V c).arrAt 3 cfg2.N = layer2 (V c main_v33) (V c main_v35) (V c main_v36) :=
  (dat2 V c).arrAt_eq_of_cover 3 (layer2 (V c main_v33) (V c main_v35) (V c main_v36)) (fun t _ => flushed2_eq V c t) cover2

/-- Entry (n, j) of region 2's output array: row n of the layer's input features against column j of the weights,
    plus the bias at j. -/
theorem final2 (c : Dev nD) (n : Fin 10000) (j : Fin 128) :
    (dat2 (F := Ideal) V c).arrAt 3 cfg2.N (ix2 n j) = lin2 (V c main_v33) (V c main_v35) (V c main_v36) n j :=
  congrFun (array2 V c) (ix2 n j)

/-- That entry written out. -/
theorem lin2_def (a : S10000x128.Idx → EReal) (w : S128x128.Idx → EReal) (b : S1x128.Idx → EReal) (n : Fin 10000) (j : Fin 128) :
    lin2 a w b n j = (∑ k : Fin 128, a (ix2 n k) * w (ix2 k j)) + b (ix2 (0 : Fin 1) j) := rfl

end Cert.KernelIdeal.Val

end
-- ==== Proof.KILayer1.lean ====
/-
  The second graph-convolution layer of the idealized program, read off the run's boundary contents.  Its block of the
  edge projection is the second column block, edge_attr times the last sixteen rows of W₁.  Its node-level product
  (region 2) is the first layer's output times the first 128 rows of W₁ plus b₁.  The layer's output is the closing step
  (sum into target nodes, divide by the floored in-degree) of the message "gathered row of the node-level product plus
  the edge projection's block", and the third layer's features are the first two outputs side by side.
-/
import proofs.«122878_j84842783965681_2_alg».proof.Proof.KIEdge
import proofs.«122878_j84842783965681_2_alg».proof.Proof.KIVal2
import proofs.«122878_j84842783965681_2_alg».proof.Proof.KIHostIdx

set_option maxRecDepth 16384

noncomputable section

namespace Cert.KernelIdeal.Bridge

open Idealize.ShloMosaic Idealize.ShloMosaic.TcCoe Idealize.SL.Sem Idealize.ShloMosaic.ValueIdx
open Cert.KernelIdeal Cert.KernelIdeal.Gen Cert.KernelIdeal.Fr

variable (m : (ℓ : Loc nD τ sig) → Buf (Elt Ideal) ℓ) (c : Dev nD)

/-! ## The third stretch also writes the second layer's operands -/

set_option maxHeartbeats 4000000 in
/-- The layer's block of the edge projection: columns 128 … 255. -/
theorem W5_v34 : W5 m c (Proc.devRef .tc main_v34)
    = extractStridedSlice S320000x128 ![0, 128] (EAK m c) slices_S320000x512_S320000x128_0_128 := by
  show StableHlo.after hostOps2 (W4 m c) (Proc.devRef .tc main_v34) = _
  after_results_simp
  rw [W4_v15 m c]
set_option maxHeartbeats 4000000 in
/-- The first 128 rows of W₁. -/
theorem W5_v35 : W5 m c (Proc.devRef .tc main_v35)
    = extractStridedSlice S128x128 ![0, 0] (A5 m c) slices_S144x128_S128x128_0_0 := by
  show StableHlo.after hostOps2 (W4 m c) (Proc.devRef .tc main_v35) = _
  after_results_simp
  rw [(W_arg m c main_arg5 (by decide) (by decide) (by decide) (by decide) (by decide) (by decide) (by decide) (by decide)).2.2.2.1]
set_option maxHeartbeats 4000000 in
/-- b₁ as a one-row matrix. -/
theorem W5_v36 : W5 m c (Proc.devRef .tc main_v36) = shapeCast S1x128 (A6 m c) shapeCasts_S128_S1x128 := by
  show StableHlo.after hostOps2 (W4 m c) (Proc.devRef .tc main_v36) = _
  after_results_simp
  rw [(W_arg m c main_arg6 (by decide) (by decide) (by decide) (by decide) (by decide) (by decide) (by decide) (by decide)).2.2.2.1]
  rfl

/-! ## The node-level product and the layer -/

/-- Entry (n, j) of the node-level product: row n of the first layer's output against column j of W₁'s first 128
    rows, plus b₁ at j. -/
theorem Y1K_apply (n : Fin 10000) (j : Fin 128) :
    Y1K m c (ix2 n j) = (∑ k : Fin 128, O0K m c (ix2 n k) * A5 m c (ix2 ⟨k.val, by omega⟩ j)) + A6 m c (ix1 j) := by
  refine HostIdx.hy_128 (O0K m c) (A5 m c) (A6 m c) (Y1K m c) (fun n j => ?_) n j
  have h0 : (Fr.V5 m c main_v33 : FVec Ideal S10000x128 .f32) = O0K m c := rfl
  have h1 : (Fr.V5 m c main_v35 : FVec Ideal S128x128 .f32) = _ := W5_v35 m c
  have h2 : (Fr.V5 m c main_v36 : FVec Ideal S1x128 .f32) = _ := W5_v36 m c
  refine ((congrFun (W6_arr m c 3) (ix2 n j)).trans (Val.final2 (Fr.V5 m) c n j)).trans ?_
  rw [Val.lin2_def, h0, h1, h2]

/-- Entry (e, j) of the layer's block of the edge projection: row e of edge_attr against column j of W₁'s last sixteen
    rows. -/
theorem E1K_apply (e : Fin 320000) (j : Fin 128) :
    E1K m c (ix2 e j) = ∑ k : Fin 16, A1 m c (ix2 e k) * A5 m c (ix2 ⟨128 + k.val, by omega⟩ j) := by
  have h : E1K m c = extractStridedSlice S320000x128 ![0, 128] (EAK m c) slices_S320000x512_S320000x128_0_128 :=
    (W6_keep m c main_v34 (by decide)).trans (W5_v34 m c)
  rw [h]
  exact HostIdx.heas_1 (A1 m c) (A3 m c) (A5 m c) (A7 m c) (A9 m c) (EAK m c) (fun e q => EAK_apply m c e q) e j

set_option maxHeartbeats 4000000 in
/-- The second layer's output is the closing step of its message. -/
theorem O1K_eq : O1K m c = tailK (A2 m c) (msgK (A2 m c) (Y1K m c) (E1K m c)) := by
  show StableHlo.after hostOps3 (W6 m c) (Proc.devRef .tc main_v51) = _
  after_results_simp
  rw [W6_v1 m c, W6_v3 m c, W6_v9 m c]
  rfl

/-- The last four operations of the fourth stretch: the first two layers' outputs set side by side, and the third
    layer's operands (its block of the edge projection, the first 256 rows of W₂, b₂ as a row). -/
abbrev hostOps3_tail : List (HloOp τ sig (Elt Ideal)) :=
  [ StableHlo.binary main_v33 main_v51 main_v52 ((fun a b => concatenate S10000x256 1 [⟨S10000x128, a⟩, ⟨S10000x128, b⟩] concatenates_S10000x128_S10000x128_S10000x256_d1) : (⟨S10000x128, .f32⟩ : BufTy).Contents (Elt Ideal) → (⟨S10000x128, .f32⟩ : BufTy).Contents (Elt Ideal) → (⟨S10000x256, .f32⟩ : BufTy).Contents (Elt Ideal)),
    StableHlo.unary main_v15 main_v53 ((extractStridedSlice S320000x128 ![0, 256] · slices_S320000x512_S320000x128_0_256) : (⟨S320000x512, .f32⟩ : BufTy).Contents (Elt Ideal) → (⟨S320000x128, .f32⟩ : BufTy).Contents (Elt Ideal)),
    StableHlo.unary main_arg7 main_v54 ((extractStridedSlice S256x128 ![0, 0] · slices_S272x128_S256x128_0_0) : (⟨S272x128, .f32⟩ : BufTy).Contents (Elt Ideal) → (⟨S256x128, .f32⟩ : BufTy).Contents (Elt Ideal)),
    StableHlo.reshape main_arg8 main_v55 rfl shapeCasts_S128_S1x128 ]

/-- The third layer's features are the first two layers' outputs side by side: the operation that joins them reads
    the two outputs as the first seventeen operations of the stretch leave them, and the three operations after it
    write neither of them nor the joined array. -/
theorem F2K_eq : F2K m c = concatenate S10000x256 1 [⟨S10000x128, O0K m c⟩, ⟨S10000x128, O1K m c⟩]
    concatenates_S10000x128_S10000x128_S10000x256_d1 := by
  obtain ⟨X, hX⟩ : ∃ X, X = StableHlo.after ((hostOps3 (F := Ideal)).take 17) (W6 m c) := ⟨_, rfl⟩
  have hW7 : ∀ b, W7 m c b = StableHlo.after hostOps3_tail X b := by
    subst hX; intro b; rfl
  have h33 : (X (Proc.devRef .tc main_v33) : FVec Ideal S10000x128 .f32) = O0K m c := by
    have e : W7 m c (Proc.devRef .tc main_v33) = X (Proc.devRef .tc main_v33) := by
      rw [hW7]
      after_results
    exact e.symm.trans ((W7_keep m c main_v33 (by decide)).trans (W6_keep m c main_v33 (by decide)))
  have h51 : (X (Proc.devRef .tc main_v51) : FVec Ideal S10000x128 .f32) = O1K m c := by
    have e : W7 m c (Proc.devRef .tc main_v51) = X (Proc.devRef .tc main_v51) := by
      rw [hW7]
      after_results
    exact e.symm
  have h52 : ∀ a b : FVec Ideal S10000x128 .f32, (X (Proc.devRef .tc main_v33) : FVec Ideal S10000x128 .f32) = a →
      (X (Proc.devRef .tc main_v51) : FVec Ideal S10000x128 .f32) = b →
      F2K m c = concatenate S10000x256 1 [⟨S10000x128, a⟩, ⟨S10000x128, b⟩] concatenates_S10000x128_S10000x128_S10000x256_d1 := by
    intro a b ha hb
    subst ha; subst hb
    show W7 m c (Proc.devRef .tc main_v52) = _
    rw [hW7]
    after_results
  exact h52 _ _ h33 h51

end Cert.KernelIdeal.Bridge

end
-- ==== Proof.KIVal3.lean ====
/-
  What region 3 leaves in its output array, at the extended reals.  The region is the node-level linear layer of the
  third graph-convolution layer, whose input rows are 256 wide: the 10000 rows are cut into five blocks of 2000 rows;
  at each block the body multiplies the 2000 x 256 block by the whole 256 x 128 weight matrix and adds the bias row to
  every row of the product.  Row n of the array lies in block n / 2000 at local row n % 2000, every block is written
  back, and a matrix product's row depends only on the same row of the left factor, so the array ends holding, at
  (n, j), sum over the 256 positions k of x[n, k] * W[k, j], plus b[0, j], of the arrays as the region finds them.
-/
import proofs.«122878_j84842783965681_2_alg».proof.Proof.KIReg3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

/-! ## The body's stored value at one entry -/

/-- The two zero offsets of a whole-buffer access, as the constant function. -/
theorem zero_offsets3 : (![0, 0] : Fin 2 → Nat) = fun _ => 0 := funext fun a => by fin_cases a <;> rfl

/-- In the product's dimension numbers the left factor is read at the output's row … -/
theorem dot3_lhs_row (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide),
    dif_pos (show (0 : Fin S2000x256.rank) ∈ dot_S2000x256_S256x128_S2000x128_1_0_0_1_n_n.lhsNonContracting by decide)]
  rfl
/-- … and the contraction position's column, -/
theorem dot3_lhs_col (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
/-- the right factor at the contraction position's row … -/
theorem dot3_rhs_row (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
/-- … and the output's column. -/
theorem dot3_rhs_col (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide),
    dif_pos (show (1 : Fin S256x128.rank) ∈ dot_S2000x256_S256x128_S2000x128_1_0_0_1_n_n.rhsNonContracting by decide)]
  rfl

/-- The product of a 2000 x 256 block with the 256 x 128 weights, accumulated into zero, at entry (p, j): the sum over
    the 256 contraction positions of the block's row p times the weights' column j. -/
theorem matmul3_apply (x0 : FVec Ideal S2000x256 .f32) (x1 : FVec Ideal S256x128 .f32) (p : Fin 2000) (j : Fin 128) :
    matmul dot_S2000x256_S256x128_S2000x128_1_0_0_1_n_n none x0 x1 (constant (F := Ideal) S2000x128 .f32 0x00000000#32) (ix2 p j)
      = ∑ k : Fin 256, x0 (ix2 p k) * x1 (ix2 k j) := by
  refine (Ideal.matmul_constant_zero_apply dot_S2000x256_S256x128_S2000x128_1_0_0_1_n_n none x0 x1 (ix2 p j)).trans ?_
  rw [← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p j)
      ((contrEquiv1 dot_S2000x256_S256x128_S2000x128_1_0_0_1_n_n 256 rfl rfl).symm k) = ix2 p k := funext fun a => Fin.ext (by
    match a with
    | ⟨0, _⟩ => exact dot3_lhs_row _ _
    | ⟨1, _⟩ => exact (dot3_lhs_col _ _).trans hk)
  have er : dot_S2000x256_S256x128_S2000x128_1_0_0_1_n_n.rhsIdx (ix2 p j)
      ((contrEquiv1 dot_S2000x256_S256x128_S2000x128_1_0_0_1_n_n 256 rfl rfl).symm k) = ix2 k j := funext fun a => Fin.ext (by
    match a with
    | ⟨0, _⟩ => exact (dot3_rhs_row _ _).trans hk
    | ⟨1, _⟩ => exact dot3_rhs_col _ _)
  rw [el, er]

/-- The value the body stores, at entry (p, j) of the block: row p of the feature block against column j of the
    weights, plus the bias row's entry j (the casts to the same shape change nothing; the broadcast repeats the one
    bias row down the 2000 rows). -/
theorem pay3_apply (x0 : Vec Ideal S2000x256 .f32) (x1 : Vec Ideal S256x128 .f32) (x2 : Vec Ideal S1x128 .f32)
    (p : Fin 2000) (j : Fin 128) :
    k3_pay1 (F := Ideal) x0 x1 x2 (ix2 p j) = (∑ k : Fin 256, x0 (ix2 p k) * x1 (ix2 k j)) + x2 (ix2 (0 : Fin 1) j) := by
  unfold k3_pay1
  simp only [shapeCast_self]
  refine (addf_apply _ _ (ix2 p j)).trans ?_
  refine congrArg₂ (· + ·) (matmul3_apply x0 x1 p j) ?_
  exact broadcastTo_1b_ab_apply x2 broadcasts_S1x128_S2000x128 p j

/-! ## From the blocks to the array -/

variable (V : (c : Dev nD) → (b : Ref sig .tc) → Buf (Elt Ideal) ((c : Thread nD τ).loc b))

/-- One entry of the layer's output from the whole arrays: row n of the features against column j of the weights,
    plus the bias at j. -/
def lin3 (a : S10000x256.Idx → EReal) (w : S256x128.Idx → EReal) (b : S1x128.Idx → EReal) (n : Fin 10000) (j : Fin 128) : EReal :=
  (∑ k : Fin 256, a (ix2 n k) * w (ix2 k j)) + b (ix2 (0 : Fin 1) j)

/-- The whole output array as one function of the three input arrays. -/
def layer3 (a : S10000x256.Idx → EReal) (w : S256x128.Idx → EReal) (b : S1x128.Idx → EReal) : S10000x128.Idx → EReal :=
  fun i => lin3 a w b (i 0) (i 1)

/-- The index maps over the five grid points: the feature and output windows sit at row block t, column block 0; the
    weights and the bias at block (0, 0) throughout. -/
theorem block_indices3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The feature block at point t, at local (p, k), is the feature array at row 2000 t + p. -/
theorem blk3_0_apply (c : Dev nD) (t : Fin cfg3.N) (p : Fin 2000) (k : Fin 256) (n : Fin 10000)
    (hn : n.val = 2000 * t.val + p.val) : iblk3 V c 0 t (ix2 p k) = V c main_v52 (ix2 n k) := by
  obtain ⟨e0, e1, -⟩ := block_indices3 t
  unfold iblk3
  rw [View.read_apply]
  show V c main_v52 (((cfg3.win 0).blk t).view.emb (ix2 p k)) = V c main_v52 (ix2 n k)
  refine congrArg (V c main_v52) (funext fun a => Fin.ext ?_)
  match a with
  | ⟨0, _⟩ => show win3_0.index t (0 : Fin 2) * 2000 + 1 * p.val = n.val; rw [e0, hn]; omega
  | ⟨1, _⟩ => show win3_0.index t (1 : Fin 2) * 256 + 1 * k.val = k.val; rw [e1]; omega

/-- The weight block at any point is the weight array. -/
theorem blk3_1_apply (c : Dev nD) (t : Fin cfg3.N) (k : Fin 256) (j : Fin 128) :
    iblk3 V c 1 t (ix2 k j) = V c main_v54 (ix2 k j) := by
  obtain ⟨-, -, e2, e3, -⟩ := block_indices3 t
  unfold iblk3
  rw [View.read_apply]
  show V c main_v54 (((cfg3.win 1).blk t).view.emb (ix2 k j)) = V c main_v54 (ix2 k j)
  refine congrArg (V c main_v54) (funext fun a => Fin.ext ?_)
  match a with
  | ⟨0, _⟩ => show win3_1.index t (0 : Fin 2) * 256 + 1 * k.val = k.val; rw [e2]; omega
  | ⟨1, _⟩ => show win3_1.index t (1 : Fin 2) * 128 + 1 * j.val = j.val; rw [e3]; omega

/-- The bias block at any point is the bias row. -/
theorem blk3_2_apply (c : Dev nD) (t : Fin cfg3.N) (j : Fin 128) :
    iblk3 V c 2 t (ix2 (0 : Fin 1) j) = V c main_v55 (ix2 (0 : Fin 1) j) := by
  obtain ⟨-, -, -, -, e4, e5, -⟩ := block_indices3 t
  unfold iblk3
  rw [View.read_apply]
  show V c main_v55 (((cfg3.win 2).blk t).view.emb (ix2 (0 : Fin 1) j)) = V c main_v55 (ix2 (0 : Fin 1) j)
  refine congrArg (V c main_v55) (funext fun a => Fin.ext ?_)
  match a with
  | ⟨0, _⟩ => show win3_2.index t (0 : Fin 2) * 1 + 1 * 0 = 0; rw [e4]
  | ⟨1, _⟩ => show win3_2.index t (1 : Fin 2) * 128 + 1 * j.val = j.val; rw [e5]; omega

/-- Local entry (p, q) of the output's block at point t is the array's entry (2000 t + p, q). -/
theorem emb3_3 (t : Fin cfg3.N) (p : Fin 2000) (q : Fin 128) (n : Fin 10000) (hn : n.val = 2000 * t.val + p.val) :
    ((cfg3.win 3).blk t).view.emb (ix2 p q) = ix2 n q := by
  obtain ⟨-, -, -, -, -, -, e6, e7⟩ := block_indices3 t
  funext a; apply Fin.ext
  match a with
  | ⟨0, _⟩ => show win3_3.index t (0 : Fin 2) * 2000 + 1 * p.val = n.val; rw [e6, hn]; omega
  | ⟨1, _⟩ => show win3_3.index t (1 : Fin 2) * 128 + 1 * q.val = q.val; rw [e7]; omega

/-- What point t writes back is block t of the layer's output computed from the whole arrays. -/
theorem flushed3_eq (c : Dev nD) (t : Fin cfg3.N) :
    (dat3 V c).flushed 3 t
      = ((cfg3.win 3).blk t).view.read (Elt Ideal) (layer3 (V c main_v52) (V c main_v54) (V c main_v55)) := by
  show (cfg3.win 3).cut (grid3.coords t) ((dat3 V c).after 3 t) = _
  rw [after3_3]
  unfold out3_3
  rw [View.canon_unit_zero zero_offsets3]
  simp only [View.ld_unit_zero (S := S2000x256) zero_offsets3, View.ld_unit_zero (S := S256x128) zero_offsets3,
    View.ld_unit_zero (S := S1x128) zero_offsets3]
  funext y
  obtain ⟨p, q, rfl⟩ : ∃ (p : Fin 2000) (q : Fin 128), y = ix2 p q := ⟨y 0, y 1, eq_ix2 y⟩
  have hN : cfg3.N = 5 := N_3
  have hn : 2000 * t.val + p.val < 10000 := by have := t.isLt; have := p.isLt; omega
  show k3_pay1 (F := Ideal) (iblk3 V c 0 t) (iblk3 V c 1 t) (iblk3 V c 2 t) (ix2 p q)
    = layer3 (V c main_v52) (V c main_v54) (V c main_v55) (((cfg3.win 3).blk t).view.emb (ix2 p q))
  refine Eq.trans ?_ (congrArg (layer3 (V c main_v52) (V c main_v54) (V c main_v55)) (emb3_3 t p q ⟨_, hn⟩ rfl)).symm
  refine (pay3_apply (iblk3 V c 0 t) (iblk3 V c 1 t) (iblk3 V c 2 t) p q).trans ?_
  show _ = lin3 (V c main_v52) (V c main_v54) (V c main_v55) ⟨_, hn⟩ q
  unfold lin3
  rw [blk3_2_apply V c t q]
  refine congrArg (· + _) (Finset.sum_congr rfl fun k _ => ?_)
  rw [blk3_0_apply V c t p k ⟨_, hn⟩ rfl, blk3_1_apply V c t k q]

/-- Row r of the array is in the block of point r / 2000, and every point writes its block back. -/
theorem cover3 (i : S10000x128.Idx) :
    ∃ t : Fin cfg3.N, (cfg3.win 3).flush t = true ∧ i ∈ ((cfg3.win 3).blk t).view.set := by
  have hN : cfg3.N = 5 := N_3
  have h0 : (i 0).val < 10000 := idx2_lt0 i
  have h1 : (i 1).val < 128 := idx2_lt1 i
  obtain ⟨t, ht⟩ : ∃ t : Fin cfg3.N, t.val = (i 0).val / 2000 := ⟨⟨(i 0).val / 2000, by rw [hN]; omega⟩, rfl⟩
  obtain ⟨-, -, -, -, -, -, e6, e7⟩ := block_indices3 t
  refine ⟨t, flush3_3 t, ?_⟩
  show i ∈ ((View.whole main_v56).slice (win3_3.rect t)).set
  rw [View.set_slice_whole, Rect.mem_set_unit]
  intro a
  match a with
  | ⟨0, _⟩ =>
    show win3_3.index t (0 : Fin 2) * 2000 ≤ (i 0).val ∧ (i 0).val < win3_3.index t (0 : Fin 2) * 2000 + 2000
    rw [e6, ht]; omega
  | ⟨1, _⟩ =>
    show win3_3.index t (1 : Fin 2) * 128 ≤ (i 1).val ∧ (i 1).val < win3_3.index t (1 : Fin 2) * 128 + 128
    rw [e7]; omega

/-- The output array after the region is the layer's output of the arrays as the region finds them. -/
theorem array3 (c : Dev nD) :
    (dat3 V c).arrAt 3 cfg3.N = layer3 (V c main_v52) (V c main_v54) (V c main_v55) :=
  (dat3 V c).arrAt_eq_of_cover 3 (layer3 (V c main_v52) (V c main_v54) (V c main_v55)) (fun t _ => flushed3_eq V c t) cover3

/-- Entry (n, j) of region 3's output array: row n of the layer's 256-wide input against column j of the weights,
    plus the bias at j. -/
theorem final3 (c : Dev nD) (n : Fin 10000) (j : Fin 128) :
    (dat3 (F := Ideal) V c).arrAt 3 cfg3.N (ix2 n j) = lin3 (V c main_v52) (V c main_v54) (V c main_v55) n j :=
  congrFun (array3 V c) (ix2 n j)

/-- That entry written out. -/
theorem lin3_def (a : S10000x256.Idx → EReal) (w : S256x128.Idx → EReal) (b : S1x128.Idx → EReal) (n : Fin 10000) (j : Fin 128) :
    lin3 a w b n j = (∑ k : Fin 256, a (ix2 n k) * w (ix2 k j)) + b (ix2 (0 : Fin 1) j) := rfl

end Cert.KernelIdeal.Val

end
-- ==== Proof.KILayer2.lean ====
/-
  The third graph-convolution layer of the idealized program, read off the run's boundary contents.  Its node-level
  product (region 3) is the first two layers' outputs side by side, 256 columns, times the first 256 rows of W₂,
  plus b₂.  Its block of the edge projection is the third column block, which is edge_attr times the last sixteen
  rows of W₂.  The layer's output is the closing step (sum into target nodes, divide by the floored in-degree) of the
  message "gathered row of the node-level product plus the edge projection's block"; set beside the first two
  outputs it is the fourth layer's 384-column input.
-/
import proofs.«122878_j84842783965681_2_alg».proof.Proof.KIEdge
import proofs.«122878_j84842783965681_2_alg».proof.Proof.KIVal3
import proofs.«122878_j84842783965681_2_alg».proof.Proof.KIHostIdx

set_option maxRecDepth 16384

noncomputable section

namespace Cert.KernelIdeal.Bridge

open Idealize.ShloMosaic Idealize.ShloMosaic.TcCoe Idealize.SL.Sem Idealize.ShloMosaic.ValueIdx
open Cert.KernelIdeal Cert.KernelIdeal.Gen Cert.KernelIdeal.Fr

variable (m : (ℓ : Loc nD τ sig) → Buf (Elt Ideal) ℓ) (c : Dev nD)

/-! ## The fourth stretch: the third layer's operands -/

set_option maxHeartbeats 4000000 in
/-- The layer's block of the edge projection: columns 256 to 383. -/
theorem W7_v53 : W7 m c (Proc.devRef .tc main_v53)
    = extractStridedSlice S320000x128 ![0, 256] (EAK m c) slices_S320000x512_S320000x128_0_256 := by
  show StableHlo.after hostOps3 (W6 m c) (Proc.devRef .tc main_v53) = _
  after_results_simp
  rw [W6_v15 m c]

set_option maxHeartbeats 4000000 in
/-- The node weights: the first 256 rows of W₂. -/
theorem W7_v54 : W7 m c (Proc.devRef .tc main_v54)
    = extractStridedSlice S256x128 ![0, 0] (A7 m c) slices_S272x128_S256x128_0_0 := by
  show StableHlo.after hostOps3 (W6 m c) (Proc.devRef .tc main_v54) = _
  after_results_simp
  rw [(W_arg m c main_arg7 (by decide) (by decide) (by decide) (by decide) (by decide) (by decide) (by decide) (by decide)).2.2.2.2.2.1]

set_option maxHeartbeats 4000000 in
/-- The bias as a one-row matrix. -/
theorem W7_v55 : W7 m c (Proc.devRef .tc main_v55) = shapeCast S1x128 (A8 m c) shapeCasts_S128_S1x128 := by
  show StableHlo.after hostOps3 (W6 m c) (Proc.devRef .tc main_v55) = _
  after_results_simp
  rw [(W_arg m c main_arg8 (by decide) (by decide) (by decide) (by decide) (by decide) (by decide) (by decide) (by decide)).2.2.2.2.2.1]
  rfl

/-! ## The node-level product and the layer -/

/-- Entry (n, j) of the node-level product: row n of the two outputs side by side against column j of W₂'s first
    256 rows, plus b₂ at j. -/
theorem Y2K_apply (n : Fin 10000) (j : Fin 128) :
    Y2K m c (ix2 n j) = (∑ k : Fin 256, F2K m c (ix2 n k) * A7 m c (ix2 ⟨k.val, by omega⟩ j)) + A8 m c (ix1 j) := by
  refine HostIdx.hy_256 (F2K m c) (A7 m c) (A8 m c) (Y2K m c) (fun n j => ?_) n j
  have h0 : (Fr.V7 m c main_v52 : FVec Ideal S10000x256 .f32) = F2K m c := rfl
  have h1 : (Fr.V7 m c main_v54 : FVec Ideal S256x128 .f32) = _ := W7_v54 m c
  have h2 : (Fr.V7 m c main_v55 : FVec Ideal S1x128 .f32) = _ := W7_v55 m c
  refine ((congrFun (W8_arr m c 3) (ix2 n j)).trans (Val.final3 (Fr.V7 m) c n j)).trans ?_
  rw [Val.lin3_def, h0, h1, h2]

/-- Entry (e, j) of the layer's block of the edge projection: row e of edge_attr against column j of W₂'s last
    sixteen rows. -/
theorem E2K_apply (e : Fin 320000) (j : Fin 128) :
    E2K m c (ix2 e j) = ∑ k : Fin 16, A1 m c (ix2 e k) * A7 m c (ix2 ⟨256 + k.val, by omega⟩ j) := by
  have h : E2K m c = extractStridedSlice S320000x128 ![0, 256] (EAK m c) slices_S320000x512_S320000x128_0_256 :=
    (W8_keep m c main_v53 (by decide)).trans (W7_v53 m c)
  rw [h]
  exact HostIdx.heas_2 (A1 m c) (A3 m c) (A5 m c) (A7 m c) (A9 m c) (EAK m c) (fun e q => EAK_apply m c e q) e j

set_option maxHeartbeats 4000000 in
/-- The third layer's output is the closing step of its message. -/
theorem O2K_eq : O2K m c = tailK (A2 m c) (msgK (A2 m c) (Y2K m c) (E2K m c)) := by
  show StableHlo.after hostOps4 (W8 m c) (Proc.devRef .tc main_v70) = _
  after_results_simp
  rw [W8_v1 m c, W8_v3 m c, W8_v9 m c]
  rfl

/-- The first layer's output is still in its buffer when the fifth stretch starts: nothing in between writes it. -/
theorem W8_v33 : W8 m c (Proc.devRef .tc main_v33) = O0K m c :=
  (W8_keep m c main_v33 (by decide)).trans ((W7_keep m c main_v33 (by decide)).trans ((W6_keep m c main_v33 (by decide)).trans rfl))
/-- So is the second layer's. -/
theorem W8_v51 : W8 m c (Proc.devRef .tc main_v51) = O1K m c :=
  (W8_keep m c main_v51 (by decide)).trans rfl

set_option maxHeartbeats 4000000 in
/-- The fourth layer's input: the three outputs side by side. -/
theorem F3K_eq : F3K m c = concatenate S10000x384 1 [⟨S10000x128, O0K m c⟩, ⟨S10000x128, O1K m c⟩, ⟨S10000x128, O2K m c⟩]
    concatenates_S10000x128_S10000x128_S10000x128_S10000x384_d1 := by
  rw [O2K_eq m c]
  show StableHlo.after hostOps4 (W8 m c) (Proc.devRef .tc main_v71) = _
  after_results_simp
  dsimp only [Matrix.cons_val]
  repeat (first
    | rw [StableHlo.nullary_result] | rw [StableHlo.unary_result] | rw [StableHlo.binary_result] | rw [StableHlo.ternary_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide))
  rw [W8_v1 m c, W8_v3 m c, W8_v9 m c, W8_v33 m c, W8_v51 m c]
  rfl

end Cert.KernelIdeal.Bridge

end
-- ==== Proof.KIVal4.lean ====
/-
  What region 4 leaves in its output array, at the extended reals.  The region is the node-level linear layer of the
  fourth graph-convolution layer, whose input rows are 384 wide: the 10000 rows are cut into five blocks of 2000 rows;
  at each block the body multiplies the 2000 x 384 block by the whole 384 x 128 weight matrix and adds the bias row to
  every row of the product.  Row n of the array lies in block n / 2000 at local row n % 2000, every block is written
  back, and a matrix product's row depends only on the same row of the left factor, so the array ends holding, at
  (n, j), sum over the 384 positions k of x[n, k] * W[k, j], plus b[0, j], of the arrays as the region finds them.
-/
import proofs.«122878_j84842783965681_2_alg».proof.Proof.KIReg4
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

/-! ## The body's stored value at one entry -/

/-- The two zero offsets of a whole-buffer access, as the constant function. -/
theorem zero_offsets4 : (![0, 0] : Fin 2 → Nat) = fun _ => 0 := funext fun a => by fin_cases a <;> rfl

/-- In the product's dimension numbers the left factor is read at the output's row … -/
theorem dot4_lhs_row (i : S2000x128.Idx) (q : dot_S2000x384_S384x128_S2000x128_1_0_0_1_n_n.contr.Idx) :
    (dot_S2000x384_S384x128_S2000x128_1_0_0_1_n_n.lhsIdx i q 0).val = (i 0).val := by
  unfold DotDims.lhsIdx
  rw [dif_neg (show ¬(0 : Fin S2000x384.rank) ∈ dot_S2000x384_S384x128_S2000x128_1_0_0_1_n_n.lhsBatch by decide),
    dif_pos (show (0 : Fin S2000x384.rank) ∈ dot_S2000x384_S384x128_S2000x128_1_0_0_1_n_n.lhsNonContracting by decide)]
  rfl
/-- … and the contraction position's column, -/
theorem dot4_lhs_col (i : S2000x128.Idx) (q : dot_S2000x384_S384x128_S2000x128_1_0_0_1_n_n.contr.Idx) :
    (dot_S2000x384_S384x128_S2000x128_1_0_0_1_n_n.lhsIdx i q 1).val = (q ⟨0, by decide⟩).val :=
  dot_S2000x384_S384x128_S2000x128_1_0_0_1_n_n.lhsIdx_val_of_single rfl i q
/-- the right factor at the contraction position's row … -/
theorem dot4_rhs_row (i : S2000x128.Idx) (q : dot_S2000x384_S384x128_S2000x128_1_0_0_1_n_n.contr.Idx) :
    (dot_S2000x384_S384x128_S2000x128_1_0_0_1_n_n.rhsIdx i q 0).val = (q ⟨0, by decide⟩).val :=
  dot_S2000x384_S384x128_S2000x128_1_0_0_1_n_n.rhsIdx_val_of_single rfl i q
/-- … and the output's column. -/
theorem dot4_rhs_col (i : S2000x128.Idx) (q : dot_S2000x384_S384x128_S2000x128_1_0_0_1_n_n.contr.Idx) :
    (dot_S2000x384_S384x128_S2000x128_1_0_0_1_n_n.rhsIdx i q 1).val = (i 1).val := by
  unfold DotDims.rhsIdx
  rw [dif_neg (show ¬(1 : Fin S384x128.rank) ∈ dot_S2000x384_S384x128_S2000x128_1_0_0_1_n_n.rhsBatch by decide),
    dif_pos (show (1 : Fin S384x128.rank) ∈ dot_S2000x384_S384x128_S2000x128_1_0_0_1_n_n.rhsNonContracting by decide)]
  rfl

/-- The product of a 2000 x 384 block with the 384 x 128 weights, accumulated into zero, at entry (p, j): the sum over
    the 384 contraction positions of the block's row p times the weights' column j. -/
theorem matmul4_apply (x0 : FVec Ideal S2000x384 .f32) (x1 : FVec Ideal S384x128 .f32) (p : Fin 2000) (j : Fin 128) :
    matmul dot_S2000x384_S384x128_S2000x128_1_0_0_1_n_n none x0 x1 (constant (F := Ideal) S2000x128 .f32 0x00000000#32) (ix2 p j)
      = ∑ k : Fin 384, x0 (ix2 p k) * x1 (ix2 k j) := by
  refine (Ideal.matmul_constant_zero_apply dot_S2000x384_S384x128_S2000x128_1_0_0_1_n_n none x0 x1 (ix2 p j)).trans ?_
  rw [← Equiv.sum_comp (contrEquiv1 dot_S2000x384_S384x128_S2000x128_1_0_0_1_n_n 384 rfl rfl).symm]
  refine Finset.sum_congr rfl fun k _ => ?_
  have hk := contrEquiv1_symm_val dot_S2000x384_S384x128_S2000x128_1_0_0_1_n_n 384 rfl rfl k
  have el : dot_S2000x384_S384x128_S2000x128_1_0_0_1_n_n.lhsIdx (ix2 p j)
      ((contrEquiv1 dot_S2000x384_S384x128_S2000x128_1_0_0_1_n_n 384 rfl rfl).symm k) = ix2 p k := funext fun a => Fin.ext (by
    match a with
    | ⟨0, _⟩ => exact dot4_lhs_row _ _
    | ⟨1, _⟩ => exact (dot4_lhs_col _ _).trans hk)
  have er : dot_S2000x384_S384x128_S2000x128_1_0_0_1_n_n.rhsIdx (ix2 p j)
      ((contrEquiv1 dot_S2000x384_S384x128_S2000x128_1_0_0_1_n_n 384 rfl rfl).symm k) = ix2 k j := funext fun a => Fin.ext (by
    match a with
    | ⟨0, _⟩ => exact (dot4_rhs_row _ _).trans hk
    | ⟨1, _⟩ => exact dot4_rhs_col _ _)
  rw [el, er]

/-- The value the body stores, at entry (p, j) of the block: row p of the feature block against column j of the
    weights, plus the bias row's entry j (the casts to the same shape change nothing; the broadcast repeats the one
    bias row down the 2000 rows). -/
theorem pay4_apply (x0 : Vec Ideal S2000x384 .f32) (x1 : Vec Ideal S384x128 .f32) (x2 : Vec Ideal S1x128 .f32)
    (p : Fin 2000) (j : Fin 128) :
    k4_pay1 (F := Ideal) x0 x1 x2 (ix2 p j) = (∑ k : Fin 384, x0 (ix2 p k) * x1 (ix2 k j)) + x2 (ix2 (0 : Fin 1) j) := by
  unfold k4_pay1
  simp only [shapeCast_self]
  refine (addf_apply _ _ (ix2 p j)).trans ?_
  refine congrArg₂ (· + ·) (matmul4_apply x0 x1 p j) ?_
  exact broadcastTo_1b_ab_apply x2 broadcasts_S1x128_S2000x128 p j

/-! ## From the blocks to the array -/

variable (V : (c : Dev nD) → (b : Ref sig .tc) → Buf (Elt Ideal) ((c : Thread nD τ).loc b))

/-- One entry of the layer's output from the whole arrays: row n of the features against column j of the weights,
    plus the bias at j. -/
def lin4 (a : S10000x384.Idx → EReal) (w : S384x128.Idx → EReal) (b : S1x128.Idx → EReal) (n : Fin 10000) (j : Fin 128) : EReal :=
  (∑ k : Fin 384, a (ix2 n k) * w (ix2 k j)) + b (ix2 (0 : Fin 1) j)

/-- The whole output array as one function of the three input arrays. -/
def layer4 (a : S10000x384.Idx → EReal) (w : S384x128.Idx → EReal) (b : S1x128.Idx → EReal) : S10000x128.Idx → EReal :=
  fun i => lin4 a w b (i 0) (i 1)

/-- The index maps over the five grid points: the feature and output windows sit at row block t, column block 0; the
    weights and the bias at block (0, 0) throughout. -/
theorem block_indices4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The feature block at point t, at local (p, k), is the feature array at row 2000 t + p. -/
theorem blk4_0_apply (c : Dev nD) (t : Fin cfg4.N) (p : Fin 2000) (k : Fin 384) (n : Fin 10000)
    (hn : n.val = 2000 * t.val + p.val) : iblk4 V c 0 t (ix2 p k) = V c main_v71 (ix2 n k) := by
  obtain ⟨e0, e1, -⟩ := block_indices4 t
  unfold iblk4
  rw [View.read_apply]
  show V c main_v71 (((cfg4.win 0).blk t).view.emb (ix2 p k)) = V c main_v71 (ix2 n k)
  refine congrArg (V c main_v71) (funext fun a => Fin.ext ?_)
  match a with
  | ⟨0, _⟩ => show win4_0.index t (0 : Fin 2) * 2000 + 1 * p.val = n.val; rw [e0, hn]; omega
  | ⟨1, _⟩ => show win4_0.index t (1 : Fin 2) * 384 + 1 * k.val = k.val; rw [e1]; omega

/-- The weight block at any point is the weight array. -/
theorem blk4_1_apply (c : Dev nD) (t : Fin cfg4.N) (k : Fin 384) (j : Fin 128) :
    iblk4 V c 1 t (ix2 k j) = V c main_v73 (ix2 k j) := by
  obtain ⟨-, -, e2, e3, -⟩ := block_indices4 t
  unfold iblk4
  rw [View.read_apply]
  show V c main_v73 (((cfg4.win 1).blk t).view.emb (ix2 k j)) = V c main_v73 (ix2 k j)
  refine congrArg (V c main_v73) (funext fun a => Fin.ext ?_)
  match a with
  | ⟨0, _⟩ => show win4_1.index t (0 : Fin 2) * 384 + 1 * k.val = k.val; rw [e2]; omega
  | ⟨1, _⟩ => show win4_1.index t (1 : Fin 2) * 128 + 1 * j.val = j.val; rw [e3]; omega

/-- The bias block at any point is the bias row. -/
theorem blk4_2_apply (c : Dev nD) (t : Fin cfg4.N) (j : Fin 128) :
    iblk4 V c 2 t (ix2 (0 : Fin 1) j) = V c main_v74 (ix2 (0 : Fin 1) j) := by
  obtain ⟨-, -, -, -, e4, e5, -⟩ := block_indices4 t
  unfold iblk4
  rw [View.read_apply]
  show V c main_v74 (((cfg4.win 2).blk t).view.emb (ix2 (0 : Fin 1) j)) = V c main_v74 (ix2 (0 : Fin 1) j)
  refine congrArg (V c main_v74) (funext fun a => Fin.ext ?_)
  match a with
  | ⟨0, _⟩ => show win4_2.index t (0 : Fin 2) * 1 + 1 * 0 = 0; rw [e4]
  | ⟨1, _⟩ => show win4_2.index t (1 : Fin 2) * 128 + 1 * j.val = j.val; rw [e5]; omega

/-- Local entry (p, q) of the output's block at point t is the array's entry (2000 t + p, q). -/
theorem emb4_3 (t : Fin cfg4.N) (p : Fin 2000) (q : Fin 128) (n : Fin 10000) (hn : n.val = 2000 * t.val + p.val) :
    ((cfg4.win 3).blk t).view.emb (ix2 p q) = ix2 n q := by
  obtain ⟨-, -, -, -, -, -, e6, e7⟩ := block_indices4 t
  funext a; apply Fin.ext
  match a with
  | ⟨0, _⟩ => show win4_3.index t (0 : Fin 2) * 2000 + 1 * p.val = n.val; rw [e6, hn]; omega
  | ⟨1, _⟩ => show win4_3.index t (1 : Fin 2) * 128 + 1 * q.val = q.val; rw [e7]; omega

/-- What point t writes back is block t of the layer's output computed from the whole arrays. -/
theorem flushed4_eq (c : Dev nD) (t : Fin cfg4.N) :
    (dat4 V c).flushed 3 t
      = ((cfg4.win 3).blk t).view.read (Elt Ideal) (layer4 (V c main_v71) (V c main_v73) (V c main_v74)) := by
  show (cfg4.win 3).cut (grid4.coords t) ((dat4 V c).after 3 t) = _
  rw [after4_3]
  unfold out4_3
  rw [View.canon_unit_zero zero_offsets4]
  simp only [View.ld_unit_zero (S := S2000x384) zero_offsets4, View.ld_unit_zero (S := S384x128) zero_offsets4,
    View.ld_unit_zero (S := S1x128) zero_offsets4]
  funext y
  obtain ⟨p, q, rfl⟩ : ∃ (p : Fin 2000) (q : Fin 128), y = ix2 p q := ⟨y 0, y 1, eq_ix2 y⟩
  have hN : cfg4.N = 5 := N_4
  have hn : 2000 * t.val + p.val < 10000 := by have := t.isLt; have := p.isLt; omega
  show k4_pay1 (F := Ideal) (iblk4 V c 0 t) (iblk4 V c 1 t) (iblk4 V c 2 t) (ix2 p q)
    = layer4 (V c main_v71) (V c main_v73) (V c main_v74) (((cfg4.win 3).blk t).view.emb (ix2 p q))
  refine Eq.trans ?_ (congrArg (layer4 (V c main_v71) (V c main_v73) (V c main_v74)) (emb4_3 t p q ⟨_, hn⟩ rfl)).symm
  refine (pay4_apply (iblk4 V c 0 t) (iblk4 V c 1 t) (iblk4 V c 2 t) p q).trans ?_
  show _ = lin4 (V c main_v71) (V c main_v73) (V c main_v74) ⟨_, hn⟩ q
  unfold lin4
  rw [blk4_2_apply V c t q]
  refine congrArg (· + _) (Finset.sum_congr rfl fun k _ => ?_)
  rw [blk4_0_apply V c t p k ⟨_, hn⟩ rfl, blk4_1_apply V c t k q]

/-- Row r of the array is in the block of point r / 2000, and every point writes its block back. -/
theorem cover4 (i : S10000x128.Idx) :
    ∃ t : Fin cfg4.N, (cfg4.win 3).flush t = true ∧ i ∈ ((cfg4.win 3).blk t).view.set := by
  have hN : cfg4.N = 5 := N_4
  have h0 : (i 0).val < 10000 := idx2_lt0 i
  have h1 : (i 1).val < 128 := idx2_lt1 i
  obtain ⟨t, ht⟩ : ∃ t : Fin cfg4.N, t.val = (i 0).val / 2000 := ⟨⟨(i 0).val / 2000, by rw [hN]; omega⟩, rfl⟩
  obtain ⟨-, -, -, -, -, -, e6, e7⟩ := block_indices4 t
  refine ⟨t, flush4_3 t, ?_⟩
  show i ∈ ((View.whole main_v75).slice (win4_3.rect t)).set
  rw [View.set_slice_whole, Rect.mem_set_unit]
  intro a
  match a with
  | ⟨0, _⟩ =>
    show win4_3.index t (0 : Fin 2) * 2000 ≤ (i 0).val ∧ (i 0).val < win4_3.index t (0 : Fin 2) * 2000 + 2000
    rw [e6, ht]; omega
  | ⟨1, _⟩ =>
    show win4_3.index t (1 : Fin 2) * 128 ≤ (i 1).val ∧ (i 1).val < win4_3.index t (1 : Fin 2) * 128 + 128
    rw [e7]; omega

/-- The output array after the region is the layer's output of the arrays as the region finds them. -/
theorem array4 (c : Dev nD) :
    (dat4 V c).arrAt 3 cfg4.N = layer4 (V c main_v71) (V c main_v73) (V c main_v74) :=
  (dat4 V c).arrAt_eq_of_cover 3 (layer4 (V c main_v71) (V c main_v73) (V c main_v74)) (fun t _ => flushed4_eq V c t) cover4

/-- Entry (n, j) of region 4's output array: row n of the layer's 384-wide input against column j of the weights,
    plus the bias at j. -/
theorem final4 (c : Dev nD) (n : Fin 10000) (j : Fin 128) :
    (dat4 (F := Ideal) V c).arrAt 3 cfg4.N (ix2 n j) = lin4 (V c main_v71) (V c main_v73) (V c main_v74) n j :=
  congrFun (array4 V c) (ix2 n j)

/-- That entry written out. -/
theorem lin4_def (a : S10000x384.Idx → EReal) (w : S384x128.Idx → EReal) (b : S1x128.Idx → EReal) (n : Fin 10000) (j : Fin 128) :
    lin4 a w b n j = (∑ k : Fin 384, a (ix2 n k) * w (ix2 k j)) + b (ix2 (0 : Fin 1) j) := rfl

end Cert.KernelIdeal.Val

end
-- ==== Proof.KILayer3.lean ====
/-
  The fourth graph-convolution layer of the idealized program, read off the run's boundary contents.  Its node-level
  product (region 4) is the first three layers' outputs side by side, 384 columns, times the first 384 rows of W₃,
  plus b₃.  Its block of the edge projection is the fourth column block, which is edge_attr times the last sixteen
  rows of W₃.  The layer's output is the closing step (sum into target nodes, divide by the floored in-degree) of the
  message "gathered row of the node-level product plus the edge projection's block".
-/
import proofs.«122878_j84842783965681_2_alg».proof.Proof.KIEdge
import proofs.«122878_j84842783965681_2_alg».proof.Proof.KIVal4
import proofs.«122878_j84842783965681_2_alg».proof.Proof.KIHostIdx

set_option maxRecDepth 16384

noncomputable section

namespace Cert.KernelIdeal.Bridge

open Idealize.ShloMosaic Idealize.ShloMosaic.TcCoe Idealize.SL.Sem Idealize.ShloMosaic.ValueIdx
open Cert.KernelIdeal Cert.KernelIdeal.Gen Cert.KernelIdeal.Fr

variable (m : (ℓ : Loc nD τ sig) → Buf (Elt Ideal) ℓ) (c : Dev nD)

/-! ## The fifth stretch: the fourth layer's operands -/

set_option maxHeartbeats 4000000 in
/-- The layer's block of the edge projection: columns 384 to 511. -/
theorem W9_v72 : W9 m c (Proc.devRef .tc main_v72)
    = extractStridedSlice S320000x128 ![0, 384] (EAK m c) slices_S320000x512_S320000x128_0_384 := by
  show StableHlo.after hostOps4 (W8 m c) (Proc.devRef .tc main_v72) = _
  after_results_simp
  rw [W8_v15 m c]

set_option maxHeartbeats 4000000 in
/-- The node weights: the first 384 rows of W₃. -/
theorem W9_v73 : W9 m c (Proc.devRef .tc main_v73)
    = extractStridedSlice S384x128 ![0, 0] (A9 m c) slices_S400x128_S384x128_0_0 := by
  show StableHlo.after hostOps4 (W8 m c) (Proc.devRef .tc main_v73) = _
  after_results_simp
  rw [(W_arg m c main_arg9 (by decide) (by decide) (by decide) (by decide) (by decide) (by decide) (by decide) (by decide)).2.2.2.2.2.2.2]

set_option maxHeartbeats 4000000 in
/-- The bias as a one-row matrix. -/
theorem W9_v74 : W9 m c (Proc.devRef .tc main_v74) = shapeCast S1x128 (A10 m c) shapeCasts_S128_S1x128 := by
  show StableHlo.after hostOps4 (W8 m c) (Proc.devRef .tc main_v74) = _
  after_results_simp
  rw [(W_arg m c main_arg10 (by decide) (by decide) (by decide) (by decide) (by decide) (by decide) (by decide) (by decide)).2.2.2.2.2.2.2]
  rfl

/-! ## The node-level product and the layer -/

/-- Entry (n, j) of the node-level product: row n of the three outputs side by side against column j of W₃'s first
    384 rows, plus b₃ at j. -/
theorem Y3K_apply (n : Fin 10000) (j : Fin 128) :
    Y3K m c (ix2 n j) = (∑ k : Fin 384, F3K m c (ix2 n k) * A9 m c (ix2 ⟨k.val, by omega⟩ j)) + A10 m c (ix1 j) := by
  refine HostIdx.hy_384 (F3K m c) (A9 m c) (A10 m c) (Y3K m c) (fun n j => ?_) n j
  have h0 : (Fr.V9 m c main_v71 : FVec Ideal S10000x384 .f32) = F3K m c := rfl
  have h1 : (Fr.V9 m c main_v73 : FVec Ideal S384x128 .f32) = _ := W9_v73 m c
  have h2 : (Fr.V9 m c main_v74 : FVec Ideal S1x128 .f32) = _ := W9_v74 m c
  refine ((congrFun (W10_arr m c 3) (ix2 n j)).trans (Val.final4 (Fr.V9 m) c n j)).trans ?_
  rw [Val.lin4_def, h0, h1, h2]

/-- Entry (e, j) of the layer's block of the edge projection: row e of edge_attr against column j of W₃'s last
    sixteen rows. -/
theorem E3K_apply (e : Fin 320000) (j : Fin 128) :
    E3K m c (ix2 e j) = ∑ k : Fin 16, A1 m c (ix2 e k) * A9 m c (ix2 ⟨384 + k.val, by omega⟩ j) := by
  have h : E3K m c = extractStridedSlice S320000x128 ![0, 384] (EAK m c) slices_S320000x512_S320000x128_0_384 :=
    (W10_keep m c main_v72 (by decide)).trans (W9_v72 m c)
  rw [h]
  exact HostIdx.heas_3 (A1 m c) (A3 m c) (A5 m c) (A7 m c) (A9 m c) (EAK m c) (fun e q => EAK_apply m c e q) e j

set_option maxHeartbeats 4000000 in
/-- The fourth layer's output is the closing step of its message. -/
theorem O3K_eq : O3K m c = tailK (A2 m c) (msgK (A2 m c) (Y3K m c) (E3K m c)) := by
  show StableHlo.after hostOps5 (W10 m c) (Proc.devRef .tc main_v89) = _
  after_results_simp
  rw [W10_v1 m c, W10_v3 m c, W10_v9 m c]
  rfl

end Cert.KernelIdeal.Bridge

end
-- ==== Proof.Bridge.lean ====
/-
  The bridge.  Layer by layer the idealized kernel's output array is the reference's.  Both programs close a layer the
  same way (the per-edge messages summed into their target nodes, each sum divided by the node's in-degree floored at
  one, all read off the same edge index), so a layer's outputs agree as soon as its messages do; and a layer's message is,
  on the kernel's side, the gathered row of the node-level product plus the layer's block of the edge projection, on the
  reference's side the gathered feature row joined with the edge attributes, times the whole weight matrix, plus the
  bias — one sum over the joined row, split where the features end.  The features of a later layer are the earlier
  outputs side by side, so the agreement passes from each layer to the next.
-/
import proofs.«122878_j84842783965681_2_alg».proof.Proof.KILayer0
import proofs.«122878_j84842783965681_2_alg».proof.Proof.KILayer1
import proofs.«122878_j84842783965681_2_alg».proof.Proof.KILayer2
import proofs.«122878_j84842783965681_2_alg».proof.Proof.KILayer3
import proofs.«122878_j84842783965681_2_alg».proof.Proof.RefRead

set_option maxRecDepth 16384

noncomputable section

namespace Cert.KernelIdeal.Bridge

open Idealize.ShloMosaic Idealize.ShloMosaic.TcCoe Idealize.SL.Sem Idealize.ShloMosaic.ValueIdx
open Cert.KernelIdeal Cert.KernelIdeal.Gen Cert.KernelIdeal.Fr
open Cert.Gcn.RefRun (tailR idxR O0R O1R F2R O2R F3R O3R)

/-- The kernel's closing step of its message is the reference's closing step of the same message: the two programs
    spell the endpoints, the floored in-degree, the row index, the gather and the sum into target nodes alike. -/
theorem tail_msg (x2 : (⟨S2x320000, .i32⟩ : BufTy).Contents (Elt Ideal)) (y : FVec Ideal S10000x128 .f32) (eas : FVec Ideal S320000x128 .f32) :
    tailK x2 (msgK x2 y eas)
      = tailR x2 (addf (F := Ideal) (φ := .f32)
          (Host.gather Cert.ReferenceIdeal.gather_S10000x128_S320000x1_S320000x128_1_0_n_n_0_1_1128 y (idxR x2)) eas) := rfl

variable (m : (ℓ : Loc nD τ sig) → Buf (Elt Ideal) ℓ) (c : Dev nD)

/-- The first layer's output is the reference's. -/
theorem L0 : O0K m c = O0R (A0 m c) (A1 m c) (A2 m c) (A3 m c) (A4 m c) := by
  rw [O0K_eq, tail_msg]
  exact congrArg (tailR (A2 m c)) (Cert.Gcn.msg_eq_128 (A0 m c) (A1 m c) (A3 m c) (A4 m c) (idxR (A2 m c)) (Y0K m c) (E0K m c)
    (Y0K_apply m c) (E0K_apply m c))

/-- The second layer's output is the reference's: its features are the first layer's output. -/
theorem L1 : O1K m c = O1R (A0 m c) (A1 m c) (A2 m c) (A3 m c) (A4 m c) (A5 m c) (A6 m c) := by
  rw [O1K_eq, tail_msg]
  refine congrArg (tailR (A2 m c)) (Cert.Gcn.msg_eq_128 (O0R (A0 m c) (A1 m c) (A2 m c) (A3 m c) (A4 m c)) (A1 m c) (A5 m c) (A6 m c)
    (idxR (A2 m c)) (Y1K m c) (E1K m c) (fun n j => ?_) (E1K_apply m c))
  rw [← L0 m c]
  exact Y1K_apply m c n j

/-- The third layer's features, the first two outputs side by side, are the reference's. -/
theorem F2 : F2K m c = F2R (A0 m c) (A1 m c) (A2 m c) (A3 m c) (A4 m c) (A5 m c) (A6 m c) := by
  rw [F2K_eq, L0, L1]
  rfl

/-- The third layer's output is the reference's. -/
theorem L2 : O2K m c = O2R (A0 m c) (A1 m c) (A2 m c) (A3 m c) (A4 m c) (A5 m c) (A6 m c) (A7 m c) (A8 m c) := by
  rw [O2K_eq, tail_msg]
  refine congrArg (tailR (A2 m c)) (Cert.Gcn.msg_eq_256 (F2R (A0 m c) (A1 m c) (A2 m c) (A3 m c) (A4 m c) (A5 m c) (A6 m c)) (A1 m c) (A7 m c) (A8 m c)
    (idxR (A2 m c)) (Y2K m c) (E2K m c) (fun n j => ?_) (E2K_apply m c))
  rw [← F2 m c]
  exact Y2K_apply m c n j

/-- The fourth layer's features, the first three outputs side by side, are the reference's. -/
theorem F3 : F3K m c = F3R (A0 m c) (A1 m c) (A2 m c) (A3 m c) (A4 m c) (A5 m c) (A6 m c) (A7 m c) (A8 m c) := by
  rw [F3K_eq, L0, L1, L2]
  rfl

/-- The fourth layer's output — the result — is the reference's. -/
theorem L3 : O3K m c = O3R (A0 m c) (A1 m c) (A2 m c) (A3 m c) (A4 m c) (A5 m c) (A6 m c) (A7 m c) (A8 m c) (A9 m c) (A10 m c) := by
  rw [O3K_eq, tail_msg]
  refine congrArg (tailR (A2 m c)) (Cert.Gcn.msg_eq_384 (F3R (A0 m c) (A1 m c) (A2 m c) (A3 m c) (A4 m c) (A5 m c) (A6 m c) (A7 m c) (A8 m c)) (A1 m c) (A9 m c) (A10 m c)
    (idxR (A2 m c)) (Y3K m c) (E3K m c) (fun n j => ?_) (E3K_apply m c))
  rw [← F3 m c]
  exact Y3K_apply m c n j

end Cert.KernelIdeal.Bridge

end
-- ==== Proof.lean ====
/-
  The certificate of a four-layer dense graph convolution: a Pallas implementation that hoists each layer's weight
  product to the nodes (y = features · W[0:C] + b, gathered per edge) and projects the edge attributes once for all
  four layers (edge_attr · [W₀[128:], W₁[128:], W₂[256:], W₃[384:]]), against the reference that multiplies each edge's
  joined row (gathered features, edge attributes) by the whole weight matrix.  Over the extended reals the two agree:
  per edge and output column, the reference's sum over the joined row splits where the features end into the
  kernel's two sums, and adding the bias before or after the second sum is the same, addition being commutative and
  associative; no product is distributed and nothing is cancelled, so the inputs' finiteness is never used.  The gather
  and the sum into target nodes read the same index words against the same node count in both programs.

  The three frames come from the runs: the kernel's @main as eleven segments (six stretches of host operations, five
  kernel regions), the reference as one stretch.  The idealization rewrote nothing, so its conjunct is trivial.
-/
import proofs.«122878_j84842783965681_2_alg».proof.Defs
import proofs.«122878_j84842783965681_2_alg».proof.Proof.Gen.Kernel
import proofs.«122878_j84842783965681_2_alg».proof.Proof.Gen.KernelIdeal
import proofs.«122878_j84842783965681_2_alg».proof.Proof.Gen.ReferenceIdeal
import proofs.«122878_j84842783965681_2_alg».proof.Proof.Gen.Pre_finite_inputs
import proofs.«122878_j84842783965681_2_alg».proof.Proof.Frames
import proofs.«122878_j84842783965681_2_alg».proof.Proof.Bridge

set_option maxRecDepth 16384

noncomputable section

namespace Cert.Proof

open Idealize.ShloMosaic Idealize.ShloMosaic.TcCoe Idealize.SL.Sem

/-- The idealized kernel and the idealized reference, run from memories that agree on the arguments, end with the
    same result array: the kernel's last boundary's contents at the result buffer, which layer by layer is the
    reference's term of the arguments. -/
theorem algebraic : Cert.algebraic_KernelIdeal_ReferenceIdeal := by
  intro m ρ m' ρ' _ hagree
  refine ⟨fun c => Cert.KernelIdeal.Fr.W11 m c (Proc.devRef .tc Cert.KernelIdeal.main_v89), ?_, ?_⟩
  · exact (θ_run Cert.KernelIdeal.defs _ _).mono (fun r h c => ⟨
      h c _ (Cert.KernelIdeal.Fr.mem_uc Cert.KernelIdeal.main_v89 (by decide)),
      Frames.kept_pi m c r.2.mem (h c) Cert.KernelIdeal.main_arg0 (by decide) (by decide),
      Frames.kept_pi m c r.2.mem (h c) Cert.KernelIdeal.main_arg1 (by decide) (by decide),
      Frames.kept_pi m c r.2.mem (h c) Cert.KernelIdeal.main_arg2 (by decide) (by decide),
      Frames.kept_pi m c r.2.mem (h c) Cert.KernelIdeal.main_arg3 (by decide) (by decide),
      Frames.kept_pi m c r.2.mem (h c) Cert.KernelIdeal.main_arg4 (by decide) (by decide),
      Frames.kept_pi m c r.2.mem (h c) Cert.KernelIdeal.main_arg5 (by decide) (by decide),
      Frames.kept_pi m c r.2.mem (h c) Cert.KernelIdeal.main_arg6 (by decide) (by decide),
      Frames.kept_pi m c r.2.mem (h c) Cert.KernelIdeal.main_arg7 (by decide) (by decide),
      Frames.kept_pi m c r.2.mem (h c) Cert.KernelIdeal.main_arg8 (by decide) (by decide),
      Frames.kept_pi m c r.2.mem (h c) Cert.KernelIdeal.main_arg9 (by decide) (by decide),
      Frames.kept_pi m c r.2.mem (h c) Cert.KernelIdeal.main_arg10 (by decide) (by decide)⟩)
      (Cert.KernelIdeal.Fr.run_all (F := Ideal) m ρ)
  · refine (θ_run Cert.ReferenceIdeal.defs _ _).mono (fun _ h c => ⟨(h c).1.trans ?_, (h c).2⟩)
      (Cert.Gcn.RefRun.run m' ρ')
    obtain ⟨e0, e1, e2, e3, e4, e5, e6, e7, e8, e9, e10⟩ := hagree c
    rw [e0, e1, e2, e3, e4, e5, e6, e7, e8, e9, e10]
    exact (Cert.KernelIdeal.Bridge.L3 m c).symm

theorem claim : Cert.Claim := ⟨Cert.Kernel.Gen.facts, Cert.KernelIdeal.Gen.facts, Cert.ReferenceIdeal.Gen.facts, Cert.Pre_finite_inputs.Gen.facts,
  Frames.frame_p, Frames.frame_pi, Frames.frame_ri, trivial, algebraic⟩

end Cert.Proof

end
